-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S5x128x128 : Shape := ⟨3, ![5, 128, 128]⟩
abbrev S5x128 : Shape := ⟨2, ![5, 128]⟩
abbrev S128x2 : Shape := ⟨2, ![128, 2]⟩
abbrev S2 : Shape := ⟨1, ![2]⟩
abbrev S2x1600000 : Shape := ⟨2, ![2, 1600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S5x128 .f32) (main_arg8 : FVec F S128x2 .f32) (main_arg9 : FVec F S128x2 .f32) (main_arg10 : FVec F S2 .f32) (main_v33 : IVec S_ 1) : IVec S_ 1 :=
  let main_v34 : FVec F S5x128 .f32 := Host.absf main_arg7
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S128x2 .f32 := Host.absf main_arg8
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S128x2 .f32 := Host.absf main_arg9
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S5x128 .f32) (main_arg5 : FVec F S5x128 .f32) (main_arg6 : FVec F S5x128 .f32) (main_arg7 : FVec F S5x128 .f32) (main_arg8 : FVec F S128x2 .f32) (main_arg9 : FVec F S128x2 .f32) (main_arg10 : FVec F S2 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg6
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S5x128x128 .f32) (main_arg2 : FVec F S5x128x128 .f32) (main_arg3 : FVec F S5x128 .f32) (main_arg4 : FVec F S5x128 .f32) (main_arg5 : FVec F S5x128 .f32) (main_arg6 : FVec F S5x128 .f32) (main_arg7 : FVec F S5x128 .f32) (main_arg8 : FVec F S128x2 .f32) (main_arg9 : FVec F S128x2 .f32) (main_arg10 : FVec F S2 .f32) (main_arg11 : IVec S2x1600000 32) (main_arg12 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg1
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128x128 .f32 := Host.absf main_arg2
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S5x128x128 : Shape := ⟨3, ![5, 128, 128]⟩
abbrev S5x128 : Shape := ⟨2, ![5, 128]⟩
abbrev S128x2 : Shape := ⟨2, ![128, 2]⟩
abbrev S2 : Shape := ⟨1, ![2]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S50000x2 : Shape := ⟨2, ![50000, 2]⟩
abbrev S2000x2 : Shape := ⟨2, ![2000, 2]⟩
abbrev S1x2 : Shape := ⟨2, ![1, 2]⟩
abbrev S512x2 : Shape := ⟨2, ![512, 2]⟩
abbrev S512 : Shape := ⟨1, ![512]⟩
abbrev S512x1 : Shape := ⟨2, ![512, 1]⟩

abbrev nBuf : Space → Nat
  | .hbm => 212
  | .vmem => 74
  | .smem => 0
  | _ => 0

abbrev hbmTy0_0 (i : Nat) : BufTy := match i % 128 with
  | 0 => ⟨S50000x128, .f32⟩
  | 1 => ⟨S5x128x128, .f32⟩
  | 2 => ⟨S5x128x128, .f32⟩
  | 3 => ⟨S5x128, .f32⟩
  | 4 => ⟨S5x128, .f32⟩
  | 5 => ⟨S5x128, .f32⟩
  | 6 => ⟨S5x128, .f32⟩
  | 7 => ⟨S5x128, .f32⟩
  | 8 => ⟨S128x2, .f32⟩
  | 9 => ⟨S128x2, .f32⟩
  | 10 => ⟨S2, .f32⟩
  | 11 => ⟨S2x1600000, .i32⟩
  | 12 => ⟨S50000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S50000, .f32⟩
  | 21 => ⟨S1600000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S50000x128, .f32⟩
  | 41 => ⟨S1600000x1, .i32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S50000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S50000x128, .f32⟩
  | 71 => ⟨S1600000x1, .i32⟩
  | 72 => ⟨S50000x128, .f32⟩
  | 73 => ⟨S50000x128, .f32⟩
  | 74 => ⟨S50000x128, .f32⟩
  | 75 => ⟨S1x128x128, .f32⟩
  | 76 => ⟨S128x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S50000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S50000x128, .f32⟩
  | 101 => ⟨S1600000x1, .i32⟩
  | 102 => ⟨S50000x128, .f32⟩
  | 103 => ⟨S50000x128, .f32⟩
  | 104 => ⟨S50000x128, .f32⟩
  | 105 => ⟨S1x128x128, .f32⟩
  | 106 => ⟨S128x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S50000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S50000x128, .f32⟩

abbrev hbmTy0_1 (i : Nat) : BufTy := match i % 128 with
  | 0 => ⟨S1600000x128, .f32⟩
  | 1 => ⟨S_, .f32⟩
  | 2 => ⟨S50000x128, .f32⟩
  | 3 => ⟨S1600000x1, .i32⟩
  | 4 => ⟨S50000x128, .f32⟩
  | 5 => ⟨S50000x128, .f32⟩
  | 6 => ⟨S50000x128, .f32⟩
  | 7 => ⟨S1x128x128, .f32⟩
  | 8 => ⟨S128x128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S50000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S50000x128, .f32⟩
  | 33 => ⟨S1600000x1, .i32⟩
  | 34 => ⟨S50000x128, .f32⟩
  | 35 => ⟨S50000x128, .f32⟩
  | 36 => ⟨S50000x128, .f32⟩
  | 37 => ⟨S1x128x128, .f32⟩
  | 38 => ⟨S128x128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S50000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S50000x128, .f32⟩
  | 63 => ⟨S1600000x1, .i32⟩
  | 64 => ⟨S50000x128, .f32⟩
  | 65 => ⟨S50000x128, .f32⟩
  | 66 => ⟨S50000x128, .f32⟩
  | 67 => ⟨S50000x2, .f32⟩
  | 68 => ⟨S_, .f32⟩
  | 69 => ⟨S512x2, .f32⟩
  | 70 => ⟨S50000x1, .i32⟩
  | 71 => ⟨S512x2, .f32⟩
  | 72 => ⟨S_, .f32⟩
  | 73 => ⟨S50000, .f32⟩
  | 74 => ⟨S_, .f32⟩
  | 75 => ⟨S512, .f32⟩
  | 76 => ⟨S50000x1, .i32⟩
  | 77 => ⟨S512, .f32⟩
  | 78 => ⟨S_, .f32⟩
  | 79 => ⟨S512, .f32⟩
  | 80 => ⟨S512, .f32⟩
  | 81 => ⟨S512x1, .f32⟩
  | 82 => ⟨S512x2, .f32⟩
  | 83 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S128x128, .f32⟩
  | .local _ .vmem, ⟨44, _⟩ => ⟨S128x128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S128x128, .f32⟩
  | .local _ .vmem, ⟨58, _⟩ => ⟨S128, .f32⟩
  | .local _ .vmem, ⟨59, _⟩ => ⟨S128, .f32⟩
  | .local _ .vmem, ⟨60, _⟩ => ⟨S128, .f32⟩
  | .local _ .vmem, ⟨61, _⟩ => ⟨S128, .f32⟩
  | .local _ .vmem, ⟨62, _⟩ => ⟨S128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S128x2, .f32⟩
  | .local _ .vmem, ⟨70, _⟩ => ⟨S128x2, .f32⟩
  | .local _ .vmem, ⟨71, _⟩ => ⟨S2, .f32⟩
  | .local _ .vmem, ⟨72, _⟩ => ⟨S2000x2, .f32⟩
  | .local _ .vmem, ⟨73, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_8 : Ref sig .tc := ⟨.hbm, 90, rfl⟩
abbrev main_v67 : Ref sig .tc := ⟨.hbm, 91, rfl⟩
abbrev main_v68 : Ref sig .tc := ⟨.hbm, 92, rfl⟩
abbrev main_c_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_10 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_11 : Ref sig .tc := ⟨.hbm, 120, rfl⟩
abbrev main_v94 : Ref sig .tc := ⟨.hbm, 121, rfl⟩
abbrev main_v95 : Ref sig .tc := ⟨.hbm, 122, rfl⟩
abbrev main_c_12 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_13 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_c_14 : Ref sig .tc := ⟨.hbm, 150, rfl⟩
abbrev main_v121 : Ref sig .tc := ⟨.hbm, 151, rfl⟩
abbrev main_v122 : Ref sig .tc := ⟨.hbm, 152, rfl⟩
abbrev main_c_15 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_16 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_c_17 : Ref sig .tc := ⟨.hbm, 180, rfl⟩
abbrev main_v148 : Ref sig .tc := ⟨.hbm, 181, rfl⟩
abbrev main_v149 : Ref sig .tc := ⟨.hbm, 182, rfl⟩
abbrev main_c_18 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_19 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_20 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_21 : Ref sig .tc := ⟨.hbm, 200, rfl⟩
abbrev main_v164 : Ref sig .tc := ⟨.hbm, 201, rfl⟩
abbrev main_cst_22 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_23 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg8_0 : Ref sig .tc := ⟨.vmem, 62, rfl⟩
abbrev cc4_stg9_0 : Ref sig .tc := ⟨.vmem, 63, rfl⟩
abbrev cc4_stg9_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg5_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem8_0 : DmaSem sig := 62
abbrev cc4_sem9_0 : DmaSem sig := 63
abbrev cc4_sem9_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem5_1 : DmaSem sig := 73

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  bcast_S_S512x2 : S_.BroadcastsInDim S512x2 (![] : Fin 0 → Fin S512x2.rank)
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  scatter_S512x2_S50000x1_S50000x2_1_0_0_1_wf : ScatterDims.WF S512x2 S50000x1 S50000x2 [1] [0] [0] 1
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S50000x128.size a
  hwx4_9 : ∀ i : grid4.Coords, EltTy.bits .f32 = 32 ∨ (Rect.block (s := S50000x128) S2000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x2.size a ≤ S128x2.size a
  hwx5_2 : ∀ i : grid5.Coords, EltTy.bits .f32 = 32 ∨ (Rect.block (s := S128x2) S128x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x2.size a ≤ S128x2.size a
  hwx5_3 : ∀ i : grid5.Coords, EltTy.bits .f32 = 32 ∨ (Rect.block (s := S128x2) S128x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2.size a ≤ S2.size a
  hwx5_4 : ∀ i : grid5.Coords, EltTy.bits .f32 = 32 ∨ (Rect.block (s := S2) S2.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x2.size a ≤ S50000x2.size a
  hwx5_5 : ∀ i : grid5.Coords, EltTy.bits .f32 = 32 ∨ (Rect.block (s := S50000x2) S2000x2.size (cc5_transform_5 i) (hinb5_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def scatter_S512x2_S50000x1_S50000x2_1_0_0_1 : ScatterDims S512x2 S50000x1 S50000x2 where
  updateWindowDims := [1]
  insertedWindowDims := [0]
  scatterDimsToOperandDims := [0]
  indexVectorDim := 1
  wf := scatter_S512x2_S50000x1_S50000x2_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v66) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v78) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v88) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v90) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v92) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v93) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v105) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v107) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v111) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v113) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v115) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v117) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v119) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v120) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v132) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v120) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v134) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v136) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v138) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v140) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v142) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v144) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v146) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v147) S2000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v159) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v147) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v160) S2000x2.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S5x128x128 : Shape := ⟨3, ![5, 128, 128]⟩
abbrev S5x128 : Shape := ⟨2, ![5, 128]⟩
abbrev S128x2 : Shape := ⟨2, ![128, 2]⟩
abbrev S2 : Shape := ⟨1, ![2]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S50000x2 : Shape := ⟨2, ![50000, 2]⟩
abbrev S1x2 : Shape := ⟨2, ![1, 2]⟩
abbrev S512x2 : Shape := ⟨2, ![512, 2]⟩
abbrev S512 : Shape := ⟨1, ![512]⟩
abbrev S512x1 : Shape := ⟨2, ![512, 1]⟩

abbrev nBuf : Space → Nat
  | .hbm => 327
  | .vmem => 0
  | .smem => 0
  | _ => 0

abbrev hbmTy0_0 (i : Nat) : BufTy := match i % 128 with
  | 0 => ⟨S50000x128, .f32⟩
  | 1 => ⟨S5x128x128, .f32⟩
  | 2 => ⟨S5x128x128, .f32⟩
  | 3 => ⟨S5x128, .f32⟩
  | 4 => ⟨S5x128, .f32⟩
  | 5 => ⟨S5x128, .f32⟩
  | 6 => ⟨S5x128, .f32⟩
  | 7 => ⟨S5x128, .f32⟩
  | 8 => ⟨S128x2, .f32⟩
  | 9 => ⟨S128x2, .f32⟩
  | 10 => ⟨S2, .f32⟩
  | 11 => ⟨S2x1600000, .i32⟩
  | 12 => ⟨S50000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S50000, .f32⟩
  | 21 => ⟨S1600000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000x1, .f32⟩
  | 30 => ⟨S1x128x128, .f32⟩
  | 31 => ⟨S128x128, .f32⟩
  | 32 => ⟨S1x128x128, .f32⟩
  | 33 => ⟨S128x128, .f32⟩
  | 34 => ⟨S1x128, .f32⟩
  | 35 => ⟨S128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S50000x128, .f32⟩
  | 47 => ⟨S1600000x1, .i32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S1x128x128, .f32⟩
  | 85 => ⟨S128x128, .f32⟩
  | 86 => ⟨S1x128, .f32⟩
  | 87 => ⟨S128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S50000x128, .f32⟩
  | 99 => ⟨S1600000x1, .i32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128x128, .f32⟩
  | 7 => ⟨S128x128, .f32⟩
  | 8 => ⟨S1x128x128, .f32⟩
  | 9 => ⟨S128x128, .f32⟩
  | 10 => ⟨S1x128, .f32⟩
  | 11 => ⟨S128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S50000x128, .f32⟩
  | 23 => ⟨S1600000x1, .i32⟩
  | 24 => ⟨S50000x128, .f32⟩
  | 25 => ⟨S50000x128, .f32⟩
  | 26 => ⟨S50000x128, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x128x128, .f32⟩
  | 59 => ⟨S128x128, .f32⟩
  | 60 => ⟨S1x128x128, .f32⟩
  | 61 => ⟨S128x128, .f32⟩
  | 62 => ⟨S1x128, .f32⟩
  | 63 => ⟨S128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S50000x128, .f32⟩
  | 75 => ⟨S1600000x1, .i32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S128, .f32⟩
  | 94 => ⟨S_, .f32⟩
  | 95 => ⟨S128, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S1x128x128, .f32⟩
  | 113 => ⟨S128x128, .f32⟩
  | 114 => ⟨S1x128, .f32⟩
  | 115 => ⟨S128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S50000x128, .f32⟩
  | 127 => ⟨S1600000x1, .i32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S128, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S50000x128, .f32⟩
  | 45 => ⟨S1600000x1, .i32⟩
  | 46 => ⟨S50000x128, .f32⟩
  | 47 => ⟨S50000x128, .f32⟩
  | 48 => ⟨S50000x128, .f32⟩
  | 49 => ⟨S50000x2, .f32⟩
  | 50 => ⟨S50000x2, .f32⟩
  | 51 => ⟨S50000x2, .f32⟩
  | 52 => ⟨S1x2, .f32⟩
  | 53 => ⟨S50000x2, .f32⟩
  | 54 => ⟨S50000x2, .f32⟩
  | 55 => ⟨S_, .f32⟩
  | 56 => ⟨S512x2, .f32⟩
  | 57 => ⟨S50000x1, .i32⟩
  | 58 => ⟨S512x2, .f32⟩
  | 59 => ⟨S_, .f32⟩
  | 60 => ⟨S50000, .f32⟩
  | 61 => ⟨S_, .f32⟩
  | 62 => ⟨S512, .f32⟩
  | 63 => ⟨S50000x1, .i32⟩
  | 64 => ⟨S512, .f32⟩
  | 65 => ⟨S_, .f32⟩
  | 66 => ⟨S512, .f32⟩
  | 67 => ⟨S512, .f32⟩
  | 68 => ⟨S512x1, .f32⟩
  | 69 => ⟨S512x2, .f32⟩
  | 70 => ⟨S512x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call0_cst : Ref sig .tc := ⟨.hbm, 79, rfl⟩
abbrev main_call0_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_6 : Ref sig .tc := ⟨.hbm, 88, rfl⟩
abbrev main_v65 : Ref sig .tc := ⟨.hbm, 89, rfl⟩
abbrev main_v66 : Ref sig .tc := ⟨.hbm, 90, rfl⟩
abbrev main_c_7 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_8 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_9 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_call1_cst : Ref sig .tc := ⟨.hbm, 131, rfl⟩
abbrev main_call1_v0 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_c_10 : Ref sig .tc := ⟨.hbm, 140, rfl⟩
abbrev main_v111 : Ref sig .tc := ⟨.hbm, 141, rfl⟩
abbrev main_v112 : Ref sig .tc := ⟨.hbm, 142, rfl⟩
abbrev main_c_11 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_12 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_13 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_call2_cst : Ref sig .tc := ⟨.hbm, 183, rfl⟩
abbrev main_call2_v0 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_c_14 : Ref sig .tc := ⟨.hbm, 192, rfl⟩
abbrev main_v157 : Ref sig .tc := ⟨.hbm, 193, rfl⟩
abbrev main_v158 : Ref sig .tc := ⟨.hbm, 194, rfl⟩
abbrev main_c_15 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_16 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_17 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_call3_cst : Ref sig .tc := ⟨.hbm, 235, rfl⟩
abbrev main_call3_v0 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_c_18 : Ref sig .tc := ⟨.hbm, 244, rfl⟩
abbrev main_v203 : Ref sig .tc := ⟨.hbm, 245, rfl⟩
abbrev main_v204 : Ref sig .tc := ⟨.hbm, 246, rfl⟩
abbrev main_c_19 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_cst_20 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_cst_21 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_call4_cst : Ref sig .tc := ⟨.hbm, 287, rfl⟩
abbrev main_call4_v0 : Ref sig .tc := ⟨.hbm, 288, rfl⟩
abbrev main_v242 : Ref sig .tc := ⟨.hbm, 289, rfl⟩
abbrev main_c_22 : Ref sig .tc := ⟨.hbm, 290, rfl⟩
abbrev main_v243 : Ref sig .tc := ⟨.hbm, 291, rfl⟩
abbrev main_v244 : Ref sig .tc := ⟨.hbm, 292, rfl⟩
abbrev main_c_23 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_cst_24 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_cst_25 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_cst_26 : Ref sig .tc := ⟨.hbm, 315, rfl⟩
abbrev main_v264 : Ref sig .tc := ⟨.hbm, 316, rfl⟩
abbrev main_cst_27 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_cst_28 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S512x2 : S_.BroadcastsInDim S512x2 (![] : Fin 0 → Fin S512x2.rank)
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []
  scatter_S512x2_S50000x1_S50000x2_1_0_0_1_wf : ScatterDims.WF S512x2 S50000x1 S50000x2 [1] [0] [0] 1
  scatter_S512_S50000x1_S50000_n_0_0_1_wf : ScatterDims.WF S512 S50000x1 S50000 [] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def scatter_S512x2_S50000x1_S50000x2_1_0_0_1 : ScatterDims S512x2 S50000x1 S50000x2 where
  updateWindowDims := [1]
  insertedWindowDims := [0]
  scatterDimsToOperandDims := [0]
  indexVectorDim := 1
  wf := scatter_S512x2_S50000x1_S50000x2_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.KRun.lean ====
import proofs.«157926_j75625784148632_1_alg».proof.Proof.Gen.KernelIdeal.Frame

/-!
The idealized kernel's run with its result named.

The frame's run already carries, at the last segment boundary, every unscoped buffer at the contents the fold through
@main's thirteen segments gives it (`Gen.W13`). Here the same launch over the same segments is read once more at the
result buffer: every weakly fair execution terminates, nothing faults, the result buffer ends at `W13` of that buffer,
and the arguments end as launched.
-/

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read at the last boundary's contents. -/
theorem run_result : θ_run defs (onTc (τ := τ) (main (F := F))) ⟨m, fun _ => 0, ρ⟩ (fun r => ∀ c : Dev nD,
      r.2.mem ((c.tc : Thread nD τ).loc main_v172) = W13 m ρ c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v172 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.RunResult

end
-- ==== Proof.KKeep.lean ====
import proofs.«157926_j75625784148632_1_alg».proof.Proof.Gen.KernelIdeal.Frame
import proofs.«157926_j75625784148632_1_alg».proof.Proof.ReadP

/-!
Buffers that outlive a layer.

Between the kernel's six regions the host recomputes, for every layer, the gather of the previous features at the
edges' sources, the scatter-add at the edges' destinations and the product with the inverse in-degree. Three buffers
computed once before the first region are read again by every later stretch — the sources `main_v1`, the destinations
`main_v3` and the inverse in-degree `main_v12` — and so are the weight arguments. No host operation after the first stretch
writes them and no region has them as a window, so at every segment boundary they still hold what they held when the first
region was entered: the reference's own `val_main_v1`, `val_main_v3`, `val_main_v12` of the edge list, and the arguments as
launched. This module states that, boundary by boundary.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- A buffer that no operation of a host stretch writes keeps its contents across the stretch: every operation's written
    buffer is a different reference. -/
macro "kept_host " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## At the first region's entry -/

theorem w1_main_v1 : W1 m ρ c (Proc.devRef .tc main_v1) = val_main_v1 (F := Ideal) (m ((c.tc : Thread nD τ).loc main_arg11)) := by
  show StableHlo.after hostOps0 (W0 m ρ c) (Proc.devRef .tc main_v1) = _
  after_results_simp
  rfl
theorem w1_main_v3 : W1 m ρ c (Proc.devRef .tc main_v3) = val_main_v3 (F := Ideal) (m ((c.tc : Thread nD τ).loc main_arg11)) := by
  show StableHlo.after hostOps0 (W0 m ρ c) (Proc.devRef .tc main_v3) = _
  after_results_simp
  rfl
theorem w1_main_v12 : W1 m ρ c (Proc.devRef .tc main_v12) = val_main_v12 (F := Ideal) (m ((c.tc : Thread nD τ).loc main_arg11)) := by
  show StableHlo.after hostOps0 (W0 m ρ c) (Proc.devRef .tc main_v12) = _
  after_results_simp
  rfl
theorem w1_main_arg1 : W1 m ρ c (Proc.devRef .tc main_arg1) = m ((c.tc : Thread nD τ).loc main_arg1) :=
  (by kept_host hostOps0 : StableHlo.after hostOps0 (W0 m ρ c) (Proc.devRef .tc main_arg1) = W0 m ρ c (Proc.devRef .tc main_arg1)).trans rfl
theorem w1_main_arg2 : W1 m ρ c (Proc.devRef .tc main_arg2) = m ((c.tc : Thread nD τ).loc main_arg2) :=
  (by kept_host hostOps0 : StableHlo.after hostOps0 (W0 m ρ c) (Proc.devRef .tc main_arg2) = W0 m ρ c (Proc.devRef .tc main_arg2)).trans rfl
theorem w1_main_arg3 : W1 m ρ c (Proc.devRef .tc main_arg3) = m ((c.tc : Thread nD τ).loc main_arg3) :=
  (by kept_host hostOps0 : StableHlo.after hostOps0 (W0 m ρ c) (Proc.devRef .tc main_arg3) = W0 m ρ c (Proc.devRef .tc main_arg3)).trans rfl
theorem w1_main_arg4 : W1 m ρ c (Proc.devRef .tc main_arg4) = m ((c.tc : Thread nD τ).loc main_arg4) :=
  (by kept_host hostOps0 : StableHlo.after hostOps0 (W0 m ρ c) (Proc.devRef .tc main_arg4) = W0 m ρ c (Proc.devRef .tc main_arg4)).trans rfl
theorem w1_main_arg5 : W1 m ρ c (Proc.devRef .tc main_arg5) = m ((c.tc : Thread nD τ).loc main_arg5) :=
  (by kept_host hostOps0 : StableHlo.after hostOps0 (W0 m ρ c) (Proc.devRef .tc main_arg5) = W0 m ρ c (Proc.devRef .tc main_arg5)).trans rfl
theorem w1_main_arg6 : W1 m ρ c (Proc.devRef .tc main_arg6) = m ((c.tc : Thread nD τ).loc main_arg6) :=
  (by kept_host hostOps0 : StableHlo.after hostOps0 (W0 m ρ c) (Proc.devRef .tc main_arg6) = W0 m ρ c (Proc.devRef .tc main_arg6)).trans rfl
theorem w1_main_arg7 : W1 m ρ c (Proc.devRef .tc main_arg7) = m ((c.tc : Thread nD τ).loc main_arg7) :=
  (by kept_host hostOps0 : StableHlo.after hostOps0 (W0 m ρ c) (Proc.devRef .tc main_arg7) = W0 m ρ c (Proc.devRef .tc main_arg7)).trans rfl
theorem w1_main_arg8 : W1 m ρ c (Proc.devRef .tc main_arg8) = m ((c.tc : Thread nD τ).loc main_arg8) :=
  (by kept_host hostOps0 : StableHlo.after hostOps0 (W0 m ρ c) (Proc.devRef .tc main_arg8) = W0 m ρ c (Proc.devRef .tc main_arg8)).trans rfl
theorem w1_main_arg9 : W1 m ρ c (Proc.devRef .tc main_arg9) = m ((c.tc : Thread nD τ).loc main_arg9) :=
  (by kept_host hostOps0 : StableHlo.after hostOps0 (W0 m ρ c) (Proc.devRef .tc main_arg9) = W0 m ρ c (Proc.devRef .tc main_arg9)).trans rfl
theorem w1_main_arg10 : W1 m ρ c (Proc.devRef .tc main_arg10) = m ((c.tc : Thread nD τ).loc main_arg10) :=
  (by kept_host hostOps0 : StableHlo.after hostOps0 (W0 m ρ c) (Proc.devRef .tc main_arg10) = W0 m ρ c (Proc.devRef .tc main_arg10)).trans rfl
theorem w1_main_arg12 : W1 m ρ c (Proc.devRef .tc main_arg12) = m ((c.tc : Thread nD τ).loc main_arg12) :=
  (by kept_host hostOps0 : StableHlo.after hostOps0 (W0 m ρ c) (Proc.devRef .tc main_arg12) = W0 m ρ c (Proc.devRef .tc main_arg12)).trans rfl

/-! ## Across each later boundary -/

theorem at2_main_v1 : W2 m ρ c (Proc.devRef .tc main_v1) = val_main_v1 (F := Ideal) (m ((c.tc : Thread nD τ).loc main_arg11)) :=
  (W2_of_ne m ρ c main_v1 (by decide)).trans (w1_main_v1 m ρ c)
theorem at3_main_v1 : W3 m ρ c (Proc.devRef .tc main_v1) = val_main_v1 (F := Ideal) (m ((c.tc : Thread nD τ).loc main_arg11)) :=
  (by kept_host hostOps1 : StableHlo.after hostOps1 (W2 m ρ c) (Proc.devRef .tc main_v1) = W2 m ρ c (Proc.devRef .tc main_v1)).trans (at2_main_v1 m ρ c)
theorem at4_main_v1 : W4 m ρ c (Proc.devRef .tc main_v1) = val_main_v1 (F := Ideal) (m ((c.tc : Thread nD τ).loc main_arg11)) :=
  (W4_of_ne m ρ c main_v1 (by decide)).trans (at3_main_v1 m ρ c)
theorem at5_main_v1 : W5 m ρ c (Proc.devRef .tc main_v1) = val_main_v1 (F := Ideal) (m ((c.tc : Thread nD τ).loc main_arg11)) :=
  (by kept_host hostOps2 : StableHlo.after hostOps2 (W4 m ρ c) (Proc.devRef .tc main_v1) = W4 m ρ c (Proc.devRef .tc main_v1)).trans (at4_main_v1 m ρ c)
theorem at6_main_v1 : W6 m ρ c (Proc.devRef .tc main_v1) = val_main_v1 (F := Ideal) (m ((c.tc : Thread nD τ).loc main_arg11)) :=
  (W6_of_ne m ρ c main_v1 (by decide)).trans (at5_main_v1 m ρ c)
theorem at7_main_v1 : W7 m ρ c (Proc.devRef .tc main_v1) = val_main_v1 (F := Ideal) (m ((c.tc : Thread nD τ).loc main_arg11)) :=
  (by kept_host hostOps3 : StableHlo.after hostOps3 (W6 m ρ c) (Proc.devRef .tc main_v1) = W6 m ρ c (Proc.devRef .tc main_v1)).trans (at6_main_v1 m ρ c)
theorem at8_main_v1 : W8 m ρ c (Proc.devRef .tc main_v1) = val_main_v1 (F := Ideal) (m ((c.tc : Thread nD τ).loc main_arg11)) :=
  (W8_of_ne m ρ c main_v1 (by decide)).trans (at7_main_v1 m ρ c)
theorem at9_main_v1 : W9 m ρ c (Proc.devRef .tc main_v1) = val_main_v1 (F := Ideal) (m ((c.tc : Thread nD τ).loc main_arg11)) :=
  (by kept_host hostOps4 : StableHlo.after hostOps4 (W8 m ρ c) (Proc.devRef .tc main_v1) = W8 m ρ c (Proc.devRef .tc main_v1)).trans (at8_main_v1 m ρ c)
theorem at10_main_v1 : W10 m ρ c (Proc.devRef .tc main_v1) = val_main_v1 (F := Ideal) (m ((c.tc : Thread nD τ).loc main_arg11)) :=
  (W10_of_ne m ρ c main_v1 (by decide)).trans (at9_main_v1 m ρ c)

theorem at2_main_v3 : W2 m ρ c (Proc.devRef .tc main_v3) = val_main_v3 (F := Ideal) (m ((c.tc : Thread nD τ).loc main_arg11)) :=
  (W2_of_ne m ρ c main_v3 (by decide)).trans (w1_main_v3 m ρ c)
theorem at3_main_v3 : W3 m ρ c (Proc.devRef .tc main_v3) = val_main_v3 (F := Ideal) (m ((c.tc : Thread nD τ).loc main_arg11)) :=
  (by kept_host hostOps1 : StableHlo.after hostOps1 (W2 m ρ c) (Proc.devRef .tc main_v3) = W2 m ρ c (Proc.devRef .tc main_v3)).trans (at2_main_v3 m ρ c)
theorem at4_main_v3 : W4 m ρ c (Proc.devRef .tc main_v3) = val_main_v3 (F := Ideal) (m ((c.tc : Thread nD τ).loc main_arg11)) :=
  (W4_of_ne m ρ c main_v3 (by decide)).trans (at3_main_v3 m ρ c)
theorem at5_main_v3 : W5 m ρ c (Proc.devRef .tc main_v3) = val_main_v3 (F := Ideal) (m ((c.tc : Thread nD τ).loc main_arg11)) :=
  (by kept_host hostOps2 : StableHlo.after hostOps2 (W4 m ρ c) (Proc.devRef .tc main_v3) = W4 m ρ c (Proc.devRef .tc main_v3)).trans (at4_main_v3 m ρ c)
theorem at6_main_v3 : W6 m ρ c (Proc.devRef .tc main_v3) = val_main_v3 (F := Ideal) (m ((c.tc : Thread nD τ).loc main_arg11)) :=
  (W6_of_ne m ρ c main_v3 (by decide)).trans (at5_main_v3 m ρ c)
theorem at7_main_v3 : W7 m ρ c (Proc.devRef .tc main_v3) = val_main_v3 (F := Ideal) (m ((c.tc : Thread nD τ).loc main_arg11)) :=
  (by kept_host hostOps3 : StableHlo.after hostOps3 (W6 m ρ c) (Proc.devRef .tc main_v3) = W6 m ρ c (Proc.devRef .tc main_v3)).trans (at6_main_v3 m ρ c)
theorem at8_main_v3 : W8 m ρ c (Proc.devRef .tc main_v3) = val_main_v3 (F := Ideal) (m ((c.tc : Thread nD τ).loc main_arg11)) :=
  (W8_of_ne m ρ c main_v3 (by decide)).trans (at7_main_v3 m ρ c)
theorem at9_main_v3 : W9 m ρ c (Proc.devRef .tc main_v3) = val_main_v3 (F := Ideal) (m ((c.tc : Thread nD τ).loc main_arg11)) :=
  (by kept_host hostOps4 : StableHlo.after hostOps4 (W8 m ρ c) (Proc.devRef .tc main_v3) = W8 m ρ c (Proc.devRef .tc main_v3)).trans (at8_main_v3 m ρ c)
theorem at10_main_v3 : W10 m ρ c (Proc.devRef .tc main_v3) = val_main_v3 (F := Ideal) (m ((c.tc : Thread nD τ).loc main_arg11)) :=
  (W10_of_ne m ρ c main_v3 (by decide)).trans (at9_main_v3 m ρ c)

theorem at2_main_v12 : W2 m ρ c (Proc.devRef .tc main_v12) = val_main_v12 (F := Ideal) (m ((c.tc : Thread nD τ).loc main_arg11)) :=
  (W2_of_ne m ρ c main_v12 (by decide)).trans (w1_main_v12 m ρ c)
theorem at3_main_v12 : W3 m ρ c (Proc.devRef .tc main_v12) = val_main_v12 (F := Ideal) (m ((c.tc : Thread nD τ).loc main_arg11)) :=
  (by kept_host hostOps1 : StableHlo.after hostOps1 (W2 m ρ c) (Proc.devRef .tc main_v12) = W2 m ρ c (Proc.devRef .tc main_v12)).trans (at2_main_v12 m ρ c)
theorem at4_main_v12 : W4 m ρ c (Proc.devRef .tc main_v12) = val_main_v12 (F := Ideal) (m ((c.tc : Thread nD τ).loc main_arg11)) :=
  (W4_of_ne m ρ c main_v12 (by decide)).trans (at3_main_v12 m ρ c)
theorem at5_main_v12 : W5 m ρ c (Proc.devRef .tc main_v12) = val_main_v12 (F := Ideal) (m ((c.tc : Thread nD τ).loc main_arg11)) :=
  (by kept_host hostOps2 : StableHlo.after hostOps2 (W4 m ρ c) (Proc.devRef .tc main_v12) = W4 m ρ c (Proc.devRef .tc main_v12)).trans (at4_main_v12 m ρ c)
theorem at6_main_v12 : W6 m ρ c (Proc.devRef .tc main_v12) = val_main_v12 (F := Ideal) (m ((c.tc : Thread nD τ).loc main_arg11)) :=
  (W6_of_ne m ρ c main_v12 (by decide)).trans (at5_main_v12 m ρ c)
theorem at7_main_v12 : W7 m ρ c (Proc.devRef .tc main_v12) = val_main_v12 (F := Ideal) (m ((c.tc : Thread nD τ).loc main_arg11)) :=
  (by kept_host hostOps3 : StableHlo.after hostOps3 (W6 m ρ c) (Proc.devRef .tc main_v12) = W6 m ρ c (Proc.devRef .tc main_v12)).trans (at6_main_v12 m ρ c)
theorem at8_main_v12 : W8 m ρ c (Proc.devRef .tc main_v12) = val_main_v12 (F := Ideal) (m ((c.tc : Thread nD τ).loc main_arg11)) :=
  (W8_of_ne m ρ c main_v12 (by decide)).trans (at7_main_v12 m ρ c)
theorem at9_main_v12 : W9 m ρ c (Proc.devRef .tc main_v12) = val_main_v12 (F := Ideal) (m ((c.tc : Thread nD τ).loc main_arg11)) :=
  (by kept_host hostOps4 : StableHlo.after hostOps4 (W8 m ρ c) (Proc.devRef .tc main_v12) = W8 m ρ c (Proc.devRef .tc main_v12)).trans (at8_main_v12 m ρ c)
theorem at10_main_v12 : W10 m ρ c (Proc.devRef .tc main_v12) = val_main_v12 (F := Ideal) (m ((c.tc : Thread nD τ).loc main_arg11)) :=
  (W10_of_ne m ρ c main_v12 (by decide)).trans (at9_main_v12 m ρ c)

theorem at2_main_arg1 : W2 m ρ c (Proc.devRef .tc main_arg1) = m ((c.tc : Thread nD τ).loc main_arg1) :=
  (W2_of_ne m ρ c main_arg1 (by decide)).trans (w1_main_arg1 m ρ c)
theorem at3_main_arg1 : W3 m ρ c (Proc.devRef .tc main_arg1) = m ((c.tc : Thread nD τ).loc main_arg1) :=
  (by kept_host hostOps1 : StableHlo.after hostOps1 (W2 m ρ c) (Proc.devRef .tc main_arg1) = W2 m ρ c (Proc.devRef .tc main_arg1)).trans (at2_main_arg1 m ρ c)
theorem at4_main_arg1 : W4 m ρ c (Proc.devRef .tc main_arg1) = m ((c.tc : Thread nD τ).loc main_arg1) :=
  (W4_of_ne m ρ c main_arg1 (by decide)).trans (at3_main_arg1 m ρ c)
theorem at5_main_arg1 : W5 m ρ c (Proc.devRef .tc main_arg1) = m ((c.tc : Thread nD τ).loc main_arg1) :=
  (by kept_host hostOps2 : StableHlo.after hostOps2 (W4 m ρ c) (Proc.devRef .tc main_arg1) = W4 m ρ c (Proc.devRef .tc main_arg1)).trans (at4_main_arg1 m ρ c)
theorem at6_main_arg1 : W6 m ρ c (Proc.devRef .tc main_arg1) = m ((c.tc : Thread nD τ).loc main_arg1) :=
  (W6_of_ne m ρ c main_arg1 (by decide)).trans (at5_main_arg1 m ρ c)
theorem at7_main_arg1 : W7 m ρ c (Proc.devRef .tc main_arg1) = m ((c.tc : Thread nD τ).loc main_arg1) :=
  (by kept_host hostOps3 : StableHlo.after hostOps3 (W6 m ρ c) (Proc.devRef .tc main_arg1) = W6 m ρ c (Proc.devRef .tc main_arg1)).trans (at6_main_arg1 m ρ c)
theorem at8_main_arg1 : W8 m ρ c (Proc.devRef .tc main_arg1) = m ((c.tc : Thread nD τ).loc main_arg1) :=
  (W8_of_ne m ρ c main_arg1 (by decide)).trans (at7_main_arg1 m ρ c)
theorem at9_main_arg1 : W9 m ρ c (Proc.devRef .tc main_arg1) = m ((c.tc : Thread nD τ).loc main_arg1) :=
  (by kept_host hostOps4 : StableHlo.after hostOps4 (W8 m ρ c) (Proc.devRef .tc main_arg1) = W8 m ρ c (Proc.devRef .tc main_arg1)).trans (at8_main_arg1 m ρ c)
theorem at10_main_arg1 : W10 m ρ c (Proc.devRef .tc main_arg1) = m ((c.tc : Thread nD τ).loc main_arg1) :=
  (W10_of_ne m ρ c main_arg1 (by decide)).trans (at9_main_arg1 m ρ c)

theorem at2_main_arg2 : W2 m ρ c (Proc.devRef .tc main_arg2) = m ((c.tc : Thread nD τ).loc main_arg2) :=
  (W2_of_ne m ρ c main_arg2 (by decide)).trans (w1_main_arg2 m ρ c)
theorem at3_main_arg2 : W3 m ρ c (Proc.devRef .tc main_arg2) = m ((c.tc : Thread nD τ).loc main_arg2) :=
  (by kept_host hostOps1 : StableHlo.after hostOps1 (W2 m ρ c) (Proc.devRef .tc main_arg2) = W2 m ρ c (Proc.devRef .tc main_arg2)).trans (at2_main_arg2 m ρ c)
theorem at4_main_arg2 : W4 m ρ c (Proc.devRef .tc main_arg2) = m ((c.tc : Thread nD τ).loc main_arg2) :=
  (W4_of_ne m ρ c main_arg2 (by decide)).trans (at3_main_arg2 m ρ c)
theorem at5_main_arg2 : W5 m ρ c (Proc.devRef .tc main_arg2) = m ((c.tc : Thread nD τ).loc main_arg2) :=
  (by kept_host hostOps2 : StableHlo.after hostOps2 (W4 m ρ c) (Proc.devRef .tc main_arg2) = W4 m ρ c (Proc.devRef .tc main_arg2)).trans (at4_main_arg2 m ρ c)
theorem at6_main_arg2 : W6 m ρ c (Proc.devRef .tc main_arg2) = m ((c.tc : Thread nD τ).loc main_arg2) :=
  (W6_of_ne m ρ c main_arg2 (by decide)).trans (at5_main_arg2 m ρ c)
theorem at7_main_arg2 : W7 m ρ c (Proc.devRef .tc main_arg2) = m ((c.tc : Thread nD τ).loc main_arg2) :=
  (by kept_host hostOps3 : StableHlo.after hostOps3 (W6 m ρ c) (Proc.devRef .tc main_arg2) = W6 m ρ c (Proc.devRef .tc main_arg2)).trans (at6_main_arg2 m ρ c)
theorem at8_main_arg2 : W8 m ρ c (Proc.devRef .tc main_arg2) = m ((c.tc : Thread nD τ).loc main_arg2) :=
  (W8_of_ne m ρ c main_arg2 (by decide)).trans (at7_main_arg2 m ρ c)
theorem at9_main_arg2 : W9 m ρ c (Proc.devRef .tc main_arg2) = m ((c.tc : Thread nD τ).loc main_arg2) :=
  (by kept_host hostOps4 : StableHlo.after hostOps4 (W8 m ρ c) (Proc.devRef .tc main_arg2) = W8 m ρ c (Proc.devRef .tc main_arg2)).trans (at8_main_arg2 m ρ c)
theorem at10_main_arg2 : W10 m ρ c (Proc.devRef .tc main_arg2) = m ((c.tc : Thread nD τ).loc main_arg2) :=
  (W10_of_ne m ρ c main_arg2 (by decide)).trans (at9_main_arg2 m ρ c)

theorem at2_main_arg3 : W2 m ρ c (Proc.devRef .tc main_arg3) = m ((c.tc : Thread nD τ).loc main_arg3) :=
  (W2_of_ne m ρ c main_arg3 (by decide)).trans (w1_main_arg3 m ρ c)
theorem at3_main_arg3 : W3 m ρ c (Proc.devRef .tc main_arg3) = m ((c.tc : Thread nD τ).loc main_arg3) :=
  (by kept_host hostOps1 : StableHlo.after hostOps1 (W2 m ρ c) (Proc.devRef .tc main_arg3) = W2 m ρ c (Proc.devRef .tc main_arg3)).trans (at2_main_arg3 m ρ c)
theorem at4_main_arg3 : W4 m ρ c (Proc.devRef .tc main_arg3) = m ((c.tc : Thread nD τ).loc main_arg3) :=
  (W4_of_ne m ρ c main_arg3 (by decide)).trans (at3_main_arg3 m ρ c)
theorem at5_main_arg3 : W5 m ρ c (Proc.devRef .tc main_arg3) = m ((c.tc : Thread nD τ).loc main_arg3) :=
  (by kept_host hostOps2 : StableHlo.after hostOps2 (W4 m ρ c) (Proc.devRef .tc main_arg3) = W4 m ρ c (Proc.devRef .tc main_arg3)).trans (at4_main_arg3 m ρ c)
theorem at6_main_arg3 : W6 m ρ c (Proc.devRef .tc main_arg3) = m ((c.tc : Thread nD τ).loc main_arg3) :=
  (W6_of_ne m ρ c main_arg3 (by decide)).trans (at5_main_arg3 m ρ c)
theorem at7_main_arg3 : W7 m ρ c (Proc.devRef .tc main_arg3) = m ((c.tc : Thread nD τ).loc main_arg3) :=
  (by kept_host hostOps3 : StableHlo.after hostOps3 (W6 m ρ c) (Proc.devRef .tc main_arg3) = W6 m ρ c (Proc.devRef .tc main_arg3)).trans (at6_main_arg3 m ρ c)
theorem at8_main_arg3 : W8 m ρ c (Proc.devRef .tc main_arg3) = m ((c.tc : Thread nD τ).loc main_arg3) :=
  (W8_of_ne m ρ c main_arg3 (by decide)).trans (at7_main_arg3 m ρ c)
theorem at9_main_arg3 : W9 m ρ c (Proc.devRef .tc main_arg3) = m ((c.tc : Thread nD τ).loc main_arg3) :=
  (by kept_host hostOps4 : StableHlo.after hostOps4 (W8 m ρ c) (Proc.devRef .tc main_arg3) = W8 m ρ c (Proc.devRef .tc main_arg3)).trans (at8_main_arg3 m ρ c)
theorem at10_main_arg3 : W10 m ρ c (Proc.devRef .tc main_arg3) = m ((c.tc : Thread nD τ).loc main_arg3) :=
  (W10_of_ne m ρ c main_arg3 (by decide)).trans (at9_main_arg3 m ρ c)

theorem at2_main_arg4 : W2 m ρ c (Proc.devRef .tc main_arg4) = m ((c.tc : Thread nD τ).loc main_arg4) :=
  (W2_of_ne m ρ c main_arg4 (by decide)).trans (w1_main_arg4 m ρ c)
theorem at3_main_arg4 : W3 m ρ c (Proc.devRef .tc main_arg4) = m ((c.tc : Thread nD τ).loc main_arg4) :=
  (by kept_host hostOps1 : StableHlo.after hostOps1 (W2 m ρ c) (Proc.devRef .tc main_arg4) = W2 m ρ c (Proc.devRef .tc main_arg4)).trans (at2_main_arg4 m ρ c)
theorem at4_main_arg4 : W4 m ρ c (Proc.devRef .tc main_arg4) = m ((c.tc : Thread nD τ).loc main_arg4) :=
  (W4_of_ne m ρ c main_arg4 (by decide)).trans (at3_main_arg4 m ρ c)
theorem at5_main_arg4 : W5 m ρ c (Proc.devRef .tc main_arg4) = m ((c.tc : Thread nD τ).loc main_arg4) :=
  (by kept_host hostOps2 : StableHlo.after hostOps2 (W4 m ρ c) (Proc.devRef .tc main_arg4) = W4 m ρ c (Proc.devRef .tc main_arg4)).trans (at4_main_arg4 m ρ c)
theorem at6_main_arg4 : W6 m ρ c (Proc.devRef .tc main_arg4) = m ((c.tc : Thread nD τ).loc main_arg4) :=
  (W6_of_ne m ρ c main_arg4 (by decide)).trans (at5_main_arg4 m ρ c)
theorem at7_main_arg4 : W7 m ρ c (Proc.devRef .tc main_arg4) = m ((c.tc : Thread nD τ).loc main_arg4) :=
  (by kept_host hostOps3 : StableHlo.after hostOps3 (W6 m ρ c) (Proc.devRef .tc main_arg4) = W6 m ρ c (Proc.devRef .tc main_arg4)).trans (at6_main_arg4 m ρ c)
theorem at8_main_arg4 : W8 m ρ c (Proc.devRef .tc main_arg4) = m ((c.tc : Thread nD τ).loc main_arg4) :=
  (W8_of_ne m ρ c main_arg4 (by decide)).trans (at7_main_arg4 m ρ c)
theorem at9_main_arg4 : W9 m ρ c (Proc.devRef .tc main_arg4) = m ((c.tc : Thread nD τ).loc main_arg4) :=
  (by kept_host hostOps4 : StableHlo.after hostOps4 (W8 m ρ c) (Proc.devRef .tc main_arg4) = W8 m ρ c (Proc.devRef .tc main_arg4)).trans (at8_main_arg4 m ρ c)
theorem at10_main_arg4 : W10 m ρ c (Proc.devRef .tc main_arg4) = m ((c.tc : Thread nD τ).loc main_arg4) :=
  (W10_of_ne m ρ c main_arg4 (by decide)).trans (at9_main_arg4 m ρ c)

theorem at2_main_arg5 : W2 m ρ c (Proc.devRef .tc main_arg5) = m ((c.tc : Thread nD τ).loc main_arg5) :=
  (W2_of_ne m ρ c main_arg5 (by decide)).trans (w1_main_arg5 m ρ c)
theorem at3_main_arg5 : W3 m ρ c (Proc.devRef .tc main_arg5) = m ((c.tc : Thread nD τ).loc main_arg5) :=
  (by kept_host hostOps1 : StableHlo.after hostOps1 (W2 m ρ c) (Proc.devRef .tc main_arg5) = W2 m ρ c (Proc.devRef .tc main_arg5)).trans (at2_main_arg5 m ρ c)
theorem at4_main_arg5 : W4 m ρ c (Proc.devRef .tc main_arg5) = m ((c.tc : Thread nD τ).loc main_arg5) :=
  (W4_of_ne m ρ c main_arg5 (by decide)).trans (at3_main_arg5 m ρ c)
theorem at5_main_arg5 : W5 m ρ c (Proc.devRef .tc main_arg5) = m ((c.tc : Thread nD τ).loc main_arg5) :=
  (by kept_host hostOps2 : StableHlo.after hostOps2 (W4 m ρ c) (Proc.devRef .tc main_arg5) = W4 m ρ c (Proc.devRef .tc main_arg5)).trans (at4_main_arg5 m ρ c)
theorem at6_main_arg5 : W6 m ρ c (Proc.devRef .tc main_arg5) = m ((c.tc : Thread nD τ).loc main_arg5) :=
  (W6_of_ne m ρ c main_arg5 (by decide)).trans (at5_main_arg5 m ρ c)
theorem at7_main_arg5 : W7 m ρ c (Proc.devRef .tc main_arg5) = m ((c.tc : Thread nD τ).loc main_arg5) :=
  (by kept_host hostOps3 : StableHlo.after hostOps3 (W6 m ρ c) (Proc.devRef .tc main_arg5) = W6 m ρ c (Proc.devRef .tc main_arg5)).trans (at6_main_arg5 m ρ c)
theorem at8_main_arg5 : W8 m ρ c (Proc.devRef .tc main_arg5) = m ((c.tc : Thread nD τ).loc main_arg5) :=
  (W8_of_ne m ρ c main_arg5 (by decide)).trans (at7_main_arg5 m ρ c)
theorem at9_main_arg5 : W9 m ρ c (Proc.devRef .tc main_arg5) = m ((c.tc : Thread nD τ).loc main_arg5) :=
  (by kept_host hostOps4 : StableHlo.after hostOps4 (W8 m ρ c) (Proc.devRef .tc main_arg5) = W8 m ρ c (Proc.devRef .tc main_arg5)).trans (at8_main_arg5 m ρ c)
theorem at10_main_arg5 : W10 m ρ c (Proc.devRef .tc main_arg5) = m ((c.tc : Thread nD τ).loc main_arg5) :=
  (W10_of_ne m ρ c main_arg5 (by decide)).trans (at9_main_arg5 m ρ c)

theorem at2_main_arg6 : W2 m ρ c (Proc.devRef .tc main_arg6) = m ((c.tc : Thread nD τ).loc main_arg6) :=
  (W2_of_ne m ρ c main_arg6 (by decide)).trans (w1_main_arg6 m ρ c)
theorem at3_main_arg6 : W3 m ρ c (Proc.devRef .tc main_arg6) = m ((c.tc : Thread nD τ).loc main_arg6) :=
  (by kept_host hostOps1 : StableHlo.after hostOps1 (W2 m ρ c) (Proc.devRef .tc main_arg6) = W2 m ρ c (Proc.devRef .tc main_arg6)).trans (at2_main_arg6 m ρ c)
theorem at4_main_arg6 : W4 m ρ c (Proc.devRef .tc main_arg6) = m ((c.tc : Thread nD τ).loc main_arg6) :=
  (W4_of_ne m ρ c main_arg6 (by decide)).trans (at3_main_arg6 m ρ c)
theorem at5_main_arg6 : W5 m ρ c (Proc.devRef .tc main_arg6) = m ((c.tc : Thread nD τ).loc main_arg6) :=
  (by kept_host hostOps2 : StableHlo.after hostOps2 (W4 m ρ c) (Proc.devRef .tc main_arg6) = W4 m ρ c (Proc.devRef .tc main_arg6)).trans (at4_main_arg6 m ρ c)
theorem at6_main_arg6 : W6 m ρ c (Proc.devRef .tc main_arg6) = m ((c.tc : Thread nD τ).loc main_arg6) :=
  (W6_of_ne m ρ c main_arg6 (by decide)).trans (at5_main_arg6 m ρ c)
theorem at7_main_arg6 : W7 m ρ c (Proc.devRef .tc main_arg6) = m ((c.tc : Thread nD τ).loc main_arg6) :=
  (by kept_host hostOps3 : StableHlo.after hostOps3 (W6 m ρ c) (Proc.devRef .tc main_arg6) = W6 m ρ c (Proc.devRef .tc main_arg6)).trans (at6_main_arg6 m ρ c)
theorem at8_main_arg6 : W8 m ρ c (Proc.devRef .tc main_arg6) = m ((c.tc : Thread nD τ).loc main_arg6) :=
  (W8_of_ne m ρ c main_arg6 (by decide)).trans (at7_main_arg6 m ρ c)
theorem at9_main_arg6 : W9 m ρ c (Proc.devRef .tc main_arg6) = m ((c.tc : Thread nD τ).loc main_arg6) :=
  (by kept_host hostOps4 : StableHlo.after hostOps4 (W8 m ρ c) (Proc.devRef .tc main_arg6) = W8 m ρ c (Proc.devRef .tc main_arg6)).trans (at8_main_arg6 m ρ c)
theorem at10_main_arg6 : W10 m ρ c (Proc.devRef .tc main_arg6) = m ((c.tc : Thread nD τ).loc main_arg6) :=
  (W10_of_ne m ρ c main_arg6 (by decide)).trans (at9_main_arg6 m ρ c)

theorem at2_main_arg7 : W2 m ρ c (Proc.devRef .tc main_arg7) = m ((c.tc : Thread nD τ).loc main_arg7) :=
  (W2_of_ne m ρ c main_arg7 (by decide)).trans (w1_main_arg7 m ρ c)
theorem at3_main_arg7 : W3 m ρ c (Proc.devRef .tc main_arg7) = m ((c.tc : Thread nD τ).loc main_arg7) :=
  (by kept_host hostOps1 : StableHlo.after hostOps1 (W2 m ρ c) (Proc.devRef .tc main_arg7) = W2 m ρ c (Proc.devRef .tc main_arg7)).trans (at2_main_arg7 m ρ c)
theorem at4_main_arg7 : W4 m ρ c (Proc.devRef .tc main_arg7) = m ((c.tc : Thread nD τ).loc main_arg7) :=
  (W4_of_ne m ρ c main_arg7 (by decide)).trans (at3_main_arg7 m ρ c)
theorem at5_main_arg7 : W5 m ρ c (Proc.devRef .tc main_arg7) = m ((c.tc : Thread nD τ).loc main_arg7) :=
  (by kept_host hostOps2 : StableHlo.after hostOps2 (W4 m ρ c) (Proc.devRef .tc main_arg7) = W4 m ρ c (Proc.devRef .tc main_arg7)).trans (at4_main_arg7 m ρ c)
theorem at6_main_arg7 : W6 m ρ c (Proc.devRef .tc main_arg7) = m ((c.tc : Thread nD τ).loc main_arg7) :=
  (W6_of_ne m ρ c main_arg7 (by decide)).trans (at5_main_arg7 m ρ c)
theorem at7_main_arg7 : W7 m ρ c (Proc.devRef .tc main_arg7) = m ((c.tc : Thread nD τ).loc main_arg7) :=
  (by kept_host hostOps3 : StableHlo.after hostOps3 (W6 m ρ c) (Proc.devRef .tc main_arg7) = W6 m ρ c (Proc.devRef .tc main_arg7)).trans (at6_main_arg7 m ρ c)
theorem at8_main_arg7 : W8 m ρ c (Proc.devRef .tc main_arg7) = m ((c.tc : Thread nD τ).loc main_arg7) :=
  (W8_of_ne m ρ c main_arg7 (by decide)).trans (at7_main_arg7 m ρ c)
theorem at9_main_arg7 : W9 m ρ c (Proc.devRef .tc main_arg7) = m ((c.tc : Thread nD τ).loc main_arg7) :=
  (by kept_host hostOps4 : StableHlo.after hostOps4 (W8 m ρ c) (Proc.devRef .tc main_arg7) = W8 m ρ c (Proc.devRef .tc main_arg7)).trans (at8_main_arg7 m ρ c)
theorem at10_main_arg7 : W10 m ρ c (Proc.devRef .tc main_arg7) = m ((c.tc : Thread nD τ).loc main_arg7) :=
  (W10_of_ne m ρ c main_arg7 (by decide)).trans (at9_main_arg7 m ρ c)

theorem at2_main_arg8 : W2 m ρ c (Proc.devRef .tc main_arg8) = m ((c.tc : Thread nD τ).loc main_arg8) :=
  (W2_of_ne m ρ c main_arg8 (by decide)).trans (w1_main_arg8 m ρ c)
theorem at3_main_arg8 : W3 m ρ c (Proc.devRef .tc main_arg8) = m ((c.tc : Thread nD τ).loc main_arg8) :=
  (by kept_host hostOps1 : StableHlo.after hostOps1 (W2 m ρ c) (Proc.devRef .tc main_arg8) = W2 m ρ c (Proc.devRef .tc main_arg8)).trans (at2_main_arg8 m ρ c)
theorem at4_main_arg8 : W4 m ρ c (Proc.devRef .tc main_arg8) = m ((c.tc : Thread nD τ).loc main_arg8) :=
  (W4_of_ne m ρ c main_arg8 (by decide)).trans (at3_main_arg8 m ρ c)
theorem at5_main_arg8 : W5 m ρ c (Proc.devRef .tc main_arg8) = m ((c.tc : Thread nD τ).loc main_arg8) :=
  (by kept_host hostOps2 : StableHlo.after hostOps2 (W4 m ρ c) (Proc.devRef .tc main_arg8) = W4 m ρ c (Proc.devRef .tc main_arg8)).trans (at4_main_arg8 m ρ c)
theorem at6_main_arg8 : W6 m ρ c (Proc.devRef .tc main_arg8) = m ((c.tc : Thread nD τ).loc main_arg8) :=
  (W6_of_ne m ρ c main_arg8 (by decide)).trans (at5_main_arg8 m ρ c)
theorem at7_main_arg8 : W7 m ρ c (Proc.devRef .tc main_arg8) = m ((c.tc : Thread nD τ).loc main_arg8) :=
  (by kept_host hostOps3 : StableHlo.after hostOps3 (W6 m ρ c) (Proc.devRef .tc main_arg8) = W6 m ρ c (Proc.devRef .tc main_arg8)).trans (at6_main_arg8 m ρ c)
theorem at8_main_arg8 : W8 m ρ c (Proc.devRef .tc main_arg8) = m ((c.tc : Thread nD τ).loc main_arg8) :=
  (W8_of_ne m ρ c main_arg8 (by decide)).trans (at7_main_arg8 m ρ c)
theorem at9_main_arg8 : W9 m ρ c (Proc.devRef .tc main_arg8) = m ((c.tc : Thread nD τ).loc main_arg8) :=
  (by kept_host hostOps4 : StableHlo.after hostOps4 (W8 m ρ c) (Proc.devRef .tc main_arg8) = W8 m ρ c (Proc.devRef .tc main_arg8)).trans (at8_main_arg8 m ρ c)
theorem at10_main_arg8 : W10 m ρ c (Proc.devRef .tc main_arg8) = m ((c.tc : Thread nD τ).loc main_arg8) :=
  (W10_of_ne m ρ c main_arg8 (by decide)).trans (at9_main_arg8 m ρ c)
theorem at11_main_arg8 : W11 m ρ c (Proc.devRef .tc main_arg8) = m ((c.tc : Thread nD τ).loc main_arg8) :=
  (by kept_host hostOps5 : StableHlo.after hostOps5 (W10 m ρ c) (Proc.devRef .tc main_arg8) = W10 m ρ c (Proc.devRef .tc main_arg8)).trans (at10_main_arg8 m ρ c)

theorem at2_main_arg9 : W2 m ρ c (Proc.devRef .tc main_arg9) = m ((c.tc : Thread nD τ).loc main_arg9) :=
  (W2_of_ne m ρ c main_arg9 (by decide)).trans (w1_main_arg9 m ρ c)
theorem at3_main_arg9 : W3 m ρ c (Proc.devRef .tc main_arg9) = m ((c.tc : Thread nD τ).loc main_arg9) :=
  (by kept_host hostOps1 : StableHlo.after hostOps1 (W2 m ρ c) (Proc.devRef .tc main_arg9) = W2 m ρ c (Proc.devRef .tc main_arg9)).trans (at2_main_arg9 m ρ c)
theorem at4_main_arg9 : W4 m ρ c (Proc.devRef .tc main_arg9) = m ((c.tc : Thread nD τ).loc main_arg9) :=
  (W4_of_ne m ρ c main_arg9 (by decide)).trans (at3_main_arg9 m ρ c)
theorem at5_main_arg9 : W5 m ρ c (Proc.devRef .tc main_arg9) = m ((c.tc : Thread nD τ).loc main_arg9) :=
  (by kept_host hostOps2 : StableHlo.after hostOps2 (W4 m ρ c) (Proc.devRef .tc main_arg9) = W4 m ρ c (Proc.devRef .tc main_arg9)).trans (at4_main_arg9 m ρ c)
theorem at6_main_arg9 : W6 m ρ c (Proc.devRef .tc main_arg9) = m ((c.tc : Thread nD τ).loc main_arg9) :=
  (W6_of_ne m ρ c main_arg9 (by decide)).trans (at5_main_arg9 m ρ c)
theorem at7_main_arg9 : W7 m ρ c (Proc.devRef .tc main_arg9) = m ((c.tc : Thread nD τ).loc main_arg9) :=
  (by kept_host hostOps3 : StableHlo.after hostOps3 (W6 m ρ c) (Proc.devRef .tc main_arg9) = W6 m ρ c (Proc.devRef .tc main_arg9)).trans (at6_main_arg9 m ρ c)
theorem at8_main_arg9 : W8 m ρ c (Proc.devRef .tc main_arg9) = m ((c.tc : Thread nD τ).loc main_arg9) :=
  (W8_of_ne m ρ c main_arg9 (by decide)).trans (at7_main_arg9 m ρ c)
theorem at9_main_arg9 : W9 m ρ c (Proc.devRef .tc main_arg9) = m ((c.tc : Thread nD τ).loc main_arg9) :=
  (by kept_host hostOps4 : StableHlo.after hostOps4 (W8 m ρ c) (Proc.devRef .tc main_arg9) = W8 m ρ c (Proc.devRef .tc main_arg9)).trans (at8_main_arg9 m ρ c)
theorem at10_main_arg9 : W10 m ρ c (Proc.devRef .tc main_arg9) = m ((c.tc : Thread nD τ).loc main_arg9) :=
  (W10_of_ne m ρ c main_arg9 (by decide)).trans (at9_main_arg9 m ρ c)
theorem at11_main_arg9 : W11 m ρ c (Proc.devRef .tc main_arg9) = m ((c.tc : Thread nD τ).loc main_arg9) :=
  (by kept_host hostOps5 : StableHlo.after hostOps5 (W10 m ρ c) (Proc.devRef .tc main_arg9) = W10 m ρ c (Proc.devRef .tc main_arg9)).trans (at10_main_arg9 m ρ c)

theorem at2_main_arg10 : W2 m ρ c (Proc.devRef .tc main_arg10) = m ((c.tc : Thread nD τ).loc main_arg10) :=
  (W2_of_ne m ρ c main_arg10 (by decide)).trans (w1_main_arg10 m ρ c)
theorem at3_main_arg10 : W3 m ρ c (Proc.devRef .tc main_arg10) = m ((c.tc : Thread nD τ).loc main_arg10) :=
  (by kept_host hostOps1 : StableHlo.after hostOps1 (W2 m ρ c) (Proc.devRef .tc main_arg10) = W2 m ρ c (Proc.devRef .tc main_arg10)).trans (at2_main_arg10 m ρ c)
theorem at4_main_arg10 : W4 m ρ c (Proc.devRef .tc main_arg10) = m ((c.tc : Thread nD τ).loc main_arg10) :=
  (W4_of_ne m ρ c main_arg10 (by decide)).trans (at3_main_arg10 m ρ c)
theorem at5_main_arg10 : W5 m ρ c (Proc.devRef .tc main_arg10) = m ((c.tc : Thread nD τ).loc main_arg10) :=
  (by kept_host hostOps2 : StableHlo.after hostOps2 (W4 m ρ c) (Proc.devRef .tc main_arg10) = W4 m ρ c (Proc.devRef .tc main_arg10)).trans (at4_main_arg10 m ρ c)
theorem at6_main_arg10 : W6 m ρ c (Proc.devRef .tc main_arg10) = m ((c.tc : Thread nD τ).loc main_arg10) :=
  (W6_of_ne m ρ c main_arg10 (by decide)).trans (at5_main_arg10 m ρ c)
theorem at7_main_arg10 : W7 m ρ c (Proc.devRef .tc main_arg10) = m ((c.tc : Thread nD τ).loc main_arg10) :=
  (by kept_host hostOps3 : StableHlo.after hostOps3 (W6 m ρ c) (Proc.devRef .tc main_arg10) = W6 m ρ c (Proc.devRef .tc main_arg10)).trans (at6_main_arg10 m ρ c)
theorem at8_main_arg10 : W8 m ρ c (Proc.devRef .tc main_arg10) = m ((c.tc : Thread nD τ).loc main_arg10) :=
  (W8_of_ne m ρ c main_arg10 (by decide)).trans (at7_main_arg10 m ρ c)
theorem at9_main_arg10 : W9 m ρ c (Proc.devRef .tc main_arg10) = m ((c.tc : Thread nD τ).loc main_arg10) :=
  (by kept_host hostOps4 : StableHlo.after hostOps4 (W8 m ρ c) (Proc.devRef .tc main_arg10) = W8 m ρ c (Proc.devRef .tc main_arg10)).trans (at8_main_arg10 m ρ c)
theorem at10_main_arg10 : W10 m ρ c (Proc.devRef .tc main_arg10) = m ((c.tc : Thread nD τ).loc main_arg10) :=
  (W10_of_ne m ρ c main_arg10 (by decide)).trans (at9_main_arg10 m ρ c)
theorem at11_main_arg10 : W11 m ρ c (Proc.devRef .tc main_arg10) = m ((c.tc : Thread nD τ).loc main_arg10) :=
  (by kept_host hostOps5 : StableHlo.after hostOps5 (W10 m ρ c) (Proc.devRef .tc main_arg10) = W10 m ρ c (Proc.devRef .tc main_arg10)).trans (at10_main_arg10 m ρ c)

theorem at2_main_arg12 : W2 m ρ c (Proc.devRef .tc main_arg12) = m ((c.tc : Thread nD τ).loc main_arg12) :=
  (W2_of_ne m ρ c main_arg12 (by decide)).trans (w1_main_arg12 m ρ c)
theorem at3_main_arg12 : W3 m ρ c (Proc.devRef .tc main_arg12) = m ((c.tc : Thread nD τ).loc main_arg12) :=
  (by kept_host hostOps1 : StableHlo.after hostOps1 (W2 m ρ c) (Proc.devRef .tc main_arg12) = W2 m ρ c (Proc.devRef .tc main_arg12)).trans (at2_main_arg12 m ρ c)
theorem at4_main_arg12 : W4 m ρ c (Proc.devRef .tc main_arg12) = m ((c.tc : Thread nD τ).loc main_arg12) :=
  (W4_of_ne m ρ c main_arg12 (by decide)).trans (at3_main_arg12 m ρ c)
theorem at5_main_arg12 : W5 m ρ c (Proc.devRef .tc main_arg12) = m ((c.tc : Thread nD τ).loc main_arg12) :=
  (by kept_host hostOps2 : StableHlo.after hostOps2 (W4 m ρ c) (Proc.devRef .tc main_arg12) = W4 m ρ c (Proc.devRef .tc main_arg12)).trans (at4_main_arg12 m ρ c)
theorem at6_main_arg12 : W6 m ρ c (Proc.devRef .tc main_arg12) = m ((c.tc : Thread nD τ).loc main_arg12) :=
  (W6_of_ne m ρ c main_arg12 (by decide)).trans (at5_main_arg12 m ρ c)
theorem at7_main_arg12 : W7 m ρ c (Proc.devRef .tc main_arg12) = m ((c.tc : Thread nD τ).loc main_arg12) :=
  (by kept_host hostOps3 : StableHlo.after hostOps3 (W6 m ρ c) (Proc.devRef .tc main_arg12) = W6 m ρ c (Proc.devRef .tc main_arg12)).trans (at6_main_arg12 m ρ c)
theorem at8_main_arg12 : W8 m ρ c (Proc.devRef .tc main_arg12) = m ((c.tc : Thread nD τ).loc main_arg12) :=
  (W8_of_ne m ρ c main_arg12 (by decide)).trans (at7_main_arg12 m ρ c)
theorem at9_main_arg12 : W9 m ρ c (Proc.devRef .tc main_arg12) = m ((c.tc : Thread nD τ).loc main_arg12) :=
  (by kept_host hostOps4 : StableHlo.after hostOps4 (W8 m ρ c) (Proc.devRef .tc main_arg12) = W8 m ρ c (Proc.devRef .tc main_arg12)).trans (at8_main_arg12 m ρ c)
theorem at10_main_arg12 : W10 m ρ c (Proc.devRef .tc main_arg12) = m ((c.tc : Thread nD τ).loc main_arg12) :=
  (W10_of_ne m ρ c main_arg12 (by decide)).trans (at9_main_arg12 m ρ c)
theorem at11_main_arg12 : W11 m ρ c (Proc.devRef .tc main_arg12) = m ((c.tc : Thread nD τ).loc main_arg12) :=
  (by kept_host hostOps5 : StableHlo.after hostOps5 (W10 m ρ c) (Proc.devRef .tc main_arg12) = W10 m ρ c (Proc.devRef .tc main_arg12)).trans (at10_main_arg12 m ρ c)
theorem at12_main_arg12 : W12 m ρ c (Proc.devRef .tc main_arg12) = m ((c.tc : Thread nD τ).loc main_arg12) :=
  (W12_of_ne m ρ c main_arg12 (by decide)).trans (at11_main_arg12 m ρ c)

end Cert.Sage.KChain

end
-- ==== Proof.Spec.lean ====
import Idealize.ShloMosaic.PureOps.Ideal
import Idealize.ShloMosaic.Lib.ValueIdx

/-!
One layer of the network, read at a node `p` and a channel `q`, as a function on the extended reals.

A hidden layer takes the mean-aggregated neighbour features `a` and the node's own features `h`
(both 50000 × 128), two 128 × 128 weight matrices, and five vectors of length 128 (bias, scale, shift,
running mean, running variance). Its value at `(p, q)` is

  max ( ((Σₖ a p k · wl k q + Σₖ h p k · wr k q) + b q − rm q) · (g q · (rv q + ε)^(-1/2)) + be q , 0 ).

The last layer has two output channels and only the bias: `(Σₖ a p k · wl k q + Σₖ h p k · wr k q) + b q`.
The two literals are kept as the float words the programs print (ε is the word of 1e-5; the other is zero).
-/

noncomputable section

namespace Cert.Sage

open Idealize.ShloMosaic Idealize.ShloMosaic.ValueIdx

/-- A hidden layer at node `p`, channel `q`. -/
def denseAt (a h : (⟨2, ![50000, 128]⟩ : Shape).Idx → EReal) (wl wr : (⟨2, ![128, 128]⟩ : Shape).Idx → EReal)
    (b g be rm rv : (⟨1, ![128]⟩ : Shape).Idx → EReal) (p : Fin 50000) (q : Fin 128) : EReal :=
  max ((((∑ k : Fin 128, a (ix2 p k) * wl (ix2 k q)) + (∑ k : Fin 128, h (ix2 p k) * wr (ix2 k q))) + b (ix1 q) - rm (ix1 q))
        * (g (ix1 q) * Ideal.rsqrt (rv (ix1 q) + Ideal.ofBits .f32 0x3727C5AC#32)) + be (ix1 q))
      (Ideal.ofBits .f32 0x00000000#32)

/-- The last layer at node `p`, output channel `q`. -/
def outAt (a h : (⟨2, ![50000, 128]⟩ : Shape).Idx → EReal) (wl wr : (⟨2, ![128, 2]⟩ : Shape).Idx → EReal)
    (b : (⟨1, ![2]⟩ : Shape).Idx → EReal) (p : Fin 50000) (q : Fin 2) : EReal :=
  ((∑ k : Fin 128, a (ix2 p k) * wl (ix2 k q)) + (∑ k : Fin 128, h (ix2 p k) * wr (ix2 k q))) + b (ix1 q)

end Cert.Sage

end
-- ==== Proof.Dense.lean ====
import proofs.«157926_j75625784148632_1_alg».proof.Proof.Gen.KernelIdeal
import Idealize.ShloMosaic.PureOps.Ideal.Laws
import Idealize.ShloMosaic.Lib.ValueIdx
import Idealize.ShloMosaic.Lib.ValueLayout

/-!
Two facts every layer of the network uses, each read at one entry of a block of 2000 rows.

A block of rows times a weight matrix, accumulated from zero, has at row `r` and column `q` the entry
`Σₖ a r k · w k q`, the sum running over the 128 input channels (for the hidden layers the weight matrix is
128 × 128, for the last layer 128 × 2).

A vector of per-channel numbers, laid out as one row and repeated down the rows of the block, has at `(r, q)`
the number of channel `q`.
-/

noncomputable section

namespace Cert.Sage.Dense

open Idealize.ShloMosaic Idealize.ShloMosaic.ValueIdx
open Cert.KernelIdeal Cert.KernelIdeal.Gen

/-! ## The contraction of a hidden layer: 2000 × 128 times 128 × 128 -/

/-- The left operand is read on the output's row. -/
theorem lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand is read on the output's column. -/
theorem rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Rows times a 128 × 128 matrix, from a zero accumulator, at `(r, q)`: `Σₖ a r k · w k q`. -/
theorem contract_at {φ₁ φ₂ : FTy} (a : FVec Ideal S2000x128 φ₁) (w : FVec Ideal S128x128 φ₂) (r : Fin 2000) (q : Fin 128) :
    matmul dot_S2000x128_S128x128_S2000x128_1_0_0_1_n_n none a w (constant (F := Ideal) S2000x128 .f32 0x00000000#32) (ix2 r q)
      = ∑ k : Fin 128, a (ix2 r k) * w (ix2 k q) := by
  show FloatOps.matmul dot_S2000x128_S128x128_S2000x128_1_0_0_1_n_n none a w (constant S2000x128 .f32 0x00000000#32) (ix2 r q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q)
      ((contrEquiv1 dot_S2000x128_S128x128_S2000x128_1_0_0_1_n_n 128 rfl rfl).symm k) = ix2 r k := funext fun x => Fin.ext (by
    match x with
    | ⟨0, _⟩ => exact lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q)
      ((contrEquiv1 dot_S2000x128_S128x128_S2000x128_1_0_0_1_n_n 128 rfl rfl).symm k) = ix2 k q := funext fun x => Fin.ext (by
    match x with
    | ⟨0, _⟩ => exact (dot_S2000x128_S128x128_S2000x128_1_0_0_1_n_n.rhsIdx_val_of_single rfl _ _).trans hk
    | ⟨1, _⟩ => exact rhs_col _ _)
  rw [el, er]

/-! ## The contraction of the last layer: 2000 × 128 times 128 × 2 -/

/-- The left operand is read on the output's row. -/
theorem lhs_row_out (i : S2000x2.Idx) (c : dot_S2000x128_S128x2_S2000x2_1_0_0_1_n_n.contr.Idx) :
    (dot_S2000x128_S128x2_S2000x2_1_0_0_1_n_n.lhsIdx i c 0).val = (i 0).val := by
  unfold DotDims.lhsIdx
  rw [dif_neg (show ¬(0 : Fin S2000x128.rank) ∈ dot_S2000x128_S128x2_S2000x2_1_0_0_1_n_n.lhsBatch by decide),
    dif_pos (show (0 : Fin S2000x128.rank) ∈ dot_S2000x128_S128x2_S2000x2_1_0_0_1_n_n.lhsNonContracting by decide)]
  rfl

/-- The right operand is read on the output's column. -/
theorem rhs_col_out (i : S2000x2.Idx) (c : dot_S2000x128_S128x2_S2000x2_1_0_0_1_n_n.contr.Idx) :
    (dot_S2000x128_S128x2_S2000x2_1_0_0_1_n_n.rhsIdx i c 1).val = (i 1).val := by
  unfold DotDims.rhsIdx
  rw [dif_neg (show ¬(1 : Fin S128x2.rank) ∈ dot_S2000x128_S128x2_S2000x2_1_0_0_1_n_n.rhsBatch by decide),
    dif_pos (show (1 : Fin S128x2.rank) ∈ dot_S2000x128_S128x2_S2000x2_1_0_0_1_n_n.rhsNonContracting by decide)]
  rfl

/-- Rows times a 128 × 2 matrix, from a zero accumulator, at `(r, q)`: `Σₖ a r k · w k q`. -/
theorem contract_out_at {φ₁ φ₂ : FTy} (a : FVec Ideal S2000x128 φ₁) (w : FVec Ideal S128x2 φ₂) (r : Fin 2000) (q : Fin 2) :
    matmul dot_S2000x128_S128x2_S2000x2_1_0_0_1_n_n none a w (constant (F := Ideal) S2000x2 .f32 0x00000000#32) (ix2 r q)
      = ∑ k : Fin 128, a (ix2 r k) * w (ix2 k q) := by
  show FloatOps.matmul dot_S2000x128_S128x2_S2000x2_1_0_0_1_n_n none a w (constant S2000x2 .f32 0x00000000#32) (ix2 r q) = _
  rw [Ideal.matmul_constant_zero_apply,
    ← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 r q)
      ((contrEquiv1 dot_S2000x128_S128x2_S2000x2_1_0_0_1_n_n 128 rfl rfl).symm k) = ix2 r k := funext fun x => Fin.ext (by
    match x with
    | ⟨0, _⟩ => exact lhs_row_out _ _
    | ⟨1, _⟩ => exact (dot_S2000x128_S128x2_S2000x2_1_0_0_1_n_n.lhsIdx_val_of_single rfl _ _).trans hk)
  have er : dot_S2000x128_S128x2_S2000x2_1_0_0_1_n_n.rhsIdx (ix2 r q)
      ((contrEquiv1 dot_S2000x128_S128x2_S2000x2_1_0_0_1_n_n 128 rfl rfl).symm k) = ix2 k q := funext fun x => Fin.ext (by
    match x with
    | ⟨0, _⟩ => exact (dot_S2000x128_S128x2_S2000x2_1_0_0_1_n_n.rhsIdx_val_of_single rfl _ _).trans hk
    | ⟨1, _⟩ => exact rhs_col_out _ _)
  rw [el, er]

/-! ## A per-channel vector repeated down the rows -/

/-- A vector of `n` per-channel numbers, as one row repeated over `m` rows, reads channel `q`'s number at `(r, q)`. -/
theorem row_at {α : Type} {m n : ℕ} (v : (⟨1, ![n]⟩ : Shape).Idx → α) (h₁ : (⟨1, ![n]⟩ : Shape).ShapeCasts ⟨2, ![1, n]⟩)
    (h₂ : (⟨2, ![1, n]⟩ : Shape).Broadcasts ⟨2, ![m, n]⟩) (r : Fin m) (q : Fin n) :
    broadcastTo ⟨2, ![m, n]⟩ (shapeCast ⟨2, ![1, n]⟩ v h₁) h₂ (ix2 r q) = v (ix1 q) := by
  rw [broadcastTo_1b_ab_apply, shapeCast_a_1a_apply]

end Cert.Sage.Dense

end
-- ==== Proof.Region0.lean ====
import proofs.«157926_j75625784148632_1_alg».proof.Proof.Gen.KernelIdeal.Frame
import proofs.«157926_j75625784148632_1_alg».proof.Proof.Spec
import proofs.«157926_j75625784148632_1_alg».proof.Proof.Dense
import Idealize.ShloMosaic.Lib.Pipeline.Value
import Idealize.ShloMosaic.Lib.ValueIdx
import Idealize.ShloMosaic.Lib.ValueLayout

/-!
The first hidden layer, as one array.

The layer is computed 2000 rows at a time: step `t` (of 25) reads rows `2000 t … 2000 t + 1999` of the aggregated
neighbour features and of the node features, the two whole 128 × 128 weight matrices and the five whole per-channel
vectors, and writes rows `2000 t … 2000 t + 1999` of the output. An output entry `(p, q)` depends on row `p` of the two
feature arrays only, so the 25 row blocks written one after another are the restriction to each block of ONE function of
the nine arrays as the layer finds them — the hidden-layer formula — and together they fill the whole 50000 × 128 array.
-/

noncomputable section

namespace Cert.Sage.Region0

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## One step's arithmetic at an entry of its block -/

/-- At row `r`, channel `q` of a block: the two products of row `r` with column `q` of the weights added, the bias added,
    the running mean taken off, the result scaled by `γ · (variance + ε)^(-1/2)`, shifted by `β`, and cut below at zero. -/
theorem body_at (a h : Vec Ideal S2000x128 .f32) (wl wr : Vec Ideal S128x128 .f32) (b g rv rm be : Vec Ideal S128 .f32)
    (r : Fin 2000) (q : Fin 128) :
    k0_pay1 (F := Ideal) a h wl wr b g rv rm be (ix2 r q)
      = max ((((∑ k : Fin 128, a (ix2 r k) * wl (ix2 k q)) + (∑ k : Fin 128, h (ix2 r k) * wr (ix2 k q))) + b (ix1 q) - rm (ix1 q))
            * (g (ix1 q) * Ideal.rsqrt (rv (ix1 q) + Ideal.ofBits .f32 0x3727C5AC#32)) + be (ix1 q))
          (Ideal.ofBits .f32 0x00000000#32) := by
  unfold k0_pay1
  simp only [maximumf_apply, addf_apply, subf_apply, mulf_apply, broadcast_apply, truncf_apply, shapeCast_self,
    Dense.contract_at, Dense.row_at]
  rfl

/-! ## Where each step's blocks sit in their arrays -/

/-- Step `t`'s block of the two feature arrays and of the output is row block `t`; every other window is its whole array. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-- Row `r` of step `t`'s block of the aggregated features is row `2000 t + r` of the array. -/
theorem agg_rows (c : Dev nD) (t : Fin cfg0.N) (r : Fin 2000) (p : Fin 50000) (hp : p.val = t.val * 2000 + r.val) (k : Fin 128) :
    (iblk0 V c 0 t : Vec Ideal S2000x128 .f32) (ix2 r k) = (V c (Pipeline.arrRef spec0 0) : S50000x128.Idx → EReal) (ix2 p k) := by
  obtain ⟨e, e', -⟩ := block_index t
  show (V c (Pipeline.arrRef spec0 0) : S50000x128.Idx → EReal) (((cfg0.win 0).blk t).view.emb (ix2 r k)) = _
  refine congrArg _ (funext fun x => Fin.ext ?_)
  match x with
  | ⟨0, _⟩ => show win0_0.index t (0 : Fin 2) * 2000 + 1 * r.val = p.val; omega
  | ⟨1, _⟩ => show win0_0.index t (1 : Fin 2) * 128 + 1 * k.val = k.val; omega

/-- Row `r` of step `t`'s block of the node features is row `2000 t + r` of the array. -/
theorem node_rows (c : Dev nD) (t : Fin cfg0.N) (r : Fin 2000) (p : Fin 50000) (hp : p.val = t.val * 2000 + r.val) (k : Fin 128) :
    (iblk0 V c 1 t : Vec Ideal S2000x128 .f32) (ix2 r k) = (V c (Pipeline.arrRef spec0 1) : S50000x128.Idx → EReal) (ix2 p k) := by
  obtain ⟨-, -, e, e', -⟩ := block_index t
  show (V c (Pipeline.arrRef spec0 1) : S50000x128.Idx → EReal) (((cfg0.win 1).blk t).view.emb (ix2 r k)) = _
  refine congrArg _ (funext fun x => Fin.ext ?_)
  match x with
  | ⟨0, _⟩ => show win0_1.index t (0 : Fin 2) * 2000 + 1 * r.val = p.val; omega
  | ⟨1, _⟩ => show win0_1.index t (1 : Fin 2) * 128 + 1 * k.val = k.val; omega

/-- Every step sees the whole weight matrix of the aggregated features. -/
theorem wl_whole (c : Dev nD) (t : Fin cfg0.N) (k q : Fin 128) :
    (iblk0 V c 2 t : Vec Ideal S128x128 .f32) (ix2 k q) = (V c (Pipeline.arrRef spec0 2) : S128x128.Idx → EReal) (ix2 k q) := by
  obtain ⟨-, -, -, -, e, e', -⟩ := block_index t
  show (V c (Pipeline.arrRef spec0 2) : S128x128.Idx → EReal) (((cfg0.win 2).blk t).view.emb (ix2 k q)) = _
  refine congrArg _ (funext fun x => Fin.ext ?_)
  match x with
  | ⟨0, _⟩ => show win0_2.index t (0 : Fin 2) * 128 + 1 * k.val = k.val; omega
  | ⟨1, _⟩ => show win0_2.index t (1 : Fin 2) * 128 + 1 * q.val = q.val; omega

/-- Every step sees the whole weight matrix of the node features. -/
theorem wr_whole (c : Dev nD) (t : Fin cfg0.N) (k q : Fin 128) :
    (iblk0 V c 3 t : Vec Ideal S128x128 .f32) (ix2 k q) = (V c (Pipeline.arrRef spec0 3) : S128x128.Idx → EReal) (ix2 k q) := by
  obtain ⟨-, -, -, -, -, -, e, e', -⟩ := block_index t
  show (V c (Pipeline.arrRef spec0 3) : S128x128.Idx → EReal) (((cfg0.win 3).blk t).view.emb (ix2 k q)) = _
  refine congrArg _ (funext fun x => Fin.ext ?_)
  match x with
  | ⟨0, _⟩ => show win0_3.index t (0 : Fin 2) * 128 + 1 * k.val = k.val; omega
  | ⟨1, _⟩ => show win0_3.index t (1 : Fin 2) * 128 + 1 * q.val = q.val; omega

/-- Every step sees the whole bias vector … -/
theorem bias_whole (c : Dev nD) (t : Fin cfg0.N) (q : Fin 128) :
    (iblk0 V c 4 t : Vec Ideal S128 .f32) (ix1 q) = (V c (Pipeline.arrRef spec0 4) : S128.Idx → EReal) (ix1 q) := by
  obtain ⟨-, -, -, -, -, -, -, -, e, -⟩ := block_index t
  show (V c (Pipeline.arrRef spec0 4) : S128.Idx → EReal) (((cfg0.win 4).blk t).view.emb (ix1 q)) = _
  refine congrArg _ (funext fun x => Fin.ext ?_)
  match x with
  | ⟨0, _⟩ => show win0_4.index t (0 : Fin 1) * 128 + 1 * q.val = q.val; omega

/-- … the whole scale vector … -/
theorem scale_whole (c : Dev nD) (t : Fin cfg0.N) (q : Fin 128) :
    (iblk0 V c 5 t : Vec Ideal S128 .f32) (ix1 q) = (V c (Pipeline.arrRef spec0 5) : S128.Idx → EReal) (ix1 q) := by
  obtain ⟨-, -, -, -, -, -, -, -, -, e, -⟩ := block_index t
  show (V c (Pipeline.arrRef spec0 5) : S128.Idx → EReal) (((cfg0.win 5).blk t).view.emb (ix1 q)) = _
  refine congrArg _ (funext fun x => Fin.ext ?_)
  match x with
  | ⟨0, _⟩ => show win0_5.index t (0 : Fin 1) * 128 + 1 * q.val = q.val; omega

/-- … the whole shift vector … -/
theorem shift_whole (c : Dev nD) (t : Fin cfg0.N) (q : Fin 128) :
    (iblk0 V c 6 t : Vec Ideal S128 .f32) (ix1 q) = (V c (Pipeline.arrRef spec0 6) : S128.Idx → EReal) (ix1 q) := by
  obtain ⟨-, -, -, -, -, -, -, -, -, -, e, -⟩ := block_index t
  show (V c (Pipeline.arrRef spec0 6) : S128.Idx → EReal) (((cfg0.win 6).blk t).view.emb (ix1 q)) = _
  refine congrArg _ (funext fun x => Fin.ext ?_)
  match x with
  | ⟨0, _⟩ => show win0_6.index t (0 : Fin 1) * 128 + 1 * q.val = q.val; omega

/-- … the whole vector of running means … -/
theorem mean_whole (c : Dev nD) (t : Fin cfg0.N) (q : Fin 128) :
    (iblk0 V c 7 t : Vec Ideal S128 .f32) (ix1 q) = (V c (Pipeline.arrRef spec0 7) : S128.Idx → EReal) (ix1 q) := by
  obtain ⟨-, -, -, -, -, -, -, -, -, -, -, e, -⟩ := block_index t
  show (V c (Pipeline.arrRef spec0 7) : S128.Idx → EReal) (((cfg0.win 7).blk t).view.emb (ix1 q)) = _
  refine congrArg _ (funext fun x => Fin.ext ?_)
  match x with
  | ⟨0, _⟩ => show win0_7.index t (0 : Fin 1) * 128 + 1 * q.val = q.val; omega

/-- … and the whole vector of running variances. -/
theorem var_whole (c : Dev nD) (t : Fin cfg0.N) (q : Fin 128) :
    (iblk0 V c 8 t : Vec Ideal S128 .f32) (ix1 q) = (V c (Pipeline.arrRef spec0 8) : S128.Idx → EReal) (ix1 q) := by
  obtain ⟨-, -, -, -, -, -, -, -, -, -, -, -, e, -⟩ := block_index t
  show (V c (Pipeline.arrRef spec0 8) : S128.Idx → EReal) (((cfg0.win 8).blk t).view.emb (ix1 q)) = _
  refine congrArg _ (funext fun x => Fin.ext ?_)
  match x with
  | ⟨0, _⟩ => show win0_8.index t (0 : Fin 1) * 128 + 1 * q.val = q.val; omega

/-! ## From the 25 row blocks to the array -/

/-- The layer's output array: the hidden-layer formula of the nine arrays as the layer finds them, entry by entry. -/
def layer (c : Dev nD) : S50000x128.Idx → EReal := fun i =>
  denseAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (i 0) (i 1)

/-- What step `t` writes back is row block `t` of the layer's output. -/
theorem block_eq (c : Dev nD) (t : Fin cfg0.N) :
    (dat0 (F := Ideal) V c).flushed 9 t = ((cfg0.win 9).blk t).view.read (Elt Ideal) (layer V c) := by
  show (cfg0.win 9).cut (grid0.coords t) ((dat0 (F := Ideal) V c).after 9 t) = _
  rw [after0_9]
  unfold out0_9
  rw [View.canon_unit_zero zero_offsets₂]
  simp only [View.ld_unit_zero (S := S2000x128) zero_offsets₂, View.ld_unit_zero (S := S128x128) zero_offsets₂,
    View.ld_unit_zero (S := S128) zero_offsets₁]
  funext j
  have hj0 : (j 0).val < 2000 := (j 0).isLt
  have hj1 : (j 1).val < 128 := (j 1).isLt
  have ht : t.val < 25 := lt_of_lt_of_eq t.isLt N_0
  obtain ⟨-, -, -, -, -, -, -, -, -, -, -, -, -, e, e'⟩ := block_index t
  have hp : t.val * 2000 + (j 0).val < 50000 := by omega
  have hx : (cfg0.win 9).xinj (grid0.coords t) j = ix2 (⟨(j 0).val, hj0⟩ : Fin 2000) (⟨(j 1).val, hj1⟩ : Fin 128) :=
    funext fun x => by match x with | ⟨0, _⟩ => rfl | ⟨1, _⟩ => rfl
  have hy : ((cfg0.win 9).blk t).view.emb j = ix2 (⟨t.val * 2000 + (j 0).val, hp⟩ : Fin 50000) (⟨(j 1).val, hj1⟩ : Fin 128) :=
    funext fun x => Fin.ext (by
      match x with
      | ⟨0, _⟩ => show win0_9.index t (0 : Fin 2) * 2000 + 1 * (j 0).val = t.val * 2000 + (j 0).val; omega
      | ⟨1, _⟩ => show win0_9.index t (1 : Fin 2) * 128 + 1 * (j 1).val = (j 1).val; omega)
  show k0_pay1 (F := Ideal) (iblk0 V c 0 t) (iblk0 V c 1 t) (iblk0 V c 2 t) (iblk0 V c 3 t) (iblk0 V c 4 t) (iblk0 V c 5 t) (iblk0 V c 8 t) (iblk0 V c 7 t) (iblk0 V c 6 t) ((cfg0.win 9).xinj (grid0.coords t) j)
      = layer V c (((cfg0.win 9).blk t).view.emb j)
  rw [hx, hy]
  refine (body_at (iblk0 V c 0 t) (iblk0 V c 1 t) (iblk0 V c 2 t) (iblk0 V c 3 t) (iblk0 V c 4 t) (iblk0 V c 5 t)
    (iblk0 V c 8 t) (iblk0 V c 7 t) (iblk0 V c 6 t) ⟨(j 0).val, hj0⟩ ⟨(j 1).val, hj1⟩).trans ?_
  show _ = denseAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))
    (⟨t.val * 2000 + (j 0).val, hp⟩ : Fin 50000) (⟨(j 1).val, hj1⟩ : Fin 128)
  unfold denseAt
  simp only [agg_rows V c t ⟨(j 0).val, hj0⟩ ⟨t.val * 2000 + (j 0).val, hp⟩ rfl, node_rows V c t ⟨(j 0).val, hj0⟩ ⟨t.val * 2000 + (j 0).val, hp⟩ rfl,
    wl_whole V c t, wr_whole V c t, bias_whole V c t, scale_whole V c t, shift_whole V c t, mean_whole V c t, var_whole V c t]

/-- An entry of the array is in step `t`'s output block iff its row is in row block `t` (and its channel in range). -/
theorem mem_block (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v39).slice (win0_9.rect t)).set ↔ _
  rw [View.set_slice_whole, Rect.mem_set_unit]
  exact Iff.rfl

/-- Row `p` is written by step `p / 2000`: the 25 row blocks fill the array. -/
theorem covered (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have ht : (i 0).val / 2000 < cfg0.N := lt_of_lt_of_eq (show (i 0).val / 2000 < 25 by omega) N_0.symm
  obtain ⟨-, -, -, -, -, -, -, -, -, -, -, -, -, e, e'⟩ := block_index ⟨(i 0).val / 2000, ht⟩
  have e₀ : win0_9.index ⟨(i 0).val / 2000, ht⟩ (0 : Fin 2) = (i 0).val / 2000 := e
  refine ⟨⟨(i 0).val / 2000, ht⟩, flush0_9 _, ?_⟩
  rw [mem_block]
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    omega
  | ⟨1, _⟩ =>
    show win0_9.index ⟨(i 0).val / 2000, ht⟩ (1 : Fin 2) * 128 ≤ (i 1).val
      ∧ (i 1).val < win0_9.index ⟨(i 0).val / 2000, ht⟩ (1 : Fin 2) * 128 + 128
    omega

/-- After its 25 steps the layer's output array is the hidden-layer formula everywhere. -/
theorem whole (c : Dev nD) : (dat0 (F := Ideal) V c).arrAt 9 cfg0.N = layer V c :=
  (dat0 (F := Ideal) V c).arrAt_eq_of_cover 9 (layer V c) (fun t _ => block_eq V c t) covered

/-- THE LAYER, ENTRY BY ENTRY: after the region the output array holds, at node `p` and channel `q`, the hidden-layer
    formula of the nine input arrays as the region found them. -/
theorem closed (c : Dev nD) (p : Fin 50000) (q : Fin 128) :
    (dat0 (F := Ideal) V c).arrAt 9 cfg0.N (ix2 p q)
      = denseAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) p q :=
  congrFun (whole V c) (ix2 p q)

end Cert.Sage.Region0

end
-- ==== Proof.RefLayers.lean ====
import proofs.«157926_j75625784148632_1_alg».proof.Proof.ReadP
import proofs.«157926_j75625784148632_1_alg».proof.Proof.Spec

/-!
The reference network's six dense layers, each read at a node `p` and a channel `q`.

Every layer of the reference is a chain of elementwise operations on two matrix products: the aggregated features
times one weight matrix plus the node's own features times another, then the bias, and for the five hidden layers
the normalisation `(· − running mean) · (γ · (running var + ε)^(-1/2)) + β` followed by `max · 0`. The vectors of
length 128 reach the 50000 × 128 arrays through two broadcasts (128 → 1 × 128 → 50000 × 128), whose composed index
map sends `(p, q)` to `q`; a product's operands are read at `(p, k)` and `(k, q)`. With those index maps
identified, the value at `(p, q)` is literally the closed form `Cert.Sage.denseAt` (for the last layer
`Cert.Sage.outAt`) of the layer's nine (five) inputs.
-/

noncomputable section

namespace Cert.Sage.RefLayers

open Cert.ReferenceIdeal Cert.ReferenceIdeal.Gen Cert.ReferenceIdeal.ReadP Idealize.ShloMosaic Idealize.ShloMosaic.ValueIdx

/-! ## Layer 0 -/

section layer0

variable (p : Fin 50000) (q : Fin 128) (k : Fin 128)

/-- The left operand of a product is read at `(p, k)`, the right one at `(k, q)`. -/
theorem l31 : lidx_main_v31 (ix2 p q) k = ix2 p k :=
  funext fun a => Fin.ext (by match a with | ⟨0, _⟩ => rfl | ⟨1, _⟩ => rfl)
theorem r31 : ridx_main_v31 (ix2 p q) k = ix2 k q :=
  funext fun a => Fin.ext (by match a with | ⟨0, _⟩ => rfl | ⟨1, _⟩ => rfl)
theorem l32 : lidx_main_v32 (ix2 p q) k = ix2 p k :=
  funext fun a => Fin.ext (by match a with | ⟨0, _⟩ => rfl | ⟨1, _⟩ => rfl)
theorem r32 : ridx_main_v32 (ix2 p q) k = ix2 k q :=
  funext fun a => Fin.ext (by match a with | ⟨0, _⟩ => rfl | ⟨1, _⟩ => rfl)
/-- The two broadcasts of a vector of length 128 (128 → 1 × 128 → 50000 × 128) read it at `q`. -/
theorem b35 : idx_main_v34 (idx_main_v35 (ix2 p q)) = ix1 q :=
  funext fun a => Fin.ext (by match a with | ⟨0, _⟩ => rfl)
theorem b40 : idx_main_v39 (idx_main_v40 (ix2 p q)) = ix1 q :=
  funext fun a => Fin.ext (by match a with | ⟨0, _⟩ => rfl)
theorem b51 : idx_main_v50 (idx_main_v51 (ix2 p q)) = ix1 q :=
  funext fun a => Fin.ext (by match a with | ⟨0, _⟩ => rfl)
theorem b56 : idx_main_v55 (idx_main_v56 (ix2 p q)) = ix1 q :=
  funext fun a => Fin.ext (by match a with | ⟨0, _⟩ => rfl)

end layer0

/-- Layer 0 at `(p, q)`: the two products summed, plus the bias, normalised, shifted, and clamped at zero. -/
theorem layer0 (x0 : (⟨S50000x128, .f32⟩ : BufTy).Contents (Elt Ideal)) (x1 x2 : (⟨S5x128x128, .f32⟩ : BufTy).Contents (Elt Ideal))
    (x3 x4 x5 x6 x7 : (⟨S5x128, .f32⟩ : BufTy).Contents (Elt Ideal)) (x11 : (⟨S2x1600000, .i32⟩ : BufTy).Contents (Elt Ideal))
    (p : Fin 50000) (q : Fin 128) :
    val_main_v58 (F := Ideal) x0 x1 x2 x3 x4 x5 x6 x7 x11 (ix2 p q)
      = Cert.Sage.denseAt (val_main_v30 (F := Ideal) x0 x11) x0 (val_main_v14 (F := Ideal) x1) (val_main_v16 (F := Ideal) x2)
          (val_main_v18 (F := Ideal) x3) (val_main_v43 (F := Ideal) x4) (val_main_v54 (F := Ideal) x5)
          (val_main_v38 (F := Ideal) x6) (val_main_v45 (F := Ideal) x7) p q := by
  rw [val_main_v58_apply, val_main_call0_v0_apply, val_main_call0_cst_apply, val_main_v57_apply, val_main_v56_apply,
    val_main_v55_apply, val_main_v52_apply, val_main_v51_apply, val_main_v50_apply, val_main_v49_apply, val_main_v48_apply,
    val_main_v47_apply, val_main_v46_apply, val_main_cst_5_apply, val_main_v41_apply, val_main_v40_apply, val_main_v39_apply,
    val_main_v36_apply, val_main_v35_apply, val_main_v34_apply, val_main_v33_apply, val_main_v32_apply, val_main_v31_apply]
  simp only [l31, r31, l32, r32, b35, b40, b51, b56]
  rw [Ideal.maximumf_def, Ideal.addf_def, Ideal.mulf_def, Ideal.subf_def, Ideal.addf_def, Ideal.addf_def, Ideal.mulf_def,
    Ideal.hostUnary_rsqrt_def, Ideal.addf_def, Ideal.ofBits_def, Ideal.ofBits_def]
  unfold Cert.Sage.denseAt
  rfl

/-! ## Layer 1 -/

section layer1

variable (p : Fin 50000) (q : Fin 128) (k : Fin 128)

/-- The left operand of a product is read at `(p, k)`, the right one at `(k, q)`. -/
theorem l77 : lidx_main_v77 (ix2 p q) k = ix2 p k :=
  funext fun a => Fin.ext (by match a with | ⟨0, _⟩ => rfl | ⟨1, _⟩ => rfl)
theorem r77 : ridx_main_v77 (ix2 p q) k = ix2 k q :=
  funext fun a => Fin.ext (by match a with | ⟨0, _⟩ => rfl | ⟨1, _⟩ => rfl)
theorem l78 : lidx_main_v78 (ix2 p q) k = ix2 p k :=
  funext fun a => Fin.ext (by match a with | ⟨0, _⟩ => rfl | ⟨1, _⟩ => rfl)
theorem r78 : ridx_main_v78 (ix2 p q) k = ix2 k q :=
  funext fun a => Fin.ext (by match a with | ⟨0, _⟩ => rfl | ⟨1, _⟩ => rfl)
/-- The two broadcasts of a vector of length 128 (128 → 1 × 128 → 50000 × 128) read it at `q`. -/
theorem b81 : idx_main_v80 (idx_main_v81 (ix2 p q)) = ix1 q :=
  funext fun a => Fin.ext (by match a with | ⟨0, _⟩ => rfl)
theorem b86 : idx_main_v85 (idx_main_v86 (ix2 p q)) = ix1 q :=
  funext fun a => Fin.ext (by match a with | ⟨0, _⟩ => rfl)
theorem b97 : idx_main_v96 (idx_main_v97 (ix2 p q)) = ix1 q :=
  funext fun a => Fin.ext (by match a with | ⟨0, _⟩ => rfl)
theorem b102 : idx_main_v101 (idx_main_v102 (ix2 p q)) = ix1 q :=
  funext fun a => Fin.ext (by match a with | ⟨0, _⟩ => rfl)

end layer1

/-- Layer 1 at `(p, q)`: the two products summed, plus the bias, normalised, shifted, and clamped at zero. -/
theorem layer1 (x0 : (⟨S50000x128, .f32⟩ : BufTy).Contents (Elt Ideal)) (x1 x2 : (⟨S5x128x128, .f32⟩ : BufTy).Contents (Elt Ideal))
    (x3 x4 x5 x6 x7 : (⟨S5x128, .f32⟩ : BufTy).Contents (Elt Ideal)) (x11 : (⟨S2x1600000, .i32⟩ : BufTy).Contents (Elt Ideal))
    (p : Fin 50000) (q : Fin 128) :
    val_main_v104 (F := Ideal) x0 x1 x2 x3 x4 x5 x6 x7 x11 (ix2 p q)
      = Cert.Sage.denseAt (val_main_v76 (F := Ideal) x0 x1 x2 x3 x4 x5 x6 x7 x11) (val_main_v58 (F := Ideal) x0 x1 x2 x3 x4 x5 x6 x7 x11) (val_main_v60 (F := Ideal) x1) (val_main_v62 (F := Ideal) x2)
          (val_main_v64 (F := Ideal) x3) (val_main_v89 (F := Ideal) x4) (val_main_v100 (F := Ideal) x5)
          (val_main_v84 (F := Ideal) x6) (val_main_v91 (F := Ideal) x7) p q := by
  rw [val_main_v104_apply, val_main_call1_v0_apply, val_main_call1_cst_apply, val_main_v103_apply, val_main_v102_apply,
    val_main_v101_apply, val_main_v98_apply, val_main_v97_apply, val_main_v96_apply, val_main_v95_apply, val_main_v94_apply,
    val_main_v93_apply, val_main_v92_apply, val_main_cst_9_apply, val_main_v87_apply, val_main_v86_apply, val_main_v85_apply,
    val_main_v82_apply, val_main_v81_apply, val_main_v80_apply, val_main_v79_apply, val_main_v78_apply, val_main_v77_apply]
  simp only [l77, r77, l78, r78, b81, b86, b97, b102]
  rw [Ideal.maximumf_def, Ideal.addf_def, Ideal.mulf_def, Ideal.subf_def, Ideal.addf_def, Ideal.addf_def, Ideal.mulf_def,
    Ideal.hostUnary_rsqrt_def, Ideal.addf_def, Ideal.ofBits_def, Ideal.ofBits_def]
  unfold Cert.Sage.denseAt
  rfl

/-! ## Layer 2 -/

section layer2

variable (p : Fin 50000) (q : Fin 128) (k : Fin 128)

/-- The left operand of a product is read at `(p, k)`, the right one at `(k, q)`. -/
theorem l123 : lidx_main_v123 (ix2 p q) k = ix2 p k :=
  funext fun a => Fin.ext (by match a with | ⟨0, _⟩ => rfl | ⟨1, _⟩ => rfl)
theorem r123 : ridx_main_v123 (ix2 p q) k = ix2 k q :=
  funext fun a => Fin.ext (by match a with | ⟨0, _⟩ => rfl | ⟨1, _⟩ => rfl)
theorem l124 : lidx_main_v124 (ix2 p q) k = ix2 p k :=
  funext fun a => Fin.ext (by match a with | ⟨0, _⟩ => rfl | ⟨1, _⟩ => rfl)
theorem r124 : ridx_main_v124 (ix2 p q) k = ix2 k q :=
  funext fun a => Fin.ext (by match a with | ⟨0, _⟩ => rfl | ⟨1, _⟩ => rfl)
/-- The two broadcasts of a vector of length 128 (128 → 1 × 128 → 50000 × 128) read it at `q`. -/
theorem b127 : idx_main_v126 (idx_main_v127 (ix2 p q)) = ix1 q :=
  funext fun a => Fin.ext (by match a with | ⟨0, _⟩ => rfl)
theorem b132 : idx_main_v131 (idx_main_v132 (ix2 p q)) = ix1 q :=
  funext fun a => Fin.ext (by match a with | ⟨0, _⟩ => rfl)
theorem b143 : idx_main_v142 (idx_main_v143 (ix2 p q)) = ix1 q :=
  funext fun a => Fin.ext (by match a with | ⟨0, _⟩ => rfl)
theorem b148 : idx_main_v147 (idx_main_v148 (ix2 p q)) = ix1 q :=
  funext fun a => Fin.ext (by match a with | ⟨0, _⟩ => rfl)

end layer2

/-- Layer 2 at `(p, q)`: the two products summed, plus the bias, normalised, shifted, and clamped at zero. -/
theorem layer2 (x0 : (⟨S50000x128, .f32⟩ : BufTy).Contents (Elt Ideal)) (x1 x2 : (⟨S5x128x128, .f32⟩ : BufTy).Contents (Elt Ideal))
    (x3 x4 x5 x6 x7 : (⟨S5x128, .f32⟩ : BufTy).Contents (Elt Ideal)) (x11 : (⟨S2x1600000, .i32⟩ : BufTy).Contents (Elt Ideal))
    (p : Fin 50000) (q : Fin 128) :
    val_main_v150 (F := Ideal) x0 x1 x2 x3 x4 x5 x6 x7 x11 (ix2 p q)
      = Cert.Sage.denseAt (val_main_v122 (F := Ideal) x0 x1 x2 x3 x4 x5 x6 x7 x11) (val_main_v104 (F := Ideal) x0 x1 x2 x3 x4 x5 x6 x7 x11) (val_main_v106 (F := Ideal) x1) (val_main_v108 (F := Ideal) x2)
          (val_main_v110 (F := Ideal) x3) (val_main_v135 (F := Ideal) x4) (val_main_v146 (F := Ideal) x5)
          (val_main_v130 (F := Ideal) x6) (val_main_v137 (F := Ideal) x7) p q := by
  rw [val_main_v150_apply, val_main_call2_v0_apply, val_main_call2_cst_apply, val_main_v149_apply, val_main_v148_apply,
    val_main_v147_apply, val_main_v144_apply, val_main_v143_apply, val_main_v142_apply, val_main_v141_apply, val_main_v140_apply,
    val_main_v139_apply, val_main_v138_apply, val_main_cst_13_apply, val_main_v133_apply, val_main_v132_apply, val_main_v131_apply,
    val_main_v128_apply, val_main_v127_apply, val_main_v126_apply, val_main_v125_apply, val_main_v124_apply, val_main_v123_apply]
  simp only [l123, r123, l124, r124, b127, b132, b143, b148]
  rw [Ideal.maximumf_def, Ideal.addf_def, Ideal.mulf_def, Ideal.subf_def, Ideal.addf_def, Ideal.addf_def, Ideal.mulf_def,
    Ideal.hostUnary_rsqrt_def, Ideal.addf_def, Ideal.ofBits_def, Ideal.ofBits_def]
  unfold Cert.Sage.denseAt
  rfl

/-! ## Layer 3 -/

section layer3

variable (p : Fin 50000) (q : Fin 128) (k : Fin 128)

/-- The left operand of a product is read at `(p, k)`, the right one at `(k, q)`. -/
theorem l169 : lidx_main_v169 (ix2 p q) k = ix2 p k :=
  funext fun a => Fin.ext (by match a with | ⟨0, _⟩ => rfl | ⟨1, _⟩ => rfl)
theorem r169 : ridx_main_v169 (ix2 p q) k = ix2 k q :=
  funext fun a => Fin.ext (by match a with | ⟨0, _⟩ => rfl | ⟨1, _⟩ => rfl)
theorem l170 : lidx_main_v170 (ix2 p q) k = ix2 p k :=
  funext fun a => Fin.ext (by match a with | ⟨0, _⟩ => rfl | ⟨1, _⟩ => rfl)
theorem r170 : ridx_main_v170 (ix2 p q) k = ix2 k q :=
  funext fun a => Fin.ext (by match a with | ⟨0, _⟩ => rfl | ⟨1, _⟩ => rfl)
/-- The two broadcasts of a vector of length 128 (128 → 1 × 128 → 50000 × 128) read it at `q`. -/
theorem b173 : idx_main_v172 (idx_main_v173 (ix2 p q)) = ix1 q :=
  funext fun a => Fin.ext (by match a with | ⟨0, _⟩ => rfl)
theorem b178 : idx_main_v177 (idx_main_v178 (ix2 p q)) = ix1 q :=
  funext fun a => Fin.ext (by match a with | ⟨0, _⟩ => rfl)
theorem b189 : idx_main_v188 (idx_main_v189 (ix2 p q)) = ix1 q :=
  funext fun a => Fin.ext (by match a with | ⟨0, _⟩ => rfl)
theorem b194 : idx_main_v193 (idx_main_v194 (ix2 p q)) = ix1 q :=
  funext fun a => Fin.ext (by match a with | ⟨0, _⟩ => rfl)

end layer3

/-- Layer 3 at `(p, q)`: the two products summed, plus the bias, normalised, shifted, and clamped at zero. -/
theorem layer3 (x0 : (⟨S50000x128, .f32⟩ : BufTy).Contents (Elt Ideal)) (x1 x2 : (⟨S5x128x128, .f32⟩ : BufTy).Contents (Elt Ideal))
    (x3 x4 x5 x6 x7 : (⟨S5x128, .f32⟩ : BufTy).Contents (Elt Ideal)) (x11 : (⟨S2x1600000, .i32⟩ : BufTy).Contents (Elt Ideal))
    (p : Fin 50000) (q : Fin 128) :
    val_main_v196 (F := Ideal) x0 x1 x2 x3 x4 x5 x6 x7 x11 (ix2 p q)
      = Cert.Sage.denseAt (val_main_v168 (F := Ideal) x0 x1 x2 x3 x4 x5 x6 x7 x11) (val_main_v150 (F := Ideal) x0 x1 x2 x3 x4 x5 x6 x7 x11) (val_main_v152 (F := Ideal) x1) (val_main_v154 (F := Ideal) x2)
          (val_main_v156 (F := Ideal) x3) (val_main_v181 (F := Ideal) x4) (val_main_v192 (F := Ideal) x5)
          (val_main_v176 (F := Ideal) x6) (val_main_v183 (F := Ideal) x7) p q := by
  rw [val_main_v196_apply, val_main_call3_v0_apply, val_main_call3_cst_apply, val_main_v195_apply, val_main_v194_apply,
    val_main_v193_apply, val_main_v190_apply, val_main_v189_apply, val_main_v188_apply, val_main_v187_apply, val_main_v186_apply,
    val_main_v185_apply, val_main_v184_apply, val_main_cst_17_apply, val_main_v179_apply, val_main_v178_apply, val_main_v177_apply,
    val_main_v174_apply, val_main_v173_apply, val_main_v172_apply, val_main_v171_apply, val_main_v170_apply, val_main_v169_apply]
  simp only [l169, r169, l170, r170, b173, b178, b189, b194]
  rw [Ideal.maximumf_def, Ideal.addf_def, Ideal.mulf_def, Ideal.subf_def, Ideal.addf_def, Ideal.addf_def, Ideal.mulf_def,
    Ideal.hostUnary_rsqrt_def, Ideal.addf_def, Ideal.ofBits_def, Ideal.ofBits_def]
  unfold Cert.Sage.denseAt
  rfl

/-! ## Layer 4 -/

section layer4

variable (p : Fin 50000) (q : Fin 128) (k : Fin 128)

/-- The left operand of a product is read at `(p, k)`, the right one at `(k, q)`. -/
theorem l215 : lidx_main_v215 (ix2 p q) k = ix2 p k :=
  funext fun a => Fin.ext (by match a with | ⟨0, _⟩ => rfl | ⟨1, _⟩ => rfl)
theorem r215 : ridx_main_v215 (ix2 p q) k = ix2 k q :=
  funext fun a => Fin.ext (by match a with | ⟨0, _⟩ => rfl | ⟨1, _⟩ => rfl)
theorem l216 : lidx_main_v216 (ix2 p q) k = ix2 p k :=
  funext fun a => Fin.ext (by match a with | ⟨0, _⟩ => rfl | ⟨1, _⟩ => rfl)
theorem r216 : ridx_main_v216 (ix2 p q) k = ix2 k q :=
  funext fun a => Fin.ext (by match a with | ⟨0, _⟩ => rfl | ⟨1, _⟩ => rfl)
/-- The two broadcasts of a vector of length 128 (128 → 1 × 128 → 50000 × 128) read it at `q`. -/
theorem b219 : idx_main_v218 (idx_main_v219 (ix2 p q)) = ix1 q :=
  funext fun a => Fin.ext (by match a with | ⟨0, _⟩ => rfl)
theorem b224 : idx_main_v223 (idx_main_v224 (ix2 p q)) = ix1 q :=
  funext fun a => Fin.ext (by match a with | ⟨0, _⟩ => rfl)
theorem b235 : idx_main_v234 (idx_main_v235 (ix2 p q)) = ix1 q :=
  funext fun a => Fin.ext (by match a with | ⟨0, _⟩ => rfl)
theorem b240 : idx_main_v239 (idx_main_v240 (ix2 p q)) = ix1 q :=
  funext fun a => Fin.ext (by match a with | ⟨0, _⟩ => rfl)

end layer4

/-- Layer 4 at `(p, q)`: the two products summed, plus the bias, normalised, shifted, and clamped at zero. -/
theorem layer4 (x0 : (⟨S50000x128, .f32⟩ : BufTy).Contents (Elt Ideal)) (x1 x2 : (⟨S5x128x128, .f32⟩ : BufTy).Contents (Elt Ideal))
    (x3 x4 x5 x6 x7 : (⟨S5x128, .f32⟩ : BufTy).Contents (Elt Ideal)) (x11 : (⟨S2x1600000, .i32⟩ : BufTy).Contents (Elt Ideal))
    (p : Fin 50000) (q : Fin 128) :
    val_main_v242 (F := Ideal) x0 x1 x2 x3 x4 x5 x6 x7 x11 (ix2 p q)
      = Cert.Sage.denseAt (val_main_v214 (F := Ideal) x0 x1 x2 x3 x4 x5 x6 x7 x11) (val_main_v196 (F := Ideal) x0 x1 x2 x3 x4 x5 x6 x7 x11) (val_main_v198 (F := Ideal) x1) (val_main_v200 (F := Ideal) x2)
          (val_main_v202 (F := Ideal) x3) (val_main_v227 (F := Ideal) x4) (val_main_v238 (F := Ideal) x5)
          (val_main_v222 (F := Ideal) x6) (val_main_v229 (F := Ideal) x7) p q := by
  rw [val_main_v242_apply, val_main_call4_v0_apply, val_main_call4_cst_apply, val_main_v241_apply, val_main_v240_apply,
    val_main_v239_apply, val_main_v236_apply, val_main_v235_apply, val_main_v234_apply, val_main_v233_apply, val_main_v232_apply,
    val_main_v231_apply, val_main_v230_apply, val_main_cst_21_apply, val_main_v225_apply, val_main_v224_apply, val_main_v223_apply,
    val_main_v220_apply, val_main_v219_apply, val_main_v218_apply, val_main_v217_apply, val_main_v216_apply, val_main_v215_apply]
  simp only [l215, r215, l216, r216, b219, b224, b235, b240]
  rw [Ideal.maximumf_def, Ideal.addf_def, Ideal.mulf_def, Ideal.subf_def, Ideal.addf_def, Ideal.addf_def, Ideal.mulf_def,
    Ideal.hostUnary_rsqrt_def, Ideal.addf_def, Ideal.ofBits_def, Ideal.ofBits_def]
  unfold Cert.Sage.denseAt
  rfl

/-! ## The last layer -/

section layer5

variable (p : Fin 50000) (q : Fin 2) (k : Fin 128)

/-- The left operand of a product is read at `(p, k)`, the right one at `(k, q)`. -/
theorem l255 : lidx_main_v255 (ix2 p q) k = ix2 p k :=
  funext fun a => Fin.ext (by match a with | ⟨0, _⟩ => rfl | ⟨1, _⟩ => rfl)
theorem r255 : ridx_main_v255 (ix2 p q) k = ix2 k q :=
  funext fun a => Fin.ext (by match a with | ⟨0, _⟩ => rfl | ⟨1, _⟩ => rfl)
theorem l256 : lidx_main_v256 (ix2 p q) k = ix2 p k :=
  funext fun a => Fin.ext (by match a with | ⟨0, _⟩ => rfl | ⟨1, _⟩ => rfl)
theorem r256 : ridx_main_v256 (ix2 p q) k = ix2 k q :=
  funext fun a => Fin.ext (by match a with | ⟨0, _⟩ => rfl | ⟨1, _⟩ => rfl)
/-- The two broadcasts of the bias (2 → 1 × 2 → 50000 × 2) read it at `q`. -/
theorem b259 : idx_main_v258 (idx_main_v259 (ix2 p q)) = ix1 q :=
  funext fun a => Fin.ext (by match a with | ⟨0, _⟩ => rfl)

end layer5

/-- The last layer at `(p, q)`: the two products summed, plus the bias. -/
theorem layer5 (x0 : (⟨S50000x128, .f32⟩ : BufTy).Contents (Elt Ideal)) (x1 x2 : (⟨S5x128x128, .f32⟩ : BufTy).Contents (Elt Ideal))
    (x3 x4 x5 x6 x7 : (⟨S5x128, .f32⟩ : BufTy).Contents (Elt Ideal)) (x8 x9 : (⟨S128x2, .f32⟩ : BufTy).Contents (Elt Ideal))
    (x10 : (⟨S2, .f32⟩ : BufTy).Contents (Elt Ideal)) (x11 : (⟨S2x1600000, .i32⟩ : BufTy).Contents (Elt Ideal))
    (p : Fin 50000) (q : Fin 2) :
    val_main_v260 (F := Ideal) x0 x1 x2 x3 x4 x5 x6 x7 x8 x9 x10 x11 (ix2 p q)
      = Cert.Sage.outAt (val_main_v254 (F := Ideal) x0 x1 x2 x3 x4 x5 x6 x7 x11) (val_main_v242 (F := Ideal) x0 x1 x2 x3 x4 x5 x6 x7 x11) x8 x9 x10 p q := by
  rw [val_main_v260_apply, val_main_v259_apply, val_main_v258_apply, val_main_v257_apply, val_main_v256_apply, val_main_v255_apply]
  simp only [l255, r255, l256, r256, b259]
  rw [Ideal.addf_def, Ideal.addf_def]
  unfold Cert.Sage.outAt
  rfl

end Cert.Sage.RefLayers

end
-- ==== Proof.SpecCongr.lean ====
import proofs.«157926_j75625784148632_1_alg».proof.Proof.Spec

/-!
A layer's value depends only on its input arrays: equal inputs give equal values at every node and channel.
-/

noncomputable section

namespace Cert.Sage

open Idealize.ShloMosaic

theorem denseAt_congr {a a' h h' : (⟨2, ![50000, 128]⟩ : Shape).Idx → EReal} {wl wl' wr wr' : (⟨2, ![128, 128]⟩ : Shape).Idx → EReal}
    {b b' g g' be be' rm rm' rv rv' : (⟨1, ![128]⟩ : Shape).Idx → EReal}
    (e0 : a = a') (e1 : h = h') (e2 : wl = wl') (e3 : wr = wr') (e4 : b = b') (e5 : g = g') (e6 : be = be') (e7 : rm = rm')
    (e8 : rv = rv') (p : Fin 50000) (q : Fin 128) :
    denseAt a h wl wr b g be rm rv p q = denseAt a' h' wl' wr' b' g' be' rm' rv' p q := by
  subst e0 e1 e2 e3 e4 e5 e6 e7 e8; rfl

theorem outAt_congr {a a' h h' : (⟨2, ![50000, 128]⟩ : Shape).Idx → EReal} {wl wl' wr wr' : (⟨2, ![128, 2]⟩ : Shape).Idx → EReal}
    {b b' : (⟨1, ![2]⟩ : Shape).Idx → EReal}
    (e0 : a = a') (e1 : h = h') (e2 : wl = wl') (e3 : wr = wr') (e4 : b = b') (p : Fin 50000) (q : Fin 2) :
    outAt a h wl wr b p q = outAt a' h' wl' wr' b' p q := by
  subst e0 e1 e2 e3 e4; rfl

end Cert.Sage

end
-- ==== Proof.KLayer0.lean ====
import proofs.«157926_j75625784148632_1_alg».proof.Proof.KKeep
import proofs.«157926_j75625784148632_1_alg».proof.Proof.Region0
import proofs.«157926_j75625784148632_1_alg».proof.Proof.RefLayers
import proofs.«157926_j75625784148632_1_alg».proof.Proof.SpecCongr

/-!
Hidden layer 0 of the kernel against the reference's layer 0.

The region's nine input arrays, as the region finds them, are the reference's own stages: the mean aggregate of the previous
features over each node's in-edges, the previous features themselves, and this layer's slices of the weights, the bias, the
scale, the shift and the running statistics. The region's output array is then the reference's layer output, index by index:
both are the one function `Cert.Sage.denseAt` of those nine arrays.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The aggregate: gather at the sources, scatter-add at the destinations, times the inverse in-degree. -/
theorem win0_0  :
    V1 m ρ c (Pipeline.arrRef spec0 0) = val_main_v30 (F := Ideal) (m ((c.tc : Thread nD τ).loc main_arg0)) (m ((c.tc : Thread nD τ).loc main_arg11)) := by
  show StableHlo.after hostOps0 (W0 m ρ c) (Proc.devRef .tc main_v24) = _
  after_results_simp
  rfl

/-- The previous features. -/
theorem win0_1  :
    V1 m ρ c (Pipeline.arrRef spec0 1) = m ((c.tc : Thread nD τ).loc main_arg0) :=
  (by kept_host hostOps0 : StableHlo.after hostOps0 (W0 m ρ c) (Proc.devRef .tc main_arg0) = W0 m ρ c (Proc.devRef .tc main_arg0)).trans rfl

/-- The neighbours' weight matrix: this layer's slice of the argument. -/
theorem win0_2 : V1 m ρ c (Pipeline.arrRef spec0 2) = val_main_v14 (F := Ideal) (m ((c.tc : Thread nD τ).loc main_arg1)) := by
  show StableHlo.after hostOps0 (W0 m ρ c) (Proc.devRef .tc main_v26) = _
  after_results_simp
  rfl

/-- The node's own weight matrix: this layer's slice of the argument. -/
theorem win0_3 : V1 m ρ c (Pipeline.arrRef spec0 3) = val_main_v16 (F := Ideal) (m ((c.tc : Thread nD τ).loc main_arg2)) := by
  show StableHlo.after hostOps0 (W0 m ρ c) (Proc.devRef .tc main_v28) = _
  after_results_simp
  rfl

/-- The bias: this layer's slice of the argument. -/
theorem win0_4 : V1 m ρ c (Pipeline.arrRef spec0 4) = val_main_v18 (F := Ideal) (m ((c.tc : Thread nD τ).loc main_arg3)) := by
  show StableHlo.after hostOps0 (W0 m ρ c) (Proc.devRef .tc main_v30) = _
  after_results_simp
  rfl

/-- The scale: this layer's slice of the argument. -/
theorem win0_5 : V1 m ρ c (Pipeline.arrRef spec0 5) = val_main_v43 (F := Ideal) (m ((c.tc : Thread nD τ).loc main_arg4)) := by
  show StableHlo.after hostOps0 (W0 m ρ c) (Proc.devRef .tc main_v32) = _
  after_results_simp
  rfl

/-- The shift: this layer's slice of the argument. -/
theorem win0_6 : V1 m ρ c (Pipeline.arrRef spec0 6) = val_main_v54 (F := Ideal) (m ((c.tc : Thread nD τ).loc main_arg5)) := by
  show StableHlo.after hostOps0 (W0 m ρ c) (Proc.devRef .tc main_v34) = _
  after_results_simp
  rfl

/-- The running mean: this layer's slice of the argument. -/
theorem win0_7 : V1 m ρ c (Pipeline.arrRef spec0 7) = val_main_v38 (F := Ideal) (m ((c.tc : Thread nD τ).loc main_arg6)) := by
  show StableHlo.after hostOps0 (W0 m ρ c) (Proc.devRef .tc main_v36) = _
  after_results_simp
  rfl

/-- The running variance: this layer's slice of the argument. -/
theorem win0_8 : V1 m ρ c (Pipeline.arrRef spec0 8) = val_main_v45 (F := Ideal) (m ((c.tc : Thread nD τ).loc main_arg7)) := by
  show StableHlo.after hostOps0 (W0 m ρ c) (Proc.devRef .tc main_v38) = _
  after_results_simp
  rfl

/-- The layer's output array is the reference's. -/
theorem stage0  :
    W2 m ρ c (Proc.devRef .tc main_v39) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  refine (W2_arr m ρ c 9).trans ?_
  funext i
  obtain ⟨p, q, rfl⟩ : ∃ (p : Fin 50000) (q : Fin 128), i = ValueIdx.ix2 p q := ⟨i 0, i 1, ValueIdx.eq_ix2 (n0 := 50000) (n1 := 128) i⟩
  exact (Cert.Sage.Region0.closed (V1 m ρ) c p q).trans
    ((Cert.Sage.denseAt_congr (win0_0 m ρ c) (win0_1 m ρ c) (win0_2 m ρ c) (win0_3 m ρ c) (win0_4 m ρ c) (win0_5 m ρ c) (win0_6 m ρ c) (win0_7 m ρ c) (win0_8 m ρ c) p q).trans
      (Cert.Sage.RefLayers.layer0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) p q).symm)

end Cert.Sage.KChain

end
-- ==== Proof.Region1.lean ====
import proofs.«157926_j75625784148632_1_alg».proof.Proof.Gen.KernelIdeal.Frame
import proofs.«157926_j75625784148632_1_alg».proof.Proof.Spec
import proofs.«157926_j75625784148632_1_alg».proof.Proof.Dense
import Idealize.ShloMosaic.Lib.Pipeline.Value
import Idealize.ShloMosaic.Lib.ValueIdx
import Idealize.ShloMosaic.Lib.ValueLayout

/-!
The second hidden layer, as one array.

The layer is computed 2000 rows at a time: step `t` (of 25) reads rows `2000 t … 2000 t + 1999` of the aggregated
neighbour features and of the node features, the two whole 128 × 128 weight matrices and the five whole per-channel
vectors, and writes rows `2000 t … 2000 t + 1999` of the output. An output entry `(p, q)` depends on row `p` of the two
feature arrays only, so the 25 row blocks written one after another are the restriction to each block of ONE function of
the nine arrays as the layer finds them — the hidden-layer formula — and together they fill the whole 50000 × 128 array.
-/

noncomputable section

namespace Cert.Sage.Region1

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## One step's arithmetic at an entry of its block -/

/-- At row `r`, channel `q` of a block: the two products of row `r` with column `q` of the weights added, the bias added,
    the running mean taken off, the result scaled by `γ · (variance + ε)^(-1/2)`, shifted by `β`, and cut below at zero. -/
theorem body_at (a h : Vec Ideal S2000x128 .f32) (wl wr : Vec Ideal S128x128 .f32) (b g rv rm be : Vec Ideal S128 .f32)
    (r : Fin 2000) (q : Fin 128) :
    k1_pay1 (F := Ideal) (k1_pay2 (F := Ideal) a h wl wr b g rv rm be) (k1_pay3 (F := Ideal)) (ix2 r q)
      = max ((((∑ k : Fin 128, a (ix2 r k) * wl (ix2 k q)) + (∑ k : Fin 128, h (ix2 r k) * wr (ix2 k q))) + b (ix1 q) - rm (ix1 q))
            * (g (ix1 q) * Ideal.rsqrt (rv (ix1 q) + Ideal.ofBits .f32 0x3727C5AC#32)) + be (ix1 q))
          (Ideal.ofBits .f32 0x00000000#32) := by
  unfold k1_pay1 k1_pay2 k1_pay3
  simp only [maximumf_apply, addf_apply, subf_apply, mulf_apply, broadcast_apply, truncf_apply, shapeCast_self,
    Dense.contract_at, Dense.row_at]
  rfl

/-! ## Where each step's blocks sit in their arrays -/

/-- Step `t`'s block of the two feature arrays and of the output is row block `t`; every other window is its whole array. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ win1_9.index t (0 : Fin 2) = t.val ∧ win1_9.index t (1 : Fin 2) = 0 :=
  (by decide +kernel : ∀ t : Fin grid1.N, _)

/-- Row `r` of step `t`'s block of the aggregated features is row `2000 t + r` of the array. -/
theorem agg_rows (c : Dev nD) (t : Fin cfg1.N) (r : Fin 2000) (p : Fin 50000) (hp : p.val = t.val * 2000 + r.val) (k : Fin 128) :
    (iblk1 V c 0 t : Vec Ideal S2000x128 .f32) (ix2 r k) = (V c (Pipeline.arrRef spec1 0) : S50000x128.Idx → EReal) (ix2 p k) := by
  obtain ⟨e, e', -⟩ := block_index t
  show (V c (Pipeline.arrRef spec1 0) : S50000x128.Idx → EReal) (((cfg1.win 0).blk t).view.emb (ix2 r k)) = _
  refine congrArg _ (funext fun x => Fin.ext ?_)
  match x with
  | ⟨0, _⟩ => show win1_0.index t (0 : Fin 2) * 2000 + 1 * r.val = p.val; omega
  | ⟨1, _⟩ => show win1_0.index t (1 : Fin 2) * 128 + 1 * k.val = k.val; omega

/-- Row `r` of step `t`'s block of the node features is row `2000 t + r` of the array. -/
theorem node_rows (c : Dev nD) (t : Fin cfg1.N) (r : Fin 2000) (p : Fin 50000) (hp : p.val = t.val * 2000 + r.val) (k : Fin 128) :
    (iblk1 V c 1 t : Vec Ideal S2000x128 .f32) (ix2 r k) = (V c (Pipeline.arrRef spec1 1) : S50000x128.Idx → EReal) (ix2 p k) := by
  obtain ⟨-, -, e, e', -⟩ := block_index t
  show (V c (Pipeline.arrRef spec1 1) : S50000x128.Idx → EReal) (((cfg1.win 1).blk t).view.emb (ix2 r k)) = _
  refine congrArg _ (funext fun x => Fin.ext ?_)
  match x with
  | ⟨0, _⟩ => show win1_1.index t (0 : Fin 2) * 2000 + 1 * r.val = p.val; omega
  | ⟨1, _⟩ => show win1_1.index t (1 : Fin 2) * 128 + 1 * k.val = k.val; omega

/-- Every step sees the whole weight matrix of the aggregated features. -/
theorem wl_whole (c : Dev nD) (t : Fin cfg1.N) (k q : Fin 128) :
    (iblk1 V c 2 t : Vec Ideal S128x128 .f32) (ix2 k q) = (V c (Pipeline.arrRef spec1 2) : S128x128.Idx → EReal) (ix2 k q) := by
  obtain ⟨-, -, -, -, e, e', -⟩ := block_index t
  show (V c (Pipeline.arrRef spec1 2) : S128x128.Idx → EReal) (((cfg1.win 2).blk t).view.emb (ix2 k q)) = _
  refine congrArg _ (funext fun x => Fin.ext ?_)
  match x with
  | ⟨0, _⟩ => show win1_2.index t (0 : Fin 2) * 128 + 1 * k.val = k.val; omega
  | ⟨1, _⟩ => show win1_2.index t (1 : Fin 2) * 128 + 1 * q.val = q.val; omega

/-- Every step sees the whole weight matrix of the node features. -/
theorem wr_whole (c : Dev nD) (t : Fin cfg1.N) (k q : Fin 128) :
    (iblk1 V c 3 t : Vec Ideal S128x128 .f32) (ix2 k q) = (V c (Pipeline.arrRef spec1 3) : S128x128.Idx → EReal) (ix2 k q) := by
  obtain ⟨-, -, -, -, -, -, e, e', -⟩ := block_index t
  show (V c (Pipeline.arrRef spec1 3) : S128x128.Idx → EReal) (((cfg1.win 3).blk t).view.emb (ix2 k q)) = _
  refine congrArg _ (funext fun x => Fin.ext ?_)
  match x with
  | ⟨0, _⟩ => show win1_3.index t (0 : Fin 2) * 128 + 1 * k.val = k.val; omega
  | ⟨1, _⟩ => show win1_3.index t (1 : Fin 2) * 128 + 1 * q.val = q.val; omega

/-- Every step sees the whole bias vector … -/
theorem bias_whole (c : Dev nD) (t : Fin cfg1.N) (q : Fin 128) :
    (iblk1 V c 4 t : Vec Ideal S128 .f32) (ix1 q) = (V c (Pipeline.arrRef spec1 4) : S128.Idx → EReal) (ix1 q) := by
  obtain ⟨-, -, -, -, -, -, -, -, e, -⟩ := block_index t
  show (V c (Pipeline.arrRef spec1 4) : S128.Idx → EReal) (((cfg1.win 4).blk t).view.emb (ix1 q)) = _
  refine congrArg _ (funext fun x => Fin.ext ?_)
  match x with
  | ⟨0, _⟩ => show win1_4.index t (0 : Fin 1) * 128 + 1 * q.val = q.val; omega

/-- … the whole scale vector … -/
theorem scale_whole (c : Dev nD) (t : Fin cfg1.N) (q : Fin 128) :
    (iblk1 V c 5 t : Vec Ideal S128 .f32) (ix1 q) = (V c (Pipeline.arrRef spec1 5) : S128.Idx → EReal) (ix1 q) := by
  obtain ⟨-, -, -, -, -, -, -, -, -, e, -⟩ := block_index t
  show (V c (Pipeline.arrRef spec1 5) : S128.Idx → EReal) (((cfg1.win 5).blk t).view.emb (ix1 q)) = _
  refine congrArg _ (funext fun x => Fin.ext ?_)
  match x with
  | ⟨0, _⟩ => show win1_5.index t (0 : Fin 1) * 128 + 1 * q.val = q.val; omega

/-- … the whole shift vector … -/
theorem shift_whole (c : Dev nD) (t : Fin cfg1.N) (q : Fin 128) :
    (iblk1 V c 6 t : Vec Ideal S128 .f32) (ix1 q) = (V c (Pipeline.arrRef spec1 6) : S128.Idx → EReal) (ix1 q) := by
  obtain ⟨-, -, -, -, -, -, -, -, -, -, e, -⟩ := block_index t
  show (V c (Pipeline.arrRef spec1 6) : S128.Idx → EReal) (((cfg1.win 6).blk t).view.emb (ix1 q)) = _
  refine congrArg _ (funext fun x => Fin.ext ?_)
  match x with
  | ⟨0, _⟩ => show win1_6.index t (0 : Fin 1) * 128 + 1 * q.val = q.val; omega

/-- … the whole vector of running means … -/
theorem mean_whole (c : Dev nD) (t : Fin cfg1.N) (q : Fin 128) :
    (iblk1 V c 7 t : Vec Ideal S128 .f32) (ix1 q) = (V c (Pipeline.arrRef spec1 7) : S128.Idx → EReal) (ix1 q) := by
  obtain ⟨-, -, -, -, -, -, -, -, -, -, -, e, -⟩ := block_index t
  show (V c (Pipeline.arrRef spec1 7) : S128.Idx → EReal) (((cfg1.win 7).blk t).view.emb (ix1 q)) = _
  refine congrArg _ (funext fun x => Fin.ext ?_)
  match x with
  | ⟨0, _⟩ => show win1_7.index t (0 : Fin 1) * 128 + 1 * q.val = q.val; omega

/-- … and the whole vector of running variances. -/
theorem var_whole (c : Dev nD) (t : Fin cfg1.N) (q : Fin 128) :
    (iblk1 V c 8 t : Vec Ideal S128 .f32) (ix1 q) = (V c (Pipeline.arrRef spec1 8) : S128.Idx → EReal) (ix1 q) := by
  obtain ⟨-, -, -, -, -, -, -, -, -, -, -, -, e, -⟩ := block_index t
  show (V c (Pipeline.arrRef spec1 8) : S128.Idx → EReal) (((cfg1.win 8).blk t).view.emb (ix1 q)) = _
  refine congrArg _ (funext fun x => Fin.ext ?_)
  match x with
  | ⟨0, _⟩ => show win1_8.index t (0 : Fin 1) * 128 + 1 * q.val = q.val; omega

/-! ## From the 25 row blocks to the array -/

/-- The layer's output array: the hidden-layer formula of the nine arrays as the layer finds them, entry by entry. -/
def layer (c : Dev nD) : S50000x128.Idx → EReal := fun i =>
  denseAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (i 0) (i 1)

/-- What step `t` writes back is row block `t` of the layer's output. -/
theorem block_eq (c : Dev nD) (t : Fin cfg1.N) :
    (dat1 (F := Ideal) V c).flushed 9 t = ((cfg1.win 9).blk t).view.read (Elt Ideal) (layer V c) := by
  show (cfg1.win 9).cut (grid1.coords t) ((dat1 (F := Ideal) V c).after 9 t) = _
  rw [after1_9]
  unfold out1_9
  rw [View.canon_unit_zero zero_offsets₂]
  simp only [View.ld_unit_zero (S := S2000x128) zero_offsets₂, View.ld_unit_zero (S := S128x128) zero_offsets₂,
    View.ld_unit_zero (S := S128) zero_offsets₁]
  funext j
  have hj0 : (j 0).val < 2000 := (j 0).isLt
  have hj1 : (j 1).val < 128 := (j 1).isLt
  have ht : t.val < 25 := lt_of_lt_of_eq t.isLt N_1
  obtain ⟨-, -, -, -, -, -, -, -, -, -, -, -, -, e, e'⟩ := block_index t
  have hp : t.val * 2000 + (j 0).val < 50000 := by omega
  have hx : (cfg1.win 9).xinj (grid1.coords t) j = ix2 (⟨(j 0).val, hj0⟩ : Fin 2000) (⟨(j 1).val, hj1⟩ : Fin 128) :=
    funext fun x => by match x with | ⟨0, _⟩ => rfl | ⟨1, _⟩ => rfl
  have hy : ((cfg1.win 9).blk t).view.emb j = ix2 (⟨t.val * 2000 + (j 0).val, hp⟩ : Fin 50000) (⟨(j 1).val, hj1⟩ : Fin 128) :=
    funext fun x => Fin.ext (by
      match x with
      | ⟨0, _⟩ => show win1_9.index t (0 : Fin 2) * 2000 + 1 * (j 0).val = t.val * 2000 + (j 0).val; omega
      | ⟨1, _⟩ => show win1_9.index t (1 : Fin 2) * 128 + 1 * (j 1).val = (j 1).val; omega)
  show k1_pay1 (F := Ideal) (k1_pay2 (F := Ideal) (iblk1 V c 0 t) (iblk1 V c 1 t) (iblk1 V c 2 t) (iblk1 V c 3 t) (iblk1 V c 4 t) (iblk1 V c 5 t) (iblk1 V c 8 t) (iblk1 V c 7 t) (iblk1 V c 6 t)) (k1_pay3 (F := Ideal)) ((cfg1.win 9).xinj (grid1.coords t) j)
      = layer V c (((cfg1.win 9).blk t).view.emb j)
  rw [hx, hy]
  refine (body_at (iblk1 V c 0 t) (iblk1 V c 1 t) (iblk1 V c 2 t) (iblk1 V c 3 t) (iblk1 V c 4 t) (iblk1 V c 5 t)
    (iblk1 V c 8 t) (iblk1 V c 7 t) (iblk1 V c 6 t) ⟨(j 0).val, hj0⟩ ⟨(j 1).val, hj1⟩).trans ?_
  show _ = denseAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))
    (⟨t.val * 2000 + (j 0).val, hp⟩ : Fin 50000) (⟨(j 1).val, hj1⟩ : Fin 128)
  unfold denseAt
  simp only [agg_rows V c t ⟨(j 0).val, hj0⟩ ⟨t.val * 2000 + (j 0).val, hp⟩ rfl, node_rows V c t ⟨(j 0).val, hj0⟩ ⟨t.val * 2000 + (j 0).val, hp⟩ rfl,
    wl_whole V c t, wr_whole V c t, bias_whole V c t, scale_whole V c t, shift_whole V c t, mean_whole V c t, var_whole V c t]

/-- An entry of the array is in step `t`'s output block iff its row is in row block `t` (and its channel in range). -/
theorem mem_block (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v66).slice (win1_9.rect t)).set ↔ _
  rw [View.set_slice_whole, Rect.mem_set_unit]
  exact Iff.rfl

/-- Row `p` is written by step `p / 2000`: the 25 row blocks fill the array. -/
theorem covered (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have ht : (i 0).val / 2000 < cfg1.N := lt_of_lt_of_eq (show (i 0).val / 2000 < 25 by omega) N_1.symm
  obtain ⟨-, -, -, -, -, -, -, -, -, -, -, -, -, e, e'⟩ := block_index ⟨(i 0).val / 2000, ht⟩
  have e₀ : win1_9.index ⟨(i 0).val / 2000, ht⟩ (0 : Fin 2) = (i 0).val / 2000 := e
  refine ⟨⟨(i 0).val / 2000, ht⟩, flush1_9 _, ?_⟩
  rw [mem_block]
  intro a
  match a with
  | ⟨0, _⟩ =>
    show win1_9.index ⟨(i 0).val / 2000, ht⟩ (0 : Fin 2) * 2000 ≤ (i 0).val
      ∧ (i 0).val < win1_9.index ⟨(i 0).val / 2000, ht⟩ (0 : Fin 2) * 2000 + 2000
    omega
  | ⟨1, _⟩ =>
    show win1_9.index ⟨(i 0).val / 2000, ht⟩ (1 : Fin 2) * 128 ≤ (i 1).val
      ∧ (i 1).val < win1_9.index ⟨(i 0).val / 2000, ht⟩ (1 : Fin 2) * 128 + 128
    omega

/-- After its 25 steps the layer's output array is the hidden-layer formula everywhere. -/
theorem whole (c : Dev nD) : (dat1 (F := Ideal) V c).arrAt 9 cfg1.N = layer V c :=
  (dat1 (F := Ideal) V c).arrAt_eq_of_cover 9 (layer V c) (fun t _ => block_eq V c t) covered

/-- THE LAYER, ENTRY BY ENTRY: after the region the output array holds, at node `p` and channel `q`, the hidden-layer
    formula of the nine input arrays as the region found them. -/
theorem closed (c : Dev nD) (p : Fin 50000) (q : Fin 128) :
    (dat1 (F := Ideal) V c).arrAt 9 cfg1.N (ix2 p q)
      = denseAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) p q :=
  congrFun (whole V c) (ix2 p q)

end Cert.Sage.Region1

end
-- ==== Proof.KLayer1.lean ====
import proofs.«157926_j75625784148632_1_alg».proof.Proof.KKeep
import proofs.«157926_j75625784148632_1_alg».proof.Proof.Region1
import proofs.«157926_j75625784148632_1_alg».proof.Proof.RefLayers
import proofs.«157926_j75625784148632_1_alg».proof.Proof.SpecCongr

/-!
Hidden layer 1 of the kernel against the reference's layer 1.

The region's nine input arrays, as the region finds them, are the reference's own stages: the mean aggregate of the previous
features over each node's in-edges, the previous features themselves, and this layer's slices of the weights, the bias, the
scale, the shift and the running statistics. The region's output array is then the reference's layer output, index by index:
both are the one function `Cert.Sage.denseAt` of those nine arrays.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The aggregate: gather at the sources, scatter-add at the destinations, times the inverse in-degree. -/
theorem win1_0 (hh : W2 m ρ c (Proc.devRef .tc main_v39) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V3 m ρ c (Pipeline.arrRef spec1 0) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  show StableHlo.after hostOps1 (W2 m ρ c) (Proc.devRef .tc main_v51) = _
  after_results_simp
  rw [at2_main_v1 m ρ c, at2_main_v3 m ρ c, at2_main_v12 m ρ c, hh]
  rfl

/-- The previous features. -/
theorem win1_1 (hh : W2 m ρ c (Proc.devRef .tc main_v39) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V3 m ρ c (Pipeline.arrRef spec1 1) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  (by kept_host hostOps1 : StableHlo.after hostOps1 (W2 m ρ c) (Proc.devRef .tc main_v39) = W2 m ρ c (Proc.devRef .tc main_v39)).trans hh

/-- The neighbours' weight matrix: this layer's slice of the argument. -/
theorem win1_2 : V3 m ρ c (Pipeline.arrRef spec1 2) = val_main_v60 (F := Ideal) (m ((c.tc : Thread nD τ).loc main_arg1)) := by
  show StableHlo.after hostOps1 (W2 m ρ c) (Proc.devRef .tc main_v53) = _
  after_results_simp
  rw [at2_main_arg1 m ρ c]
  rfl

/-- The node's own weight matrix: this layer's slice of the argument. -/
theorem win1_3 : V3 m ρ c (Pipeline.arrRef spec1 3) = val_main_v62 (F := Ideal) (m ((c.tc : Thread nD τ).loc main_arg2)) := by
  show StableHlo.after hostOps1 (W2 m ρ c) (Proc.devRef .tc main_v55) = _
  after_results_simp
  rw [at2_main_arg2 m ρ c]
  rfl

/-- The bias: this layer's slice of the argument. -/
theorem win1_4 : V3 m ρ c (Pipeline.arrRef spec1 4) = val_main_v64 (F := Ideal) (m ((c.tc : Thread nD τ).loc main_arg3)) := by
  show StableHlo.after hostOps1 (W2 m ρ c) (Proc.devRef .tc main_v57) = _
  after_results_simp
  rw [at2_main_arg3 m ρ c]
  rfl

/-- The scale: this layer's slice of the argument. -/
theorem win1_5 : V3 m ρ c (Pipeline.arrRef spec1 5) = val_main_v89 (F := Ideal) (m ((c.tc : Thread nD τ).loc main_arg4)) := by
  show StableHlo.after hostOps1 (W2 m ρ c) (Proc.devRef .tc main_v59) = _
  after_results_simp
  rw [at2_main_arg4 m ρ c]
  rfl

/-- The shift: this layer's slice of the argument. -/
theorem win1_6 : V3 m ρ c (Pipeline.arrRef spec1 6) = val_main_v100 (F := Ideal) (m ((c.tc : Thread nD τ).loc main_arg5)) := by
  show StableHlo.after hostOps1 (W2 m ρ c) (Proc.devRef .tc main_v61) = _
  after_results_simp
  rw [at2_main_arg5 m ρ c]
  rfl

/-- The running mean: this layer's slice of the argument. -/
theorem win1_7 : V3 m ρ c (Pipeline.arrRef spec1 7) = val_main_v84 (F := Ideal) (m ((c.tc : Thread nD τ).loc main_arg6)) := by
  show StableHlo.after hostOps1 (W2 m ρ c) (Proc.devRef .tc main_v63) = _
  after_results_simp
  rw [at2_main_arg6 m ρ c]
  rfl

/-- The running variance: this layer's slice of the argument. -/
theorem win1_8 : V3 m ρ c (Pipeline.arrRef spec1 8) = val_main_v91 (F := Ideal) (m ((c.tc : Thread nD τ).loc main_arg7)) := by
  show StableHlo.after hostOps1 (W2 m ρ c) (Proc.devRef .tc main_v65) = _
  after_results_simp
  rw [at2_main_arg7 m ρ c]
  rfl

/-- The layer's output array is the reference's. -/
theorem stage1 (hh : W2 m ρ c (Proc.devRef .tc main_v39) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    W4 m ρ c (Proc.devRef .tc main_v66) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  refine (W4_arr m ρ c 9).trans ?_
  funext i
  obtain ⟨p, q, rfl⟩ : ∃ (p : Fin 50000) (q : Fin 128), i = ValueIdx.ix2 p q := ⟨i 0, i 1, ValueIdx.eq_ix2 (n0 := 50000) (n1 := 128) i⟩
  exact (Cert.Sage.Region1.closed (V3 m ρ) c p q).trans
    ((Cert.Sage.denseAt_congr (win1_0 m ρ c hh) (win1_1 m ρ c hh) (win1_2 m ρ c) (win1_3 m ρ c) (win1_4 m ρ c) (win1_5 m ρ c) (win1_6 m ρ c) (win1_7 m ρ c) (win1_8 m ρ c) p q).trans
      (Cert.Sage.RefLayers.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) p q).symm)

end Cert.Sage.KChain

end
-- ==== Proof.Region2.lean ====
import proofs.«157926_j75625784148632_1_alg».proof.Proof.Gen.KernelIdeal.Frame
import proofs.«157926_j75625784148632_1_alg».proof.Proof.Spec
import proofs.«157926_j75625784148632_1_alg».proof.Proof.Dense
import Idealize.ShloMosaic.Lib.Pipeline.Value
import Idealize.ShloMosaic.Lib.ValueIdx
import Idealize.ShloMosaic.Lib.ValueLayout

/-!
The third hidden layer, as one array.

The layer is computed 2000 rows at a time: step `t` (of 25) reads rows `2000 t … 2000 t + 1999` of the aggregated
neighbour features and of the node features, the two whole 128 × 128 weight matrices and the five whole per-channel
vectors, and writes rows `2000 t … 2000 t + 1999` of the output. An output entry `(p, q)` depends on row `p` of the two
feature arrays only, so the 25 row blocks written one after another are the restriction to each block of ONE function of
the nine arrays as the layer finds them — the hidden-layer formula — and together they fill the whole 50000 × 128 array.
-/

noncomputable section

namespace Cert.Sage.Region2

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## One step's arithmetic at an entry of its block -/

/-- At row `r`, channel `q` of a block: the two products of row `r` with column `q` of the weights added, the bias added,
    the running mean taken off, the result scaled by `γ · (variance + ε)^(-1/2)`, shifted by `β`, and cut below at zero. -/
theorem body_at (a h : Vec Ideal S2000x128 .f32) (wl wr : Vec Ideal S128x128 .f32) (b g rv rm be : Vec Ideal S128 .f32)
    (r : Fin 2000) (q : Fin 128) :
    k2_pay1 (F := Ideal) (k2_pay2 (F := Ideal) a h wl wr b g rv rm be) (k2_pay3 (F := Ideal)) (ix2 r q)
      = max ((((∑ k : Fin 128, a (ix2 r k) * wl (ix2 k q)) + (∑ k : Fin 128, h (ix2 r k) * wr (ix2 k q))) + b (ix1 q) - rm (ix1 q))
            * (g (ix1 q) * Ideal.rsqrt (rv (ix1 q) + Ideal.ofBits .f32 0x3727C5AC#32)) + be (ix1 q))
          (Ideal.ofBits .f32 0x00000000#32) := by
  unfold k2_pay1 k2_pay2 k2_pay3
  simp only [maximumf_apply, addf_apply, subf_apply, mulf_apply, broadcast_apply, truncf_apply, shapeCast_self,
    Dense.contract_at, Dense.row_at]
  rfl

/-! ## Where each step's blocks sit in their arrays -/

/-- Step `t`'s block of the two feature arrays and of the output is row block `t`; every other window is its whole array. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0
    ∧ win2_7.index t (0 : Fin 1) = 0 ∧ win2_8.index t (0 : Fin 1) = 0
    ∧ win2_9.index t (0 : Fin 2) = t.val ∧ win2_9.index t (1 : Fin 2) = 0 :=
  (by decide +kernel : ∀ t : Fin grid2.N, _)

/-- Row `r` of step `t`'s block of the aggregated features is row `2000 t + r` of the array. -/
theorem agg_rows (c : Dev nD) (t : Fin cfg2.N) (r : Fin 2000) (p : Fin 50000) (hp : p.val = t.val * 2000 + r.val) (k : Fin 128) :
    (iblk2 V c 0 t : Vec Ideal S2000x128 .f32) (ix2 r k) = (V c (Pipeline.arrRef spec2 0) : S50000x128.Idx → EReal) (ix2 p k) := by
  obtain ⟨e, e', -⟩ := block_index t
  show (V c (Pipeline.arrRef spec2 0) : S50000x128.Idx → EReal) (((cfg2.win 0).blk t).view.emb (ix2 r k)) = _
  refine congrArg _ (funext fun x => Fin.ext ?_)
  match x with
  | ⟨0, _⟩ => show win2_0.index t (0 : Fin 2) * 2000 + 1 * r.val = p.val; omega
  | ⟨1, _⟩ => show win2_0.index t (1 : Fin 2) * 128 + 1 * k.val = k.val; omega

/-- Row `r` of step `t`'s block of the node features is row `2000 t + r` of the array. -/
theorem node_rows (c : Dev nD) (t : Fin cfg2.N) (r : Fin 2000) (p : Fin 50000) (hp : p.val = t.val * 2000 + r.val) (k : Fin 128) :
    (iblk2 V c 1 t : Vec Ideal S2000x128 .f32) (ix2 r k) = (V c (Pipeline.arrRef spec2 1) : S50000x128.Idx → EReal) (ix2 p k) := by
  obtain ⟨-, -, e, e', -⟩ := block_index t
  show (V c (Pipeline.arrRef spec2 1) : S50000x128.Idx → EReal) (((cfg2.win 1).blk t).view.emb (ix2 r k)) = _
  refine congrArg _ (funext fun x => Fin.ext ?_)
  match x with
  | ⟨0, _⟩ => show win2_1.index t (0 : Fin 2) * 2000 + 1 * r.val = p.val; omega
  | ⟨1, _⟩ => show win2_1.index t (1 : Fin 2) * 128 + 1 * k.val = k.val; omega

/-- Every step sees the whole weight matrix of the aggregated features. -/
theorem wl_whole (c : Dev nD) (t : Fin cfg2.N) (k q : Fin 128) :
    (iblk2 V c 2 t : Vec Ideal S128x128 .f32) (ix2 k q) = (V c (Pipeline.arrRef spec2 2) : S128x128.Idx → EReal) (ix2 k q) := by
  obtain ⟨-, -, -, -, e, e', -⟩ := block_index t
  show (V c (Pipeline.arrRef spec2 2) : S128x128.Idx → EReal) (((cfg2.win 2).blk t).view.emb (ix2 k q)) = _
  refine congrArg _ (funext fun x => Fin.ext ?_)
  match x with
  | ⟨0, _⟩ => show win2_2.index t (0 : Fin 2) * 128 + 1 * k.val = k.val; omega
  | ⟨1, _⟩ => show win2_2.index t (1 : Fin 2) * 128 + 1 * q.val = q.val; omega

/-- Every step sees the whole weight matrix of the node features. -/
theorem wr_whole (c : Dev nD) (t : Fin cfg2.N) (k q : Fin 128) :
    (iblk2 V c 3 t : Vec Ideal S128x128 .f32) (ix2 k q) = (V c (Pipeline.arrRef spec2 3) : S128x128.Idx → EReal) (ix2 k q) := by
  obtain ⟨-, -, -, -, -, -, e, e', -⟩ := block_index t
  show (V c (Pipeline.arrRef spec2 3) : S128x128.Idx → EReal) (((cfg2.win 3).blk t).view.emb (ix2 k q)) = _
  refine congrArg _ (funext fun x => Fin.ext ?_)
  match x with
  | ⟨0, _⟩ => show win2_3.index t (0 : Fin 2) * 128 + 1 * k.val = k.val; omega
  | ⟨1, _⟩ => show win2_3.index t (1 : Fin 2) * 128 + 1 * q.val = q.val; omega

/-- Every step sees the whole bias vector … -/
theorem bias_whole (c : Dev nD) (t : Fin cfg2.N) (q : Fin 128) :
    (iblk2 V c 4 t : Vec Ideal S128 .f32) (ix1 q) = (V c (Pipeline.arrRef spec2 4) : S128.Idx → EReal) (ix1 q) := by
  obtain ⟨-, -, -, -, -, -, -, -, e, -⟩ := block_index t
  show (V c (Pipeline.arrRef spec2 4) : S128.Idx → EReal) (((cfg2.win 4).blk t).view.emb (ix1 q)) = _
  refine congrArg _ (funext fun x => Fin.ext ?_)
  match x with
  | ⟨0, _⟩ => show win2_4.index t (0 : Fin 1) * 128 + 1 * q.val = q.val; omega

/-- … the whole scale vector … -/
theorem scale_whole (c : Dev nD) (t : Fin cfg2.N) (q : Fin 128) :
    (iblk2 V c 5 t : Vec Ideal S128 .f32) (ix1 q) = (V c (Pipeline.arrRef spec2 5) : S128.Idx → EReal) (ix1 q) := by
  obtain ⟨-, -, -, -, -, -, -, -, -, e, -⟩ := block_index t
  show (V c (Pipeline.arrRef spec2 5) : S128.Idx → EReal) (((cfg2.win 5).blk t).view.emb (ix1 q)) = _
  refine congrArg _ (funext fun x => Fin.ext ?_)
  match x with
  | ⟨0, _⟩ => show win2_5.index t (0 : Fin 1) * 128 + 1 * q.val = q.val; omega

/-- … the whole shift vector … -/
theorem shift_whole (c : Dev nD) (t : Fin cfg2.N) (q : Fin 128) :
    (iblk2 V c 6 t : Vec Ideal S128 .f32) (ix1 q) = (V c (Pipeline.arrRef spec2 6) : S128.Idx → EReal) (ix1 q) := by
  obtain ⟨-, -, -, -, -, -, -, -, -, -, e, -⟩ := block_index t
  show (V c (Pipeline.arrRef spec2 6) : S128.Idx → EReal) (((cfg2.win 6).blk t).view.emb (ix1 q)) = _
  refine congrArg _ (funext fun x => Fin.ext ?_)
  match x with
  | ⟨0, _⟩ => show win2_6.index t (0 : Fin 1) * 128 + 1 * q.val = q.val; omega

/-- … the whole vector of running means … -/
theorem mean_whole (c : Dev nD) (t : Fin cfg2.N) (q : Fin 128) :
    (iblk2 V c 7 t : Vec Ideal S128 .f32) (ix1 q) = (V c (Pipeline.arrRef spec2 7) : S128.Idx → EReal) (ix1 q) := by
  obtain ⟨-, -, -, -, -, -, -, -, -, -, -, e, -⟩ := block_index t
  show (V c (Pipeline.arrRef spec2 7) : S128.Idx → EReal) (((cfg2.win 7).blk t).view.emb (ix1 q)) = _
  refine congrArg _ (funext fun x => Fin.ext ?_)
  match x with
  | ⟨0, _⟩ => show win2_7.index t (0 : Fin 1) * 128 + 1 * q.val = q.val; omega

/-- … and the whole vector of running variances. -/
theorem var_whole (c : Dev nD) (t : Fin cfg2.N) (q : Fin 128) :
    (iblk2 V c 8 t : Vec Ideal S128 .f32) (ix1 q) = (V c (Pipeline.arrRef spec2 8) : S128.Idx → EReal) (ix1 q) := by
  obtain ⟨-, -, -, -, -, -, -, -, -, -, -, -, e, -⟩ := block_index t
  show (V c (Pipeline.arrRef spec2 8) : S128.Idx → EReal) (((cfg2.win 8).blk t).view.emb (ix1 q)) = _
  refine congrArg _ (funext fun x => Fin.ext ?_)
  match x with
  | ⟨0, _⟩ => show win2_8.index t (0 : Fin 1) * 128 + 1 * q.val = q.val; omega

/-! ## From the 25 row blocks to the array -/

/-- The layer's output array: the hidden-layer formula of the nine arrays as the layer finds them, entry by entry. -/
def layer (c : Dev nD) : S50000x128.Idx → EReal := fun i =>
  denseAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (i 0) (i 1)

/-- What step `t` writes back is row block `t` of the layer's output. -/
theorem block_eq (c : Dev nD) (t : Fin cfg2.N) :
    (dat2 (F := Ideal) V c).flushed 9 t = ((cfg2.win 9).blk t).view.read (Elt Ideal) (layer V c) := by
  show (cfg2.win 9).cut (grid2.coords t) ((dat2 (F := Ideal) V c).after 9 t) = _
  rw [after2_9]
  unfold out2_9
  rw [View.canon_unit_zero zero_offsets₂]
  simp only [View.ld_unit_zero (S := S2000x128) zero_offsets₂, View.ld_unit_zero (S := S128x128) zero_offsets₂,
    View.ld_unit_zero (S := S128) zero_offsets₁]
  funext j
  have hj0 : (j 0).val < 2000 := (j 0).isLt
  have hj1 : (j 1).val < 128 := (j 1).isLt
  have ht : t.val < 25 := lt_of_lt_of_eq t.isLt N_2
  obtain ⟨-, -, -, -, -, -, -, -, -, -, -, -, -, e, e'⟩ := block_index t
  have hp : t.val * 2000 + (j 0).val < 50000 := by omega
  have hx : (cfg2.win 9).xinj (grid2.coords t) j = ix2 (⟨(j 0).val, hj0⟩ : Fin 2000) (⟨(j 1).val, hj1⟩ : Fin 128) :=
    funext fun x => by match x with | ⟨0, _⟩ => rfl | ⟨1, _⟩ => rfl
  have hy : ((cfg2.win 9).blk t).view.emb j = ix2 (⟨t.val * 2000 + (j 0).val, hp⟩ : Fin 50000) (⟨(j 1).val, hj1⟩ : Fin 128) :=
    funext fun x => Fin.ext (by
      match x with
      | ⟨0, _⟩ => show win2_9.index t (0 : Fin 2) * 2000 + 1 * (j 0).val = t.val * 2000 + (j 0).val; omega
      | ⟨1, _⟩ => show win2_9.index t (1 : Fin 2) * 128 + 1 * (j 1).val = (j 1).val; omega)
  show k2_pay1 (F := Ideal) (k2_pay2 (F := Ideal) (iblk2 V c 0 t) (iblk2 V c 1 t) (iblk2 V c 2 t) (iblk2 V c 3 t) (iblk2 V c 4 t) (iblk2 V c 5 t) (iblk2 V c 8 t) (iblk2 V c 7 t) (iblk2 V c 6 t)) (k2_pay3 (F := Ideal)) ((cfg2.win 9).xinj (grid2.coords t) j)
      = layer V c (((cfg2.win 9).blk t).view.emb j)
  rw [hx, hy]
  refine (body_at (iblk2 V c 0 t) (iblk2 V c 1 t) (iblk2 V c 2 t) (iblk2 V c 3 t) (iblk2 V c 4 t) (iblk2 V c 5 t)
    (iblk2 V c 8 t) (iblk2 V c 7 t) (iblk2 V c 6 t) ⟨(j 0).val, hj0⟩ ⟨(j 1).val, hj1⟩).trans ?_
  show _ = denseAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))
    (⟨t.val * 2000 + (j 0).val, hp⟩ : Fin 50000) (⟨(j 1).val, hj1⟩ : Fin 128)
  unfold denseAt
  simp only [agg_rows V c t ⟨(j 0).val, hj0⟩ ⟨t.val * 2000 + (j 0).val, hp⟩ rfl, node_rows V c t ⟨(j 0).val, hj0⟩ ⟨t.val * 2000 + (j 0).val, hp⟩ rfl,
    wl_whole V c t, wr_whole V c t, bias_whole V c t, scale_whole V c t, shift_whole V c t, mean_whole V c t, var_whole V c t]

/-- An entry of the array is in step `t`'s output block iff its row is in row block `t` (and its channel in range). -/
theorem mem_block (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v93).slice (win2_9.rect t)).set ↔ _
  rw [View.set_slice_whole, Rect.mem_set_unit]
  exact Iff.rfl

/-- Row `p` is written by step `p / 2000`: the 25 row blocks fill the array. -/
theorem covered (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have ht : (i 0).val / 2000 < cfg2.N := lt_of_lt_of_eq (show (i 0).val / 2000 < 25 by omega) N_2.symm
  obtain ⟨-, -, -, -, -, -, -, -, -, -, -, -, -, e, e'⟩ := block_index ⟨(i 0).val / 2000, ht⟩
  have e₀ : win2_9.index ⟨(i 0).val / 2000, ht⟩ (0 : Fin 2) = (i 0).val / 2000 := e
  refine ⟨⟨(i 0).val / 2000, ht⟩, flush2_9 _, ?_⟩
  rw [mem_block]
  intro a
  match a with
  | ⟨0, _⟩ =>
    show win2_9.index ⟨(i 0).val / 2000, ht⟩ (0 : Fin 2) * 2000 ≤ (i 0).val
      ∧ (i 0).val < win2_9.index ⟨(i 0).val / 2000, ht⟩ (0 : Fin 2) * 2000 + 2000
    omega
  | ⟨1, _⟩ =>
    show win2_9.index ⟨(i 0).val / 2000, ht⟩ (1 : Fin 2) * 128 ≤ (i 1).val
      ∧ (i 1).val < win2_9.index ⟨(i 0).val / 2000, ht⟩ (1 : Fin 2) * 128 + 128
    omega

/-- After its 25 steps the layer's output array is the hidden-layer formula everywhere. -/
theorem whole (c : Dev nD) : (dat2 (F := Ideal) V c).arrAt 9 cfg2.N = layer V c :=
  (dat2 (F := Ideal) V c).arrAt_eq_of_cover 9 (layer V c) (fun t _ => block_eq V c t) covered

/-- THE LAYER, ENTRY BY ENTRY: after the region the output array holds, at node `p` and channel `q`, the hidden-layer
    formula of the nine input arrays as the region found them. -/
theorem closed (c : Dev nD) (p : Fin 50000) (q : Fin 128) :
    (dat2 (F := Ideal) V c).arrAt 9 cfg2.N (ix2 p q)
      = denseAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) p q :=
  congrFun (whole V c) (ix2 p q)

end Cert.Sage.Region2

end
-- ==== Proof.KLayer2.lean ====
import proofs.«157926_j75625784148632_1_alg».proof.Proof.KKeep
import proofs.«157926_j75625784148632_1_alg».proof.Proof.Region2
import proofs.«157926_j75625784148632_1_alg».proof.Proof.RefLayers
import proofs.«157926_j75625784148632_1_alg».proof.Proof.SpecCongr

/-!
Hidden layer 2 of the kernel against the reference's layer 2.

The region's nine input arrays, as the region finds them, are the reference's own stages: the mean aggregate of the previous
features over each node's in-edges, the previous features themselves, and this layer's slices of the weights, the bias, the
scale, the shift and the running statistics. The region's output array is then the reference's layer output, index by index:
both are the one function `Cert.Sage.denseAt` of those nine arrays.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The aggregate: gather at the sources, scatter-add at the destinations, times the inverse in-degree. -/
theorem win2_0 (hh : W4 m ρ c (Proc.devRef .tc main_v66) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V5 m ρ c (Pipeline.arrRef spec2 0) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  show StableHlo.after hostOps2 (W4 m ρ c) (Proc.devRef .tc main_v78) = _
  after_results_simp
  rw [at4_main_v1 m ρ c, at4_main_v3 m ρ c, at4_main_v12 m ρ c, hh]
  rfl

/-- The previous features. -/
theorem win2_1 (hh : W4 m ρ c (Proc.devRef .tc main_v66) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V5 m ρ c (Pipeline.arrRef spec2 1) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  (by kept_host hostOps2 : StableHlo.after hostOps2 (W4 m ρ c) (Proc.devRef .tc main_v66) = W4 m ρ c (Proc.devRef .tc main_v66)).trans hh

/-- The neighbours' weight matrix: this layer's slice of the argument. -/
theorem win2_2 : V5 m ρ c (Pipeline.arrRef spec2 2) = val_main_v106 (F := Ideal) (m ((c.tc : Thread nD τ).loc main_arg1)) := by
  show StableHlo.after hostOps2 (W4 m ρ c) (Proc.devRef .tc main_v80) = _
  after_results_simp
  rw [at4_main_arg1 m ρ c]
  rfl

/-- The node's own weight matrix: this layer's slice of the argument. -/
theorem win2_3 : V5 m ρ c (Pipeline.arrRef spec2 3) = val_main_v108 (F := Ideal) (m ((c.tc : Thread nD τ).loc main_arg2)) := by
  show StableHlo.after hostOps2 (W4 m ρ c) (Proc.devRef .tc main_v82) = _
  after_results_simp
  rw [at4_main_arg2 m ρ c]
  rfl

/-- The bias: this layer's slice of the argument. -/
theorem win2_4 : V5 m ρ c (Pipeline.arrRef spec2 4) = val_main_v110 (F := Ideal) (m ((c.tc : Thread nD τ).loc main_arg3)) := by
  show StableHlo.after hostOps2 (W4 m ρ c) (Proc.devRef .tc main_v84) = _
  after_results_simp
  rw [at4_main_arg3 m ρ c]
  rfl

/-- The scale: this layer's slice of the argument. -/
theorem win2_5 : V5 m ρ c (Pipeline.arrRef spec2 5) = val_main_v135 (F := Ideal) (m ((c.tc : Thread nD τ).loc main_arg4)) := by
  show StableHlo.after hostOps2 (W4 m ρ c) (Proc.devRef .tc main_v86) = _
  after_results_simp
  rw [at4_main_arg4 m ρ c]
  rfl

/-- The shift: this layer's slice of the argument. -/
theorem win2_6 : V5 m ρ c (Pipeline.arrRef spec2 6) = val_main_v146 (F := Ideal) (m ((c.tc : Thread nD τ).loc main_arg5)) := by
  show StableHlo.after hostOps2 (W4 m ρ c) (Proc.devRef .tc main_v88) = _
  after_results_simp
  rw [at4_main_arg5 m ρ c]
  rfl

/-- The running mean: this layer's slice of the argument. -/
theorem win2_7 : V5 m ρ c (Pipeline.arrRef spec2 7) = val_main_v130 (F := Ideal) (m ((c.tc : Thread nD τ).loc main_arg6)) := by
  show StableHlo.after hostOps2 (W4 m ρ c) (Proc.devRef .tc main_v90) = _
  after_results_simp
  rw [at4_main_arg6 m ρ c]
  rfl

/-- The running variance: this layer's slice of the argument. -/
theorem win2_8 : V5 m ρ c (Pipeline.arrRef spec2 8) = val_main_v137 (F := Ideal) (m ((c.tc : Thread nD τ).loc main_arg7)) := by
  show StableHlo.after hostOps2 (W4 m ρ c) (Proc.devRef .tc main_v92) = _
  after_results_simp
  rw [at4_main_arg7 m ρ c]
  rfl

/-- The layer's output array is the reference's. -/
theorem stage2 (hh : W4 m ρ c (Proc.devRef .tc main_v66) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    W6 m ρ c (Proc.devRef .tc main_v93) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  refine (W6_arr m ρ c 9).trans ?_
  funext i
  obtain ⟨p, q, rfl⟩ : ∃ (p : Fin 50000) (q : Fin 128), i = ValueIdx.ix2 p q := ⟨i 0, i 1, ValueIdx.eq_ix2 (n0 := 50000) (n1 := 128) i⟩
  exact (Cert.Sage.Region2.closed (V5 m ρ) c p q).trans
    ((Cert.Sage.denseAt_congr (win2_0 m ρ c hh) (win2_1 m ρ c hh) (win2_2 m ρ c) (win2_3 m ρ c) (win2_4 m ρ c) (win2_5 m ρ c) (win2_6 m ρ c) (win2_7 m ρ c) (win2_8 m ρ c) p q).trans
      (Cert.Sage.RefLayers.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) p q).symm)

end Cert.Sage.KChain

end
-- ==== Proof.Region3.lean ====
import proofs.«157926_j75625784148632_1_alg».proof.Proof.Gen.KernelIdeal.Frame
import proofs.«157926_j75625784148632_1_alg».proof.Proof.Spec
import proofs.«157926_j75625784148632_1_alg».proof.Proof.Dense
import Idealize.ShloMosaic.Lib.Pipeline.Value
import Idealize.ShloMosaic.Lib.ValueIdx
import Idealize.ShloMosaic.Lib.ValueLayout

/-!
The fourth hidden layer, as one array.

The layer is computed 2000 rows at a time: step `t` (of 25) reads rows `2000 t … 2000 t + 1999` of the aggregated
neighbour features and of the node features, the two whole 128 × 128 weight matrices and the five whole per-channel
vectors, and writes rows `2000 t … 2000 t + 1999` of the output. An output entry `(p, q)` depends on row `p` of the two
feature arrays only, so the 25 row blocks written one after another are the restriction to each block of ONE function of
the nine arrays as the layer finds them — the hidden-layer formula — and together they fill the whole 50000 × 128 array.
-/

noncomputable section

namespace Cert.Sage.Region3

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## One step's arithmetic at an entry of its block -/

/-- At row `r`, channel `q` of a block: the two products of row `r` with column `q` of the weights added, the bias added,
    the running mean taken off, the result scaled by `γ · (variance + ε)^(-1/2)`, shifted by `β`, and cut below at zero. -/
theorem body_at (a h : Vec Ideal S2000x128 .f32) (wl wr : Vec Ideal S128x128 .f32) (b g rv rm be : Vec Ideal S128 .f32)
    (r : Fin 2000) (q : Fin 128) :
    k3_pay1 (F := Ideal) (k3_pay2 (F := Ideal) a h wl wr b g rv rm be) (k3_pay3 (F := Ideal)) (ix2 r q)
      = max ((((∑ k : Fin 128, a (ix2 r k) * wl (ix2 k q)) + (∑ k : Fin 128, h (ix2 r k) * wr (ix2 k q))) + b (ix1 q) - rm (ix1 q))
            * (g (ix1 q) * Ideal.rsqrt (rv (ix1 q) + Ideal.ofBits .f32 0x3727C5AC#32)) + be (ix1 q))
          (Ideal.ofBits .f32 0x00000000#32) := by
  unfold k3_pay1 k3_pay2 k3_pay3
  simp only [maximumf_apply, addf_apply, subf_apply, mulf_apply, broadcast_apply, truncf_apply, shapeCast_self,
    Dense.contract_at, Dense.row_at]
  rfl

/-! ## Where each step's blocks sit in their arrays -/

/-- Step `t`'s block of the two feature arrays and of the output is row block `t`; every other window is its whole array. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 ∧ win3_5.index t (0 : Fin 1) = 0 ∧ win3_6.index t (0 : Fin 1) = 0
    ∧ win3_7.index t (0 : Fin 1) = 0 ∧ win3_8.index t (0 : Fin 1) = 0
    ∧ win3_9.index t (0 : Fin 2) = t.val ∧ win3_9.index t (1 : Fin 2) = 0 :=
  (by decide +kernel : ∀ t : Fin grid3.N, _)

/-- Row `r` of step `t`'s block of the aggregated features is row `2000 t + r` of the array. -/
theorem agg_rows (c : Dev nD) (t : Fin cfg3.N) (r : Fin 2000) (p : Fin 50000) (hp : p.val = t.val * 2000 + r.val) (k : Fin 128) :
    (iblk3 V c 0 t : Vec Ideal S2000x128 .f32) (ix2 r k) = (V c (Pipeline.arrRef spec3 0) : S50000x128.Idx → EReal) (ix2 p k) := by
  obtain ⟨e, e', -⟩ := block_index t
  show (V c (Pipeline.arrRef spec3 0) : S50000x128.Idx → EReal) (((cfg3.win 0).blk t).view.emb (ix2 r k)) = _
  refine congrArg _ (funext fun x => Fin.ext ?_)
  match x with
  | ⟨0, _⟩ => show win3_0.index t (0 : Fin 2) * 2000 + 1 * r.val = p.val; omega
  | ⟨1, _⟩ => show win3_0.index t (1 : Fin 2) * 128 + 1 * k.val = k.val; omega

/-- Row `r` of step `t`'s block of the node features is row `2000 t + r` of the array. -/
theorem node_rows (c : Dev nD) (t : Fin cfg3.N) (r : Fin 2000) (p : Fin 50000) (hp : p.val = t.val * 2000 + r.val) (k : Fin 128) :
    (iblk3 V c 1 t : Vec Ideal S2000x128 .f32) (ix2 r k) = (V c (Pipeline.arrRef spec3 1) : S50000x128.Idx → EReal) (ix2 p k) := by
  obtain ⟨-, -, e, e', -⟩ := block_index t
  show (V c (Pipeline.arrRef spec3 1) : S50000x128.Idx → EReal) (((cfg3.win 1).blk t).view.emb (ix2 r k)) = _
  refine congrArg _ (funext fun x => Fin.ext ?_)
  match x with
  | ⟨0, _⟩ => show win3_1.index t (0 : Fin 2) * 2000 + 1 * r.val = p.val; omega
  | ⟨1, _⟩ => show win3_1.index t (1 : Fin 2) * 128 + 1 * k.val = k.val; omega

/-- Every step sees the whole weight matrix of the aggregated features. -/
theorem wl_whole (c : Dev nD) (t : Fin cfg3.N) (k q : Fin 128) :
    (iblk3 V c 2 t : Vec Ideal S128x128 .f32) (ix2 k q) = (V c (Pipeline.arrRef spec3 2) : S128x128.Idx → EReal) (ix2 k q) := by
  obtain ⟨-, -, -, -, e, e', -⟩ := block_index t
  show (V c (Pipeline.arrRef spec3 2) : S128x128.Idx → EReal) (((cfg3.win 2).blk t).view.emb (ix2 k q)) = _
  refine congrArg _ (funext fun x => Fin.ext ?_)
  match x with
  | ⟨0, _⟩ => show win3_2.index t (0 : Fin 2) * 128 + 1 * k.val = k.val; omega
  | ⟨1, _⟩ => show win3_2.index t (1 : Fin 2) * 128 + 1 * q.val = q.val; omega

/-- Every step sees the whole weight matrix of the node features. -/
theorem wr_whole (c : Dev nD) (t : Fin cfg3.N) (k q : Fin 128) :
    (iblk3 V c 3 t : Vec Ideal S128x128 .f32) (ix2 k q) = (V c (Pipeline.arrRef spec3 3) : S128x128.Idx → EReal) (ix2 k q) := by
  obtain ⟨-, -, -, -, -, -, e, e', -⟩ := block_index t
  show (V c (Pipeline.arrRef spec3 3) : S128x128.Idx → EReal) (((cfg3.win 3).blk t).view.emb (ix2 k q)) = _
  refine congrArg _ (funext fun x => Fin.ext ?_)
  match x with
  | ⟨0, _⟩ => show win3_3.index t (0 : Fin 2) * 128 + 1 * k.val = k.val; omega
  | ⟨1, _⟩ => show win3_3.index t (1 : Fin 2) * 128 + 1 * q.val = q.val; omega

/-- Every step sees the whole bias vector … -/
theorem bias_whole (c : Dev nD) (t : Fin cfg3.N) (q : Fin 128) :
    (iblk3 V c 4 t : Vec Ideal S128 .f32) (ix1 q) = (V c (Pipeline.arrRef spec3 4) : S128.Idx → EReal) (ix1 q) := by
  obtain ⟨-, -, -, -, -, -, -, -, e, -⟩ := block_index t
  show (V c (Pipeline.arrRef spec3 4) : S128.Idx → EReal) (((cfg3.win 4).blk t).view.emb (ix1 q)) = _
  refine congrArg _ (funext fun x => Fin.ext ?_)
  match x with
  | ⟨0, _⟩ => show win3_4.index t (0 : Fin 1) * 128 + 1 * q.val = q.val; omega

/-- … the whole scale vector … -/
theorem scale_whole (c : Dev nD) (t : Fin cfg3.N) (q : Fin 128) :
    (iblk3 V c 5 t : Vec Ideal S128 .f32) (ix1 q) = (V c (Pipeline.arrRef spec3 5) : S128.Idx → EReal) (ix1 q) := by
  obtain ⟨-, -, -, -, -, -, -, -, -, e, -⟩ := block_index t
  show (V c (Pipeline.arrRef spec3 5) : S128.Idx → EReal) (((cfg3.win 5).blk t).view.emb (ix1 q)) = _
  refine congrArg _ (funext fun x => Fin.ext ?_)
  match x with
  | ⟨0, _⟩ => show win3_5.index t (0 : Fin 1) * 128 + 1 * q.val = q.val; omega

/-- … the whole shift vector … -/
theorem shift_whole (c : Dev nD) (t : Fin cfg3.N) (q : Fin 128) :
    (iblk3 V c 6 t : Vec Ideal S128 .f32) (ix1 q) = (V c (Pipeline.arrRef spec3 6) : S128.Idx → EReal) (ix1 q) := by
  obtain ⟨-, -, -, -, -, -, -, -, -, -, e, -⟩ := block_index t
  show (V c (Pipeline.arrRef spec3 6) : S128.Idx → EReal) (((cfg3.win 6).blk t).view.emb (ix1 q)) = _
  refine congrArg _ (funext fun x => Fin.ext ?_)
  match x with
  | ⟨0, _⟩ => show win3_6.index t (0 : Fin 1) * 128 + 1 * q.val = q.val; omega

/-- … the whole vector of running means … -/
theorem mean_whole (c : Dev nD) (t : Fin cfg3.N) (q : Fin 128) :
    (iblk3 V c 7 t : Vec Ideal S128 .f32) (ix1 q) = (V c (Pipeline.arrRef spec3 7) : S128.Idx → EReal) (ix1 q) := by
  obtain ⟨-, -, -, -, -, -, -, -, -, -, -, e, -⟩ := block_index t
  show (V c (Pipeline.arrRef spec3 7) : S128.Idx → EReal) (((cfg3.win 7).blk t).view.emb (ix1 q)) = _
  refine congrArg _ (funext fun x => Fin.ext ?_)
  match x with
  | ⟨0, _⟩ => show win3_7.index t (0 : Fin 1) * 128 + 1 * q.val = q.val; omega

/-- … and the whole vector of running variances. -/
theorem var_whole (c : Dev nD) (t : Fin cfg3.N) (q : Fin 128) :
    (iblk3 V c 8 t : Vec Ideal S128 .f32) (ix1 q) = (V c (Pipeline.arrRef spec3 8) : S128.Idx → EReal) (ix1 q) := by
  obtain ⟨-, -, -, -, -, -, -, -, -, -, -, -, e, -⟩ := block_index t
  show (V c (Pipeline.arrRef spec3 8) : S128.Idx → EReal) (((cfg3.win 8).blk t).view.emb (ix1 q)) = _
  refine congrArg _ (funext fun x => Fin.ext ?_)
  match x with
  | ⟨0, _⟩ => show win3_8.index t (0 : Fin 1) * 128 + 1 * q.val = q.val; omega

/-! ## From the 25 row blocks to the array -/

/-- The layer's output array: the hidden-layer formula of the nine arrays as the layer finds them, entry by entry. -/
def layer (c : Dev nD) : S50000x128.Idx → EReal := fun i =>
  denseAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (i 0) (i 1)

/-- What step `t` writes back is row block `t` of the layer's output. -/
theorem block_eq (c : Dev nD) (t : Fin cfg3.N) :
    (dat3 (F := Ideal) V c).flushed 9 t = ((cfg3.win 9).blk t).view.read (Elt Ideal) (layer V c) := by
  show (cfg3.win 9).cut (grid3.coords t) ((dat3 (F := Ideal) V c).after 9 t) = _
  rw [after3_9]
  unfold out3_9
  rw [View.canon_unit_zero zero_offsets₂]
  simp only [View.ld_unit_zero (S := S2000x128) zero_offsets₂, View.ld_unit_zero (S := S128x128) zero_offsets₂,
    View.ld_unit_zero (S := S128) zero_offsets₁]
  funext j
  have hj0 : (j 0).val < 2000 := (j 0).isLt
  have hj1 : (j 1).val < 128 := (j 1).isLt
  have ht : t.val < 25 := lt_of_lt_of_eq t.isLt N_3
  obtain ⟨-, -, -, -, -, -, -, -, -, -, -, -, -, e, e'⟩ := block_index t
  have hp : t.val * 2000 + (j 0).val < 50000 := by omega
  have hx : (cfg3.win 9).xinj (grid3.coords t) j = ix2 (⟨(j 0).val, hj0⟩ : Fin 2000) (⟨(j 1).val, hj1⟩ : Fin 128) :=
    funext fun x => by match x with | ⟨0, _⟩ => rfl | ⟨1, _⟩ => rfl
  have hy : ((cfg3.win 9).blk t).view.emb j = ix2 (⟨t.val * 2000 + (j 0).val, hp⟩ : Fin 50000) (⟨(j 1).val, hj1⟩ : Fin 128) :=
    funext fun x => Fin.ext (by
      match x with
      | ⟨0, _⟩ => show win3_9.index t (0 : Fin 2) * 2000 + 1 * (j 0).val = t.val * 2000 + (j 0).val; omega
      | ⟨1, _⟩ => show win3_9.index t (1 : Fin 2) * 128 + 1 * (j 1).val = (j 1).val; omega)
  show k3_pay1 (F := Ideal) (k3_pay2 (F := Ideal) (iblk3 V c 0 t) (iblk3 V c 1 t) (iblk3 V c 2 t) (iblk3 V c 3 t) (iblk3 V c 4 t) (iblk3 V c 5 t) (iblk3 V c 8 t) (iblk3 V c 7 t) (iblk3 V c 6 t)) (k3_pay3 (F := Ideal)) ((cfg3.win 9).xinj (grid3.coords t) j)
      = layer V c (((cfg3.win 9).blk t).view.emb j)
  rw [hx, hy]
  refine (body_at (iblk3 V c 0 t) (iblk3 V c 1 t) (iblk3 V c 2 t) (iblk3 V c 3 t) (iblk3 V c 4 t) (iblk3 V c 5 t)
    (iblk3 V c 8 t) (iblk3 V c 7 t) (iblk3 V c 6 t) ⟨(j 0).val, hj0⟩ ⟨(j 1).val, hj1⟩).trans ?_
  show _ = denseAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))
    (⟨t.val * 2000 + (j 0).val, hp⟩ : Fin 50000) (⟨(j 1).val, hj1⟩ : Fin 128)
  unfold denseAt
  simp only [agg_rows V c t ⟨(j 0).val, hj0⟩ ⟨t.val * 2000 + (j 0).val, hp⟩ rfl, node_rows V c t ⟨(j 0).val, hj0⟩ ⟨t.val * 2000 + (j 0).val, hp⟩ rfl,
    wl_whole V c t, wr_whole V c t, bias_whole V c t, scale_whole V c t, shift_whole V c t, mean_whole V c t, var_whole V c t]

/-- An entry of the array is in step `t`'s output block iff its row is in row block `t` (and its channel in range). -/
theorem mem_block (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v120).slice (win3_9.rect t)).set ↔ _
  rw [View.set_slice_whole, Rect.mem_set_unit]
  exact Iff.rfl

/-- Row `p` is written by step `p / 2000`: the 25 row blocks fill the array. -/
theorem covered (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  have ht : (i 0).val / 2000 < cfg3.N := lt_of_lt_of_eq (show (i 0).val / 2000 < 25 by omega) N_3.symm
  obtain ⟨-, -, -, -, -, -, -, -, -, -, -, -, -, e, e'⟩ := block_index ⟨(i 0).val / 2000, ht⟩
  have e₀ : win3_9.index ⟨(i 0).val / 2000, ht⟩ (0 : Fin 2) = (i 0).val / 2000 := e
  refine ⟨⟨(i 0).val / 2000, ht⟩, flush3_9 _, ?_⟩
  rw [mem_block]
  intro a
  match a with
  | ⟨0, _⟩ =>
    show win3_9.index ⟨(i 0).val / 2000, ht⟩ (0 : Fin 2) * 2000 ≤ (i 0).val
      ∧ (i 0).val < win3_9.index ⟨(i 0).val / 2000, ht⟩ (0 : Fin 2) * 2000 + 2000
    omega
  | ⟨1, _⟩ =>
    show win3_9.index ⟨(i 0).val / 2000, ht⟩ (1 : Fin 2) * 128 ≤ (i 1).val
      ∧ (i 1).val < win3_9.index ⟨(i 0).val / 2000, ht⟩ (1 : Fin 2) * 128 + 128
    omega

/-- After its 25 steps the layer's output array is the hidden-layer formula everywhere. -/
theorem whole (c : Dev nD) : (dat3 (F := Ideal) V c).arrAt 9 cfg3.N = layer V c :=
  (dat3 (F := Ideal) V c).arrAt_eq_of_cover 9 (layer V c) (fun t _ => block_eq V c t) covered

/-- THE LAYER, ENTRY BY ENTRY: after the region the output array holds, at node `p` and channel `q`, the hidden-layer
    formula of the nine input arrays as the region found them. -/
theorem closed (c : Dev nD) (p : Fin 50000) (q : Fin 128) :
    (dat3 (F := Ideal) V c).arrAt 9 cfg3.N (ix2 p q)
      = denseAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) p q :=
  congrFun (whole V c) (ix2 p q)

end Cert.Sage.Region3

end
-- ==== Proof.KLayer3.lean ====
import proofs.«157926_j75625784148632_1_alg».proof.Proof.KKeep
import proofs.«157926_j75625784148632_1_alg».proof.Proof.Region3
import proofs.«157926_j75625784148632_1_alg».proof.Proof.RefLayers
import proofs.«157926_j75625784148632_1_alg».proof.Proof.SpecCongr

/-!
Hidden layer 3 of the kernel against the reference's layer 3.

The region's nine input arrays, as the region finds them, are the reference's own stages: the mean aggregate of the previous
features over each node's in-edges, the previous features themselves, and this layer's slices of the weights, the bias, the
scale, the shift and the running statistics. The region's output array is then the reference's layer output, index by index:
both are the one function `Cert.Sage.denseAt` of those nine arrays.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The aggregate: gather at the sources, scatter-add at the destinations, times the inverse in-degree. -/
theorem win3_0 (hh : W6 m ρ c (Proc.devRef .tc main_v93) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V7 m ρ c (Pipeline.arrRef spec3 0) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  show StableHlo.after hostOps3 (W6 m ρ c) (Proc.devRef .tc main_v105) = _
  after_results_simp
  rw [at6_main_v1 m ρ c, at6_main_v3 m ρ c, at6_main_v12 m ρ c, hh]
  rfl

/-- The previous features. -/
theorem win3_1 (hh : W6 m ρ c (Proc.devRef .tc main_v93) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V7 m ρ c (Pipeline.arrRef spec3 1) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  (by kept_host hostOps3 : StableHlo.after hostOps3 (W6 m ρ c) (Proc.devRef .tc main_v93) = W6 m ρ c (Proc.devRef .tc main_v93)).trans hh

/-- The neighbours' weight matrix: this layer's slice of the argument. -/
theorem win3_2 : V7 m ρ c (Pipeline.arrRef spec3 2) = val_main_v152 (F := Ideal) (m ((c.tc : Thread nD τ).loc main_arg1)) := by
  show StableHlo.after hostOps3 (W6 m ρ c) (Proc.devRef .tc main_v107) = _
  after_results_simp
  rw [at6_main_arg1 m ρ c]
  rfl

/-- The node's own weight matrix: this layer's slice of the argument. -/
theorem win3_3 : V7 m ρ c (Pipeline.arrRef spec3 3) = val_main_v154 (F := Ideal) (m ((c.tc : Thread nD τ).loc main_arg2)) := by
  show StableHlo.after hostOps3 (W6 m ρ c) (Proc.devRef .tc main_v109) = _
  after_results_simp
  rw [at6_main_arg2 m ρ c]
  rfl

/-- The bias: this layer's slice of the argument. -/
theorem win3_4 : V7 m ρ c (Pipeline.arrRef spec3 4) = val_main_v156 (F := Ideal) (m ((c.tc : Thread nD τ).loc main_arg3)) := by
  show StableHlo.after hostOps3 (W6 m ρ c) (Proc.devRef .tc main_v111) = _
  after_results_simp
  rw [at6_main_arg3 m ρ c]
  rfl

/-- The scale: this layer's slice of the argument. -/
theorem win3_5 : V7 m ρ c (Pipeline.arrRef spec3 5) = val_main_v181 (F := Ideal) (m ((c.tc : Thread nD τ).loc main_arg4)) := by
  show StableHlo.after hostOps3 (W6 m ρ c) (Proc.devRef .tc main_v113) = _
  after_results_simp
  rw [at6_main_arg4 m ρ c]
  rfl

/-- The shift: this layer's slice of the argument. -/
theorem win3_6 : V7 m ρ c (Pipeline.arrRef spec3 6) = val_main_v192 (F := Ideal) (m ((c.tc : Thread nD τ).loc main_arg5)) := by
  show StableHlo.after hostOps3 (W6 m ρ c) (Proc.devRef .tc main_v115) = _
  after_results_simp
  rw [at6_main_arg5 m ρ c]
  rfl

/-- The running mean: this layer's slice of the argument. -/
theorem win3_7 : V7 m ρ c (Pipeline.arrRef spec3 7) = val_main_v176 (F := Ideal) (m ((c.tc : Thread nD τ).loc main_arg6)) := by
  show StableHlo.after hostOps3 (W6 m ρ c) (Proc.devRef .tc main_v117) = _
  after_results_simp
  rw [at6_main_arg6 m ρ c]
  rfl

/-- The running variance: this layer's slice of the argument. -/
theorem win3_8 : V7 m ρ c (Pipeline.arrRef spec3 8) = val_main_v183 (F := Ideal) (m ((c.tc : Thread nD τ).loc main_arg7)) := by
  show StableHlo.after hostOps3 (W6 m ρ c) (Proc.devRef .tc main_v119) = _
  after_results_simp
  rw [at6_main_arg7 m ρ c]
  rfl

/-- The layer's output array is the reference's. -/
theorem stage3 (hh : W6 m ρ c (Proc.devRef .tc main_v93) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    W8 m ρ c (Proc.devRef .tc main_v120) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  refine (W8_arr m ρ c 9).trans ?_
  funext i
  obtain ⟨p, q, rfl⟩ : ∃ (p : Fin 50000) (q : Fin 128), i = ValueIdx.ix2 p q := ⟨i 0, i 1, ValueIdx.eq_ix2 (n0 := 50000) (n1 := 128) i⟩
  exact (Cert.Sage.Region3.closed (V7 m ρ) c p q).trans
    ((Cert.Sage.denseAt_congr (win3_0 m ρ c hh) (win3_1 m ρ c hh) (win3_2 m ρ c) (win3_3 m ρ c) (win3_4 m ρ c) (win3_5 m ρ c) (win3_6 m ρ c) (win3_7 m ρ c) (win3_8 m ρ c) p q).trans
      (Cert.Sage.RefLayers.layer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) p q).symm)

end Cert.Sage.KChain

end
-- ==== Proof.Region4.lean ====
import proofs.«157926_j75625784148632_1_alg».proof.Proof.Gen.KernelIdeal.Frame
import proofs.«157926_j75625784148632_1_alg».proof.Proof.Spec
import proofs.«157926_j75625784148632_1_alg».proof.Proof.Dense
import Idealize.ShloMosaic.Lib.Pipeline.Value
import Idealize.ShloMosaic.Lib.ValueIdx
import Idealize.ShloMosaic.Lib.ValueLayout

/-!
The fifth hidden layer, as one array.

The layer is computed 2000 rows at a time: step `t` (of 25) reads rows `2000 t … 2000 t + 1999` of the aggregated
neighbour features and of the node features, the two whole 128 × 128 weight matrices and the five whole per-channel
vectors, and writes rows `2000 t … 2000 t + 1999` of the output. An output entry `(p, q)` depends on row `p` of the two
feature arrays only, so the 25 row blocks written one after another are the restriction to each block of ONE function of
the nine arrays as the layer finds them — the hidden-layer formula — and together they fill the whole 50000 × 128 array.
-/

noncomputable section

namespace Cert.Sage.Region4

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## One step's arithmetic at an entry of its block -/

/-- At row `r`, channel `q` of a block: the two products of row `r` with column `q` of the weights added, the bias added,
    the running mean taken off, the result scaled by `γ · (variance + ε)^(-1/2)`, shifted by `β`, and cut below at zero. -/
theorem body_at (a h : Vec Ideal S2000x128 .f32) (wl wr : Vec Ideal S128x128 .f32) (b g rv rm be : Vec Ideal S128 .f32)
    (r : Fin 2000) (q : Fin 128) :
    k4_pay1 (F := Ideal) (k4_pay2 (F := Ideal) a h wl wr b g rv rm be) (k4_pay3 (F := Ideal)) (ix2 r q)
      = max ((((∑ k : Fin 128, a (ix2 r k) * wl (ix2 k q)) + (∑ k : Fin 128, h (ix2 r k) * wr (ix2 k q))) + b (ix1 q) - rm (ix1 q))
            * (g (ix1 q) * Ideal.rsqrt (rv (ix1 q) + Ideal.ofBits .f32 0x3727C5AC#32)) + be (ix1 q))
          (Ideal.ofBits .f32 0x00000000#32) := by
  unfold k4_pay1 k4_pay2 k4_pay3
  simp only [maximumf_apply, addf_apply, subf_apply, mulf_apply, broadcast_apply, truncf_apply, shapeCast_self,
    Dense.contract_at, Dense.row_at]
  rfl

/-! ## Where each step's blocks sit in their arrays -/

/-- Step `t`'s block of the two feature arrays and of the output is row block `t`; every other window is its whole array. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0 ∧ win4_5.index t (0 : Fin 1) = 0 ∧ win4_6.index t (0 : Fin 1) = 0
    ∧ win4_7.index t (0 : Fin 1) = 0 ∧ win4_8.index t (0 : Fin 1) = 0
    ∧ win4_9.index t (0 : Fin 2) = t.val ∧ win4_9.index t (1 : Fin 2) = 0 :=
  (by decide +kernel : ∀ t : Fin grid4.N, _)

/-- Row `r` of step `t`'s block of the aggregated features is row `2000 t + r` of the array. -/
theorem agg_rows (c : Dev nD) (t : Fin cfg4.N) (r : Fin 2000) (p : Fin 50000) (hp : p.val = t.val * 2000 + r.val) (k : Fin 128) :
    (iblk4 V c 0 t : Vec Ideal S2000x128 .f32) (ix2 r k) = (V c (Pipeline.arrRef spec4 0) : S50000x128.Idx → EReal) (ix2 p k) := by
  obtain ⟨e, e', -⟩ := block_index t
  show (V c (Pipeline.arrRef spec4 0) : S50000x128.Idx → EReal) (((cfg4.win 0).blk t).view.emb (ix2 r k)) = _
  refine congrArg _ (funext fun x => Fin.ext ?_)
  match x with
  | ⟨0, _⟩ => show win4_0.index t (0 : Fin 2) * 2000 + 1 * r.val = p.val; omega
  | ⟨1, _⟩ => show win4_0.index t (1 : Fin 2) * 128 + 1 * k.val = k.val; omega

/-- Row `r` of step `t`'s block of the node features is row `2000 t + r` of the array. -/
theorem node_rows (c : Dev nD) (t : Fin cfg4.N) (r : Fin 2000) (p : Fin 50000) (hp : p.val = t.val * 2000 + r.val) (k : Fin 128) :
    (iblk4 V c 1 t : Vec Ideal S2000x128 .f32) (ix2 r k) = (V c (Pipeline.arrRef spec4 1) : S50000x128.Idx → EReal) (ix2 p k) := by
  obtain ⟨-, -, e, e', -⟩ := block_index t
  show (V c (Pipeline.arrRef spec4 1) : S50000x128.Idx → EReal) (((cfg4.win 1).blk t).view.emb (ix2 r k)) = _
  refine congrArg _ (funext fun x => Fin.ext ?_)
  match x with
  | ⟨0, _⟩ => show win4_1.index t (0 : Fin 2) * 2000 + 1 * r.val = p.val; omega
  | ⟨1, _⟩ => show win4_1.index t (1 : Fin 2) * 128 + 1 * k.val = k.val; omega

/-- Every step sees the whole weight matrix of the aggregated features. -/
theorem wl_whole (c : Dev nD) (t : Fin cfg4.N) (k q : Fin 128) :
    (iblk4 V c 2 t : Vec Ideal S128x128 .f32) (ix2 k q) = (V c (Pipeline.arrRef spec4 2) : S128x128.Idx → EReal) (ix2 k q) := by
  obtain ⟨-, -, -, -, e, e', -⟩ := block_index t
  show (V c (Pipeline.arrRef spec4 2) : S128x128.Idx → EReal) (((cfg4.win 2).blk t).view.emb (ix2 k q)) = _
  refine congrArg _ (funext fun x => Fin.ext ?_)
  match x with
  | ⟨0, _⟩ => show win4_2.index t (0 : Fin 2) * 128 + 1 * k.val = k.val; omega
  | ⟨1, _⟩ => show win4_2.index t (1 : Fin 2) * 128 + 1 * q.val = q.val; omega

/-- Every step sees the whole weight matrix of the node features. -/
theorem wr_whole (c : Dev nD) (t : Fin cfg4.N) (k q : Fin 128) :
    (iblk4 V c 3 t : Vec Ideal S128x128 .f32) (ix2 k q) = (V c (Pipeline.arrRef spec4 3) : S128x128.Idx → EReal) (ix2 k q) := by
  obtain ⟨-, -, -, -, -, -, e, e', -⟩ := block_index t
  show (V c (Pipeline.arrRef spec4 3) : S128x128.Idx → EReal) (((cfg4.win 3).blk t).view.emb (ix2 k q)) = _
  refine congrArg _ (funext fun x => Fin.ext ?_)
  match x with
  | ⟨0, _⟩ => show win4_3.index t (0 : Fin 2) * 128 + 1 * k.val = k.val; omega
  | ⟨1, _⟩ => show win4_3.index t (1 : Fin 2) * 128 + 1 * q.val = q.val; omega

/-- Every step sees the whole bias vector … -/
theorem bias_whole (c : Dev nD) (t : Fin cfg4.N) (q : Fin 128) :
    (iblk4 V c 4 t : Vec Ideal S128 .f32) (ix1 q) = (V c (Pipeline.arrRef spec4 4) : S128.Idx → EReal) (ix1 q) := by
  obtain ⟨-, -, -, -, -, -, -, -, e, -⟩ := block_index t
  show (V c (Pipeline.arrRef spec4 4) : S128.Idx → EReal) (((cfg4.win 4).blk t).view.emb (ix1 q)) = _
  refine congrArg _ (funext fun x => Fin.ext ?_)
  match x with
  | ⟨0, _⟩ => show win4_4.index t (0 : Fin 1) * 128 + 1 * q.val = q.val; omega

/-- … the whole scale vector … -/
theorem scale_whole (c : Dev nD) (t : Fin cfg4.N) (q : Fin 128) :
    (iblk4 V c 5 t : Vec Ideal S128 .f32) (ix1 q) = (V c (Pipeline.arrRef spec4 5) : S128.Idx → EReal) (ix1 q) := by
  obtain ⟨-, -, -, -, -, -, -, -, -, e, -⟩ := block_index t
  show (V c (Pipeline.arrRef spec4 5) : S128.Idx → EReal) (((cfg4.win 5).blk t).view.emb (ix1 q)) = _
  refine congrArg _ (funext fun x => Fin.ext ?_)
  match x with
  | ⟨0, _⟩ => show win4_5.index t (0 : Fin 1) * 128 + 1 * q.val = q.val; omega

/-- … the whole shift vector … -/
theorem shift_whole (c : Dev nD) (t : Fin cfg4.N) (q : Fin 128) :
    (iblk4 V c 6 t : Vec Ideal S128 .f32) (ix1 q) = (V c (Pipeline.arrRef spec4 6) : S128.Idx → EReal) (ix1 q) := by
  obtain ⟨-, -, -, -, -, -, -, -, -, -, e, -⟩ := block_index t
  show (V c (Pipeline.arrRef spec4 6) : S128.Idx → EReal) (((cfg4.win 6).blk t).view.emb (ix1 q)) = _
  refine congrArg _ (funext fun x => Fin.ext ?_)
  match x with
  | ⟨0, _⟩ => show win4_6.index t (0 : Fin 1) * 128 + 1 * q.val = q.val; omega

/-- … the whole vector of running means … -/
theorem mean_whole (c : Dev nD) (t : Fin cfg4.N) (q : Fin 128) :
    (iblk4 V c 7 t : Vec Ideal S128 .f32) (ix1 q) = (V c (Pipeline.arrRef spec4 7) : S128.Idx → EReal) (ix1 q) := by
  obtain ⟨-, -, -, -, -, -, -, -, -, -, -, e, -⟩ := block_index t
  show (V c (Pipeline.arrRef spec4 7) : S128.Idx → EReal) (((cfg4.win 7).blk t).view.emb (ix1 q)) = _
  refine congrArg _ (funext fun x => Fin.ext ?_)
  match x with
  | ⟨0, _⟩ => show win4_7.index t (0 : Fin 1) * 128 + 1 * q.val = q.val; omega

/-- … and the whole vector of running variances. -/
theorem var_whole (c : Dev nD) (t : Fin cfg4.N) (q : Fin 128) :
    (iblk4 V c 8 t : Vec Ideal S128 .f32) (ix1 q) = (V c (Pipeline.arrRef spec4 8) : S128.Idx → EReal) (ix1 q) := by
  obtain ⟨-, -, -, -, -, -, -, -, -, -, -, -, e, -⟩ := block_index t
  show (V c (Pipeline.arrRef spec4 8) : S128.Idx → EReal) (((cfg4.win 8).blk t).view.emb (ix1 q)) = _
  refine congrArg _ (funext fun x => Fin.ext ?_)
  match x with
  | ⟨0, _⟩ => show win4_8.index t (0 : Fin 1) * 128 + 1 * q.val = q.val; omega

/-! ## From the 25 row blocks to the array -/

/-- The layer's output array: the hidden-layer formula of the nine arrays as the layer finds them, entry by entry. -/
def layer (c : Dev nD) : S50000x128.Idx → EReal := fun i =>
  denseAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (i 0) (i 1)

/-- What step `t` writes back is row block `t` of the layer's output. -/
theorem block_eq (c : Dev nD) (t : Fin cfg4.N) :
    (dat4 (F := Ideal) V c).flushed 9 t = ((cfg4.win 9).blk t).view.read (Elt Ideal) (layer V c) := by
  show (cfg4.win 9).cut (grid4.coords t) ((dat4 (F := Ideal) V c).after 9 t) = _
  rw [after4_9]
  unfold out4_9
  rw [View.canon_unit_zero zero_offsets₂]
  simp only [View.ld_unit_zero (S := S2000x128) zero_offsets₂, View.ld_unit_zero (S := S128x128) zero_offsets₂,
    View.ld_unit_zero (S := S128) zero_offsets₁]
  funext j
  have hj0 : (j 0).val < 2000 := (j 0).isLt
  have hj1 : (j 1).val < 128 := (j 1).isLt
  have ht : t.val < 25 := lt_of_lt_of_eq t.isLt N_4
  obtain ⟨-, -, -, -, -, -, -, -, -, -, -, -, -, e, e'⟩ := block_index t
  have hp : t.val * 2000 + (j 0).val < 50000 := by omega
  have hx : (cfg4.win 9).xinj (grid4.coords t) j = ix2 (⟨(j 0).val, hj0⟩ : Fin 2000) (⟨(j 1).val, hj1⟩ : Fin 128) :=
    funext fun x => by match x with | ⟨0, _⟩ => rfl | ⟨1, _⟩ => rfl
  have hy : ((cfg4.win 9).blk t).view.emb j = ix2 (⟨t.val * 2000 + (j 0).val, hp⟩ : Fin 50000) (⟨(j 1).val, hj1⟩ : Fin 128) :=
    funext fun x => Fin.ext (by
      match x with
      | ⟨0, _⟩ => show win4_9.index t (0 : Fin 2) * 2000 + 1 * (j 0).val = t.val * 2000 + (j 0).val; omega
      | ⟨1, _⟩ => show win4_9.index t (1 : Fin 2) * 128 + 1 * (j 1).val = (j 1).val; omega)
  show k4_pay1 (F := Ideal) (k4_pay2 (F := Ideal) (iblk4 V c 0 t) (iblk4 V c 1 t) (iblk4 V c 2 t) (iblk4 V c 3 t) (iblk4 V c 4 t) (iblk4 V c 5 t) (iblk4 V c 8 t) (iblk4 V c 7 t) (iblk4 V c 6 t)) (k4_pay3 (F := Ideal)) ((cfg4.win 9).xinj (grid4.coords t) j)
      = layer V c (((cfg4.win 9).blk t).view.emb j)
  rw [hx, hy]
  refine (body_at (iblk4 V c 0 t) (iblk4 V c 1 t) (iblk4 V c 2 t) (iblk4 V c 3 t) (iblk4 V c 4 t) (iblk4 V c 5 t)
    (iblk4 V c 8 t) (iblk4 V c 7 t) (iblk4 V c 6 t) ⟨(j 0).val, hj0⟩ ⟨(j 1).val, hj1⟩).trans ?_
  show _ = denseAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))
    (⟨t.val * 2000 + (j 0).val, hp⟩ : Fin 50000) (⟨(j 1).val, hj1⟩ : Fin 128)
  unfold denseAt
  simp only [agg_rows V c t ⟨(j 0).val, hj0⟩ ⟨t.val * 2000 + (j 0).val, hp⟩ rfl, node_rows V c t ⟨(j 0).val, hj0⟩ ⟨t.val * 2000 + (j 0).val, hp⟩ rfl,
    wl_whole V c t, wr_whole V c t, bias_whole V c t, scale_whole V c t, shift_whole V c t, mean_whole V c t, var_whole V c t]

/-- An entry of the array is in step `t`'s output block iff its row is in row block `t` (and its channel in range). -/
theorem mem_block (t : Fin cfg4.N) (i : S50000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole main_v147).slice (win4_9.rect t)).set ↔ _
  rw [View.set_slice_whole, Rect.mem_set_unit]
  exact Iff.rfl

/-- Row `p` is written by step `p / 2000`: the 25 row blocks fill the array. -/
theorem covered (i : S50000x128.Idx) :
    ∃ t : Fin cfg4.N, (cfg4.win 9).flush t = true ∧ i ∈ ((cfg4.win 9).blk t).view.set := by
  have hi0 : (i 0).val < 50000 := (i 0).isLt
  have hi1 : (i 1).val < 128 := (i 1).isLt
  have ht : (i 0).val / 2000 < cfg4.N := lt_of_lt_of_eq (show (i 0).val / 2000 < 25 by omega) N_4.symm
  obtain ⟨-, -, -, -, -, -, -, -, -, -, -, -, -, e, e'⟩ := block_index ⟨(i 0).val / 2000, ht⟩
  have e₀ : win4_9.index ⟨(i 0).val / 2000, ht⟩ (0 : Fin 2) = (i 0).val / 2000 := e
  refine ⟨⟨(i 0).val / 2000, ht⟩, flush4_9 _, ?_⟩
  rw [mem_block]
  intro a
  match a with
  | ⟨0, _⟩ =>
    show win4_9.index ⟨(i 0).val / 2000, ht⟩ (0 : Fin 2) * 2000 ≤ (i 0).val
      ∧ (i 0).val < win4_9.index ⟨(i 0).val / 2000, ht⟩ (0 : Fin 2) * 2000 + 2000
    omega
  | ⟨1, _⟩ =>
    show win4_9.index ⟨(i 0).val / 2000, ht⟩ (1 : Fin 2) * 128 ≤ (i 1).val
      ∧ (i 1).val < win4_9.index ⟨(i 0).val / 2000, ht⟩ (1 : Fin 2) * 128 + 128
    omega

/-- After its 25 steps the layer's output array is the hidden-layer formula everywhere. -/
theorem whole (c : Dev nD) : (dat4 (F := Ideal) V c).arrAt 9 cfg4.N = layer V c :=
  (dat4 (F := Ideal) V c).arrAt_eq_of_cover 9 (layer V c) (fun t _ => block_eq V c t) covered

/-- THE LAYER, ENTRY BY ENTRY: after the region the output array holds, at node `p` and channel `q`, the hidden-layer
    formula of the nine input arrays as the region found them. -/
theorem closed (c : Dev nD) (p : Fin 50000) (q : Fin 128) :
    (dat4 (F := Ideal) V c).arrAt 9 cfg4.N (ix2 p q)
      = denseAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) p q :=
  congrFun (whole V c) (ix2 p q)

end Cert.Sage.Region4

end
-- ==== Proof.KLayer4.lean ====
import proofs.«157926_j75625784148632_1_alg».proof.Proof.KKeep
import proofs.«157926_j75625784148632_1_alg».proof.Proof.Region4
import proofs.«157926_j75625784148632_1_alg».proof.Proof.RefLayers
import proofs.«157926_j75625784148632_1_alg».proof.Proof.SpecCongr

/-!
Hidden layer 4 of the kernel against the reference's layer 4.

The region's nine input arrays, as the region finds them, are the reference's own stages: the mean aggregate of the previous
features over each node's in-edges, the previous features themselves, and this layer's slices of the weights, the bias, the
scale, the shift and the running statistics. The region's output array is then the reference's layer output, index by index:
both are the one function `Cert.Sage.denseAt` of those nine arrays.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The aggregate: gather at the sources, scatter-add at the destinations, times the inverse in-degree. -/
theorem win4_0 (hh : W8 m ρ c (Proc.devRef .tc main_v120) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V9 m ρ c (Pipeline.arrRef spec4 0) = val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  show StableHlo.after hostOps4 (W8 m ρ c) (Proc.devRef .tc main_v132) = _
  after_results_simp
  rw [at8_main_v1 m ρ c, at8_main_v3 m ρ c, at8_main_v12 m ρ c, hh]
  rfl

/-- The previous features. -/
theorem win4_1 (hh : W8 m ρ c (Proc.devRef .tc main_v120) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V9 m ρ c (Pipeline.arrRef spec4 1) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  (by kept_host hostOps4 : StableHlo.after hostOps4 (W8 m ρ c) (Proc.devRef .tc main_v120) = W8 m ρ c (Proc.devRef .tc main_v120)).trans hh

/-- The neighbours' weight matrix: this layer's slice of the argument. -/
theorem win4_2 : V9 m ρ c (Pipeline.arrRef spec4 2) = val_main_v198 (F := Ideal) (m ((c.tc : Thread nD τ).loc main_arg1)) := by
  show StableHlo.after hostOps4 (W8 m ρ c) (Proc.devRef .tc main_v134) = _
  after_results_simp
  rw [at8_main_arg1 m ρ c]
  rfl

/-- The node's own weight matrix: this layer's slice of the argument. -/
theorem win4_3 : V9 m ρ c (Pipeline.arrRef spec4 3) = val_main_v200 (F := Ideal) (m ((c.tc : Thread nD τ).loc main_arg2)) := by
  show StableHlo.after hostOps4 (W8 m ρ c) (Proc.devRef .tc main_v136) = _
  after_results_simp
  rw [at8_main_arg2 m ρ c]
  rfl

/-- The bias: this layer's slice of the argument. -/
theorem win4_4 : V9 m ρ c (Pipeline.arrRef spec4 4) = val_main_v202 (F := Ideal) (m ((c.tc : Thread nD τ).loc main_arg3)) := by
  show StableHlo.after hostOps4 (W8 m ρ c) (Proc.devRef .tc main_v138) = _
  after_results_simp
  rw [at8_main_arg3 m ρ c]
  rfl

/-- The scale: this layer's slice of the argument. -/
theorem win4_5 : V9 m ρ c (Pipeline.arrRef spec4 5) = val_main_v227 (F := Ideal) (m ((c.tc : Thread nD τ).loc main_arg4)) := by
  show StableHlo.after hostOps4 (W8 m ρ c) (Proc.devRef .tc main_v140) = _
  after_results_simp
  rw [at8_main_arg4 m ρ c]
  rfl

/-- The shift: this layer's slice of the argument. -/
theorem win4_6 : V9 m ρ c (Pipeline.arrRef spec4 6) = val_main_v238 (F := Ideal) (m ((c.tc : Thread nD τ).loc main_arg5)) := by
  show StableHlo.after hostOps4 (W8 m ρ c) (Proc.devRef .tc main_v142) = _
  after_results_simp
  rw [at8_main_arg5 m ρ c]
  rfl

/-- The running mean: this layer's slice of the argument. -/
theorem win4_7 : V9 m ρ c (Pipeline.arrRef spec4 7) = val_main_v222 (F := Ideal) (m ((c.tc : Thread nD τ).loc main_arg6)) := by
  show StableHlo.after hostOps4 (W8 m ρ c) (Proc.devRef .tc main_v144) = _
  after_results_simp
  rw [at8_main_arg6 m ρ c]
  rfl

/-- The running variance: this layer's slice of the argument. -/
theorem win4_8 : V9 m ρ c (Pipeline.arrRef spec4 8) = val_main_v229 (F := Ideal) (m ((c.tc : Thread nD τ).loc main_arg7)) := by
  show StableHlo.after hostOps4 (W8 m ρ c) (Proc.devRef .tc main_v146) = _
  after_results_simp
  rw [at8_main_arg7 m ρ c]
  rfl

/-- The layer's output array is the reference's. -/
theorem stage4 (hh : W8 m ρ c (Proc.devRef .tc main_v120) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    W10 m ρ c (Proc.devRef .tc main_v147) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  refine (W10_arr m ρ c 9).trans ?_
  funext i
  obtain ⟨p, q, rfl⟩ : ∃ (p : Fin 50000) (q : Fin 128), i = ValueIdx.ix2 p q := ⟨i 0, i 1, ValueIdx.eq_ix2 (n0 := 50000) (n1 := 128) i⟩
  exact (Cert.Sage.Region4.closed (V9 m ρ) c p q).trans
    ((Cert.Sage.denseAt_congr (win4_0 m ρ c hh) (win4_1 m ρ c hh) (win4_2 m ρ c) (win4_3 m ρ c) (win4_4 m ρ c) (win4_5 m ρ c) (win4_6 m ρ c) (win4_7 m ρ c) (win4_8 m ρ c) p q).trans
      (Cert.Sage.RefLayers.layer4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) p q).symm)

end Cert.Sage.KChain

end
-- ==== Proof.Region5.lean ====
import proofs.«157926_j75625784148632_1_alg».proof.Proof.Gen.KernelIdeal.Frame
import proofs.«157926_j75625784148632_1_alg».proof.Proof.Spec
import proofs.«157926_j75625784148632_1_alg».proof.Proof.Dense
import Idealize.ShloMosaic.Lib.Pipeline.Value
import Idealize.ShloMosaic.Lib.ValueIdx
import Idealize.ShloMosaic.Lib.ValueLayout

/-!
The last layer, as one array.

The layer is computed 2000 rows at a time: step `t` (of 25) reads rows `2000 t … 2000 t + 1999` of the aggregated
neighbour features and of the node features, the two whole 128 × 2 weight matrices and the whole bias of length 2, and
writes rows `2000 t … 2000 t + 1999` of the output. An output entry `(p, q)` depends on row `p` of the two feature
arrays only, so the 25 row blocks written one after another are the restriction to each block of ONE function of the
five arrays as the layer finds them — the two products added, plus the bias — and together they fill the whole
50000 × 2 array.
-/

noncomputable section

namespace Cert.Sage.Region5

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## One step's arithmetic at an entry of its block -/

/-- At row `r`, output channel `q` of a block: the two products of row `r` with column `q` of the weights added, and the
    bias of channel `q` added. -/
theorem body_at (a h : Vec Ideal S2000x128 .f32) (wl wr : Vec Ideal S128x2 .f32) (b : Vec Ideal S2 .f32)
    (r : Fin 2000) (q : Fin 2) :
    k5_pay1 (F := Ideal) a h wl wr b (ix2 r q)
      = ((∑ k : Fin 128, a (ix2 r k) * wl (ix2 k q)) + (∑ k : Fin 128, h (ix2 r k) * wr (ix2 k q))) + b (ix1 q) := by
  unfold k5_pay1
  simp only [addf_apply, truncf_apply, shapeCast_self, Dense.contract_out_at, Dense.row_at]

/-! ## Where each step's blocks sit in their arrays -/

/-- Step `t`'s block of the two feature arrays and of the output is row block `t`; every other window is its whole array. -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Row `r` of step `t`'s block of the aggregated features is row `2000 t + r` of the array. -/
theorem agg_rows (c : Dev nD) (t : Fin cfg5.N) (r : Fin 2000) (p : Fin 50000) (hp : p.val = t.val * 2000 + r.val) (k : Fin 128) :
    (iblk5 V c 0 t : Vec Ideal S2000x128 .f32) (ix2 r k) = (V c (Pipeline.arrRef spec5 0) : S50000x128.Idx → EReal) (ix2 p k) := by
  obtain ⟨e, e', -⟩ := block_index t
  show (V c (Pipeline.arrRef spec5 0) : S50000x128.Idx → EReal) (((cfg5.win 0).blk t).view.emb (ix2 r k)) = _
  refine congrArg _ (funext fun x => Fin.ext ?_)
  match x with
  | ⟨0, _⟩ => show win5_0.index t (0 : Fin 2) * 2000 + 1 * r.val = p.val; omega
  | ⟨1, _⟩ => show win5_0.index t (1 : Fin 2) * 128 + 1 * k.val = k.val; omega

/-- Row `r` of step `t`'s block of the node features is row `2000 t + r` of the array. -/
theorem node_rows (c : Dev nD) (t : Fin cfg5.N) (r : Fin 2000) (p : Fin 50000) (hp : p.val = t.val * 2000 + r.val) (k : Fin 128) :
    (iblk5 V c 1 t : Vec Ideal S2000x128 .f32) (ix2 r k) = (V c (Pipeline.arrRef spec5 1) : S50000x128.Idx → EReal) (ix2 p k) := by
  obtain ⟨-, -, e, e', -⟩ := block_index t
  show (V c (Pipeline.arrRef spec5 1) : S50000x128.Idx → EReal) (((cfg5.win 1).blk t).view.emb (ix2 r k)) = _
  refine congrArg _ (funext fun x => Fin.ext ?_)
  match x with
  | ⟨0, _⟩ => show win5_1.index t (0 : Fin 2) * 2000 + 1 * r.val = p.val; omega
  | ⟨1, _⟩ => show win5_1.index t (1 : Fin 2) * 128 + 1 * k.val = k.val; omega

/-- Every step sees the whole weight matrix of the aggregated features. -/
theorem wl_whole (c : Dev nD) (t : Fin cfg5.N) (k : Fin 128) (q : Fin 2) :
    (iblk5 V c 2 t : Vec Ideal S128x2 .f32) (ix2 k q) = (V c (Pipeline.arrRef spec5 2) : S128x2.Idx → EReal) (ix2 k q) := by
  obtain ⟨-, -, -, -, e, e', -⟩ := block_index t
  show (V c (Pipeline.arrRef spec5 2) : S128x2.Idx → EReal) (((cfg5.win 2).blk t).view.emb (ix2 k q)) = _
  refine congrArg _ (funext fun x => Fin.ext ?_)
  match x with
  | ⟨0, _⟩ => show win5_2.index t (0 : Fin 2) * 128 + 1 * k.val = k.val; omega
  | ⟨1, _⟩ => show win5_2.index t (1 : Fin 2) * 2 + 1 * q.val = q.val; omega

/-- Every step sees the whole weight matrix of the node features. -/
theorem wr_whole (c : Dev nD) (t : Fin cfg5.N) (k : Fin 128) (q : Fin 2) :
    (iblk5 V c 3 t : Vec Ideal S128x2 .f32) (ix2 k q) = (V c (Pipeline.arrRef spec5 3) : S128x2.Idx → EReal) (ix2 k q) := by
  obtain ⟨-, -, -, -, -, -, e, e', -⟩ := block_index t
  show (V c (Pipeline.arrRef spec5 3) : S128x2.Idx → EReal) (((cfg5.win 3).blk t).view.emb (ix2 k q)) = _
  refine congrArg _ (funext fun x => Fin.ext ?_)
  match x with
  | ⟨0, _⟩ => show win5_3.index t (0 : Fin 2) * 128 + 1 * k.val = k.val; omega
  | ⟨1, _⟩ => show win5_3.index t (1 : Fin 2) * 2 + 1 * q.val = q.val; omega

/-- Every step sees the whole bias. -/
theorem bias_whole (c : Dev nD) (t : Fin cfg5.N) (q : Fin 2) :
    (iblk5 V c 4 t : Vec Ideal S2 .f32) (ix1 q) = (V c (Pipeline.arrRef spec5 4) : S2.Idx → EReal) (ix1 q) := by
  obtain ⟨-, -, -, -, -, -, -, -, e, -⟩ := block_index t
  show (V c (Pipeline.arrRef spec5 4) : S2.Idx → EReal) (((cfg5.win 4).blk t).view.emb (ix1 q)) = _
  refine congrArg _ (funext fun x => Fin.ext ?_)
  match x with
  | ⟨0, _⟩ => show win5_4.index t (0 : Fin 1) * 2 + 1 * q.val = q.val; omega

/-! ## From the 25 row blocks to the array -/

/-- The layer's output array: the last-layer formula of the five arrays as the layer finds them, entry by entry. -/
def layer (c : Dev nD) : S50000x2.Idx → EReal := fun i =>
  outAt (V c (Pipeline.arrRef spec5 0)) (V c (Pipeline.arrRef spec5 1)) (V c (Pipeline.arrRef spec5 2)) (V c (Pipeline.arrRef spec5 3)) (V c (Pipeline.arrRef spec5 4)) (i 0) (i 1)

/-- What step `t` writes back is row block `t` of the layer's output. -/
theorem block_eq (c : Dev nD) (t : Fin cfg5.N) :
    (dat5 (F := Ideal) V c).flushed 5 t = ((cfg5.win 5).blk t).view.read (Elt Ideal) (layer V c) := by
  show (cfg5.win 5).cut (grid5.coords t) ((dat5 (F := Ideal) V c).after 5 t) = _
  rw [after5_5]
  unfold out5_5
  rw [View.canon_unit_zero zero_offsets₂]
  simp only [View.ld_unit_zero (S := S2000x128) zero_offsets₂, View.ld_unit_zero (S := S128x2) zero_offsets₂,
    View.ld_unit_zero (S := S2) zero_offsets₁]
  funext j
  have hj0 : (j 0).val < 2000 := (j 0).isLt
  have hj1 : (j 1).val < 2 := (j 1).isLt
  have ht : t.val < 25 := lt_of_lt_of_eq t.isLt N_5
  obtain ⟨-, -, -, -, -, -, -, -, -, e, e'⟩ := block_index t
  have hp : t.val * 2000 + (j 0).val < 50000 := by omega
  have hx : (cfg5.win 5).xinj (grid5.coords t) j = ix2 (⟨(j 0).val, hj0⟩ : Fin 2000) (⟨(j 1).val, hj1⟩ : Fin 2) :=
    funext fun x => by match x with | ⟨0, _⟩ => rfl | ⟨1, _⟩ => rfl
  have hy : ((cfg5.win 5).blk t).view.emb j = ix2 (⟨t.val * 2000 + (j 0).val, hp⟩ : Fin 50000) (⟨(j 1).val, hj1⟩ : Fin 2) :=
    funext fun x => Fin.ext (by
      match x with
      | ⟨0, _⟩ => show win5_5.index t (0 : Fin 2) * 2000 + 1 * (j 0).val = t.val * 2000 + (j 0).val; omega
      | ⟨1, _⟩ => show win5_5.index t (1 : Fin 2) * 2 + 1 * (j 1).val = (j 1).val; omega)
  show k5_pay1 (F := Ideal) (iblk5 V c 0 t) (iblk5 V c 1 t) (iblk5 V c 2 t) (iblk5 V c 3 t) (iblk5 V c 4 t) ((cfg5.win 5).xinj (grid5.coords t) j)
      = layer V c (((cfg5.win 5).blk t).view.emb j)
  rw [hx, hy]
  refine (body_at (iblk5 V c 0 t) (iblk5 V c 1 t) (iblk5 V c 2 t) (iblk5 V c 3 t) (iblk5 V c 4 t) ⟨(j 0).val, hj0⟩ ⟨(j 1).val, hj1⟩).trans ?_
  show _ = outAt (V c (Pipeline.arrRef spec5 0)) (V c (Pipeline.arrRef spec5 1)) (V c (Pipeline.arrRef spec5 2)) (V c (Pipeline.arrRef spec5 3)) (V c (Pipeline.arrRef spec5 4))
    (⟨t.val * 2000 + (j 0).val, hp⟩ : Fin 50000) (⟨(j 1).val, hj1⟩ : Fin 2)
  unfold outAt
  simp only [agg_rows V c t ⟨(j 0).val, hj0⟩ ⟨t.val * 2000 + (j 0).val, hp⟩ rfl, node_rows V c t ⟨(j 0).val, hj0⟩ ⟨t.val * 2000 + (j 0).val, hp⟩ rfl,
    wl_whole V c t, wr_whole V c t, bias_whole V c t]

/-- An entry of the array is in step `t`'s output block iff its row is in row block `t` (and its channel in range). -/
theorem mem_block (t : Fin cfg5.N) (i : S50000x2.Idx) :
    i ∈ ((cfg5.win 5).blk t).view.set ↔ ∀ a : Fin 2, win5_5.index t a * S2000x2.size a ≤ (i a).val ∧ (i a).val < win5_5.index t a * S2000x2.size a + S2000x2.size a := by
  show i ∈ ((View.whole main_v160).slice (win5_5.rect t)).set ↔ _
  rw [View.set_slice_whole, Rect.mem_set_unit]
  exact Iff.rfl

/-- Row `p` is written by step `p / 2000`: the 25 row blocks fill the array. -/
theorem covered (i : S50000x2.Idx) :
    ∃ t : Fin cfg5.N, (cfg5.win 5).flush t = true ∧ i ∈ ((cfg5.win 5).blk t).view.set := by
  have hi0 : (i 0).val < 50000 := (i 0).isLt
  have hi1 : (i 1).val < 2 := (i 1).isLt
  have ht : (i 0).val / 2000 < cfg5.N := lt_of_lt_of_eq (show (i 0).val / 2000 < 25 by omega) N_5.symm
  obtain ⟨-, -, -, -, -, -, -, -, -, e, e'⟩ := block_index ⟨(i 0).val / 2000, ht⟩
  have e₀ : win5_5.index ⟨(i 0).val / 2000, ht⟩ (0 : Fin 2) = (i 0).val / 2000 := e
  refine ⟨⟨(i 0).val / 2000, ht⟩, flush5_5 _, ?_⟩
  rw [mem_block]
  intro a
  match a with
  | ⟨0, _⟩ =>
    show win5_5.index ⟨(i 0).val / 2000, ht⟩ (0 : Fin 2) * 2000 ≤ (i 0).val
      ∧ (i 0).val < win5_5.index ⟨(i 0).val / 2000, ht⟩ (0 : Fin 2) * 2000 + 2000
    omega
  | ⟨1, _⟩ =>
    show win5_5.index ⟨(i 0).val / 2000, ht⟩ (1 : Fin 2) * 2 ≤ (i 1).val
      ∧ (i 1).val < win5_5.index ⟨(i 0).val / 2000, ht⟩ (1 : Fin 2) * 2 + 2
    omega

/-- After its 25 steps the layer's output array is the last-layer formula everywhere. -/
theorem whole (c : Dev nD) : (dat5 (F := Ideal) V c).arrAt 5 cfg5.N = layer V c :=
  (dat5 (F := Ideal) V c).arrAt_eq_of_cover 5 (layer V c) (fun t _ => block_eq V c t) covered

/-- THE LAYER, ENTRY BY ENTRY: after the region the output array holds, at node `p` and output channel `q`, the last-layer
    formula of the five input arrays as the region found them. -/
theorem closed (c : Dev nD) (p : Fin 50000) (q : Fin 2) :
    (dat5 (F := Ideal) V c).arrAt 5 cfg5.N (ix2 p q)
      = outAt (V c (Pipeline.arrRef spec5 0)) (V c (Pipeline.arrRef spec5 1)) (V c (Pipeline.arrRef spec5 2)) (V c (Pipeline.arrRef spec5 3)) (V c (Pipeline.arrRef spec5 4)) p q :=
  congrFun (whole V c) (ix2 p q)

end Cert.Sage.Region5

end
-- ==== Proof.KLayer5.lean ====
import proofs.«157926_j75625784148632_1_alg».proof.Proof.KKeep
import proofs.«157926_j75625784148632_1_alg».proof.Proof.Region5
import proofs.«157926_j75625784148632_1_alg».proof.Proof.RefLayers
import proofs.«157926_j75625784148632_1_alg».proof.Proof.SpecCongr

/-!
The last layer of the kernel against the reference's last layer.

The region's inputs, as it finds them, are the mean aggregate of the fifth hidden layer's output, that output itself, and
the three output-layer arguments as launched. Its output array (50000 × 2) is the reference's, index by index: both are
`Cert.Sage.outAt` of those five arrays.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The aggregate: gather at the sources, scatter-add at the destinations, times the inverse in-degree. -/
theorem win5_0 (hh : W10 m ρ c (Proc.devRef .tc main_v147) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V11 m ρ c (Pipeline.arrRef spec5 0) = val_main_v254 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) := by
  show StableHlo.after hostOps5 (W10 m ρ c) (Proc.devRef .tc main_v159) = _
  after_results_simp
  rw [at10_main_v1 m ρ c, at10_main_v3 m ρ c, at10_main_v12 m ρ c, hh]
  rfl

/-- The previous features. -/
theorem win5_1 (hh : W10 m ρ c (Proc.devRef .tc main_v147) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    V11 m ρ c (Pipeline.arrRef spec5 1) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  (by kept_host hostOps5 : StableHlo.after hostOps5 (W10 m ρ c) (Proc.devRef .tc main_v147) = W10 m ρ c (Proc.devRef .tc main_v147)).trans hh

/-- The output layer's two weight matrices and its bias are the arguments themselves. -/
theorem win5_2 : V11 m ρ c (Pipeline.arrRef spec5 2) = m ((c.tc : Thread nD τ).loc main_arg8) := at11_main_arg8 m ρ c
theorem win5_3 : V11 m ρ c (Pipeline.arrRef spec5 3) = m ((c.tc : Thread nD τ).loc main_arg9) := at11_main_arg9 m ρ c
theorem win5_4 : V11 m ρ c (Pipeline.arrRef spec5 4) = m ((c.tc : Thread nD τ).loc main_arg10) := at11_main_arg10 m ρ c

/-- The layer's output array is the reference's. -/
theorem stage5 (hh : W10 m ρ c (Proc.devRef .tc main_v147) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))) :
    W12 m ρ c (Proc.devRef .tc main_v160) = val_main_v260 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W12_arr m ρ c 5).trans ?_
  funext i
  obtain ⟨p, q, rfl⟩ : ∃ (p : Fin 50000) (q : Fin 2), i = ValueIdx.ix2 p q := ⟨i 0, i 1, ValueIdx.eq_ix2 (n0 := 50000) (n1 := 2) i⟩
  exact (Cert.Sage.Region5.closed (V11 m ρ) c p q).trans
    ((Cert.Sage.outAt_congr (win5_0 m ρ c hh) (win5_1 m ρ c hh) (win5_2 m ρ c) (win5_3 m ρ c) (win5_4 m ρ c) p q).trans
      (Cert.Sage.RefLayers.layer5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) p q).symm)

end Cert.Sage.KChain

end
-- ==== Proof.KChain.lean ====
import proofs.«157926_j75625784148632_1_alg».proof.Proof.KLayer0
import proofs.«157926_j75625784148632_1_alg».proof.Proof.KLayer1
import proofs.«157926_j75625784148632_1_alg».proof.Proof.KLayer2
import proofs.«157926_j75625784148632_1_alg».proof.Proof.KLayer3
import proofs.«157926_j75625784148632_1_alg».proof.Proof.KLayer4
import proofs.«157926_j75625784148632_1_alg».proof.Proof.KLayer5

/-!
The kernel's result is the reference's.

Layer by layer the kernel's output array is the reference's layer output (each layer's equality feeds the next: the
aggregate and the previous features of layer k+1 are functions of layer k's output). After the last region the host pools:
a scatter-add of the 50000 × 2 output rows into the 512 graphs named by the batch argument, divided by the graphs' node
counts, at least one. Both programs pool with the same operations, so the results are equal as soon as the pooled arrays are.
-/

set_option maxRecDepth 16384

noncomputable section

namespace Cert.Sage.KChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

theorem out0 : W2 m ρ c (Proc.devRef .tc main_v39) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage0 m ρ c

theorem out1 : W4 m ρ c (Proc.devRef .tc main_v66) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage1 m ρ c (out0 m ρ c)

theorem out2 : W6 m ρ c (Proc.devRef .tc main_v93) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage2 m ρ c (out1 m ρ c)

theorem out3 : W8 m ρ c (Proc.devRef .tc main_v120) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage3 m ρ c (out2 m ρ c)

theorem out4 : W10 m ρ c (Proc.devRef .tc main_v147) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage4 m ρ c (out3 m ρ c)

theorem out5 : W12 m ρ c (Proc.devRef .tc main_v160) = val_main_v260 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  stage5 m ρ c (out4 m ρ c)

/-- The mean pool of the last layer's output. -/
theorem kernel_result :
    W13 m ρ c (Proc.devRef .tc main_v172) = val_main_v272 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps6 (W12 m ρ c) (Proc.devRef .tc main_v172) = _
  after_results_simp
  rw [out5 m ρ c, at12_main_arg12 m ρ c]
  rfl

end Cert.Sage.KChain

end
-- ==== Proof.RefChain0.lean ====
/- The reference program's hidden layer 0 (operations 0 to 68 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- Hidden layer 0 (operations 0 to 68), read back through its operations from any contents that hold the arguments:
    its output is its named value. -/
theorem stage0 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x11 : (⟨S2x1600000, .i32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7)
    (h11 : V (Proc.devRef .tc main_arg11) = x11) :
    after ops0 V (Proc.devRef .tc main_v58) = val_main_v58 (F := F) x0 x1 x2 x3 x4 x5 x6 x7 x11 := by
  after_results_simp
  rw [h0, h1, h2, h3, h4, h5, h6, h7, h11]
  rfl

/-- The sources of the edges: row 0 of the edge list, left in place by the rest of layer 0. -/
theorem stage0_src (V : Valuation τ sig (Elt F)) (x11 : (⟨S2x1600000, .i32⟩ : BufTy).Contents (Elt F))
    (h11 : V (Proc.devRef .tc main_arg11) = x11) :
    after ops0 V (Proc.devRef .tc main_v1) = val_main_v1 (F := F) x11 := by
  after_results_simp
  rw [h11]
  rfl

/-- The destinations of the edges: row 1 of the edge list. -/
theorem stage0_dst (V : Valuation τ sig (Elt F)) (x11 : (⟨S2x1600000, .i32⟩ : BufTy).Contents (Elt F))
    (h11 : V (Proc.devRef .tc main_arg11) = x11) :
    after ops0 V (Proc.devRef .tc main_v3) = val_main_v3 (F := F) x11 := by
  after_results_simp
  rw [h11]
  rfl

/-- The inverse of each node's in-degree (at least one), as a column. -/
theorem stage0_deg (V : Valuation τ sig (Elt F)) (x11 : (⟨S2x1600000, .i32⟩ : BufTy).Contents (Elt F))
    (h11 : V (Proc.devRef .tc main_arg11) = x11) :
    after ops0 V (Proc.devRef .tc main_v12) = val_main_v12 (F := F) x11 := by
  after_results_simp
  rw [h11]
  rfl

/-- The buffers the operations of stretch 0 write. -/
noncomputable def written0 : List (Ref sig .tc) :=
  [main_v0, main_v1, main_v2, main_v3, main_cst, main_v4, main_cst_0, main_v5, main_v6, main_v7,
   main_cst_1, main_v8, main_v9, main_cst_2, main_v10, main_v11, main_v12, main_v13, main_v14, main_v15,
   main_v16, main_v17, main_v18, main_c, main_v19, main_v20, main_c_3, main_v21, main_v22, main_v23,
   main_v24, main_v25, main_cst_4, main_v26, main_v27, main_v28, main_v29, main_v30, main_v31, main_v32,
   main_v33, main_v34, main_v35, main_v36, main_v37, main_v38, main_v39, main_v40, main_v41, main_v42,
   main_v43, main_v44, main_v45, main_cst_5, main_v46, main_v47, main_v48, main_v49, main_v50, main_v51,
   main_v52, main_v53, main_v54, main_v55, main_v56, main_v57, main_call0_cst, main_call0_v0, main_v58]

/-- Every operation of stretch 0 writes only its own result buffer, one of the listed ones. -/
theorem writes0 : (ops0 : List (HloOp τ sig (Elt F))).Forall
    fun op => op.writes ⊆ (written0.map (Proc.devRef (τ := τ) .tc)).toFinset := by
  simp only [ops0, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 0 does not write keeps its contents through it. -/
theorem kept0 (V : Valuation τ sig (Elt F)) {r : Ref sig .tc} (hr : r ∉ written0) :
    after ops0 V (Proc.devRef .tc r) = V (Proc.devRef .tc r) :=
  after_of_writes_sub _ V writes0 hr

end Cert.Sage.RefChain

end
-- ==== Proof.RefChain1.lean ====
/- The reference program's hidden layer 1 (operations 69 to 120 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- Hidden layer 1 (operations 69 to 120), read back through its operations from any contents that hold the previous
    layer's output, the edge endpoints, the inverse degree and the arguments at their named values: its output is
    its named value. -/
theorem stage1 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x11 : (⟨S2x1600000, .i32⟩ : BufTy).Contents (Elt F))
    (hprev : V (Proc.devRef .tc main_v58) = val_main_v58 (F := F) x0 x1 x2 x3 x4 x5 x6 x7 x11)
    (hsrc : V (Proc.devRef .tc main_v1) = val_main_v1 (F := F) x11)
    (hdst : V (Proc.devRef .tc main_v3) = val_main_v3 (F := F) x11)
    (hdeg : V (Proc.devRef .tc main_v12) = val_main_v12 (F := F) x11)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7) :
    after ops1 V (Proc.devRef .tc main_v104) = val_main_v104 (F := F) x0 x1 x2 x3 x4 x5 x6 x7 x11 := by
  after_results_simp
  rw [hprev, hsrc, hdst, hdeg, h1, h2, h3, h4, h5, h6, h7]
  rfl

/-- The buffers the operations of stretch 1 write. -/
noncomputable def written1 : List (Ref sig .tc) :=
  [main_v59, main_v60, main_v61, main_v62, main_v63, main_v64, main_c_6, main_v65, main_v66, main_c_7,
   main_v67, main_v68, main_v69, main_v70, main_v71, main_cst_8, main_v72, main_v73, main_v74, main_v75,
   main_v76, main_v77, main_v78, main_v79, main_v80, main_v81, main_v82, main_v83, main_v84, main_v85,
   main_v86, main_v87, main_v88, main_v89, main_v90, main_v91, main_cst_9, main_v92, main_v93, main_v94,
   main_v95, main_v96, main_v97, main_v98, main_v99, main_v100, main_v101, main_v102, main_v103, main_call1_cst,
   main_call1_v0, main_v104]

/-- Every operation of stretch 1 writes only its own result buffer, one of the listed ones. -/
theorem writes1 : (ops1 : List (HloOp τ sig (Elt F))).Forall
    fun op => op.writes ⊆ (written1.map (Proc.devRef (τ := τ) .tc)).toFinset := by
  simp only [ops1, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 1 does not write keeps its contents through it. -/
theorem kept1 (V : Valuation τ sig (Elt F)) {r : Ref sig .tc} (hr : r ∉ written1) :
    after ops1 V (Proc.devRef .tc r) = V (Proc.devRef .tc r) :=
  after_of_writes_sub _ V writes1 hr

end Cert.Sage.RefChain

end
-- ==== Proof.RefChain2.lean ====
/- The reference program's hidden layer 2 (operations 121 to 172 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- Hidden layer 2 (operations 121 to 172), read back through its operations from any contents that hold the previous
    layer's output, the edge endpoints, the inverse degree and the arguments at their named values: its output is
    its named value. -/
theorem stage2 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x11 : (⟨S2x1600000, .i32⟩ : BufTy).Contents (Elt F))
    (hprev : V (Proc.devRef .tc main_v104) = val_main_v104 (F := F) x0 x1 x2 x3 x4 x5 x6 x7 x11)
    (hsrc : V (Proc.devRef .tc main_v1) = val_main_v1 (F := F) x11)
    (hdst : V (Proc.devRef .tc main_v3) = val_main_v3 (F := F) x11)
    (hdeg : V (Proc.devRef .tc main_v12) = val_main_v12 (F := F) x11)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7) :
    after ops2 V (Proc.devRef .tc main_v150) = val_main_v150 (F := F) x0 x1 x2 x3 x4 x5 x6 x7 x11 := by
  after_results_simp
  rw [hprev, hsrc, hdst, hdeg, h1, h2, h3, h4, h5, h6, h7]
  rfl

/-- The buffers the operations of stretch 2 write. -/
noncomputable def written2 : List (Ref sig .tc) :=
  [main_v105, main_v106, main_v107, main_v108, main_v109, main_v110, main_c_10, main_v111, main_v112, main_c_11,
   main_v113, main_v114, main_v115, main_v116, main_v117, main_cst_12, main_v118, main_v119, main_v120, main_v121,
   main_v122, main_v123, main_v124, main_v125, main_v126, main_v127, main_v128, main_v129, main_v130, main_v131,
   main_v132, main_v133, main_v134, main_v135, main_v136, main_v137, main_cst_13, main_v138, main_v139, main_v140,
   main_v141, main_v142, main_v143, main_v144, main_v145, main_v146, main_v147, main_v148, main_v149, main_call2_cst,
   main_call2_v0, main_v150]

/-- Every operation of stretch 2 writes only its own result buffer, one of the listed ones. -/
theorem writes2 : (ops2 : List (HloOp τ sig (Elt F))).Forall
    fun op => op.writes ⊆ (written2.map (Proc.devRef (τ := τ) .tc)).toFinset := by
  simp only [ops2, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 2 does not write keeps its contents through it. -/
theorem kept2 (V : Valuation τ sig (Elt F)) {r : Ref sig .tc} (hr : r ∉ written2) :
    after ops2 V (Proc.devRef .tc r) = V (Proc.devRef .tc r) :=
  after_of_writes_sub _ V writes2 hr

end Cert.Sage.RefChain

end
-- ==== Proof.RefChain3.lean ====
/- The reference program's hidden layer 3 (operations 173 to 224 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- Hidden layer 3 (operations 173 to 224), read back through its operations from any contents that hold the previous
    layer's output, the edge endpoints, the inverse degree and the arguments at their named values: its output is
    its named value. -/
theorem stage3 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x11 : (⟨S2x1600000, .i32⟩ : BufTy).Contents (Elt F))
    (hprev : V (Proc.devRef .tc main_v150) = val_main_v150 (F := F) x0 x1 x2 x3 x4 x5 x6 x7 x11)
    (hsrc : V (Proc.devRef .tc main_v1) = val_main_v1 (F := F) x11)
    (hdst : V (Proc.devRef .tc main_v3) = val_main_v3 (F := F) x11)
    (hdeg : V (Proc.devRef .tc main_v12) = val_main_v12 (F := F) x11)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7) :
    after ops3 V (Proc.devRef .tc main_v196) = val_main_v196 (F := F) x0 x1 x2 x3 x4 x5 x6 x7 x11 := by
  after_results_simp
  rw [hprev, hsrc, hdst, hdeg, h1, h2, h3, h4, h5, h6, h7]
  rfl

/-- The buffers the operations of stretch 3 write. -/
noncomputable def written3 : List (Ref sig .tc) :=
  [main_v151, main_v152, main_v153, main_v154, main_v155, main_v156, main_c_14, main_v157, main_v158, main_c_15,
   main_v159, main_v160, main_v161, main_v162, main_v163, main_cst_16, main_v164, main_v165, main_v166, main_v167,
   main_v168, main_v169, main_v170, main_v171, main_v172, main_v173, main_v174, main_v175, main_v176, main_v177,
   main_v178, main_v179, main_v180, main_v181, main_v182, main_v183, main_cst_17, main_v184, main_v185, main_v186,
   main_v187, main_v188, main_v189, main_v190, main_v191, main_v192, main_v193, main_v194, main_v195, main_call3_cst,
   main_call3_v0, main_v196]

/-- Every operation of stretch 3 writes only its own result buffer, one of the listed ones. -/
theorem writes3 : (ops3 : List (HloOp τ sig (Elt F))).Forall
    fun op => op.writes ⊆ (written3.map (Proc.devRef (τ := τ) .tc)).toFinset := by
  simp only [ops3, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 3 does not write keeps its contents through it. -/
theorem kept3 (V : Valuation τ sig (Elt F)) {r : Ref sig .tc} (hr : r ∉ written3) :
    after ops3 V (Proc.devRef .tc r) = V (Proc.devRef .tc r) :=
  after_of_writes_sub _ V writes3 hr

end Cert.Sage.RefChain

end
-- ==== Proof.RefChain4.lean ====
/- The reference program's hidden layer 4 (operations 225 to 276 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- Hidden layer 4 (operations 225 to 276), read back through its operations from any contents that hold the previous
    layer's output, the edge endpoints, the inverse degree and the arguments at their named values: its output is
    its named value. -/
theorem stage4 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x11 : (⟨S2x1600000, .i32⟩ : BufTy).Contents (Elt F))
    (hprev : V (Proc.devRef .tc main_v196) = val_main_v196 (F := F) x0 x1 x2 x3 x4 x5 x6 x7 x11)
    (hsrc : V (Proc.devRef .tc main_v1) = val_main_v1 (F := F) x11)
    (hdst : V (Proc.devRef .tc main_v3) = val_main_v3 (F := F) x11)
    (hdeg : V (Proc.devRef .tc main_v12) = val_main_v12 (F := F) x11)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7) :
    after ops4 V (Proc.devRef .tc main_v242) = val_main_v242 (F := F) x0 x1 x2 x3 x4 x5 x6 x7 x11 := by
  after_results_simp
  rw [hprev, hsrc, hdst, hdeg, h1, h2, h3, h4, h5, h6, h7]
  rfl

/-- The buffers the operations of stretch 4 write. -/
noncomputable def written4 : List (Ref sig .tc) :=
  [main_v197, main_v198, main_v199, main_v200, main_v201, main_v202, main_c_18, main_v203, main_v204, main_c_19,
   main_v205, main_v206, main_v207, main_v208, main_v209, main_cst_20, main_v210, main_v211, main_v212, main_v213,
   main_v214, main_v215, main_v216, main_v217, main_v218, main_v219, main_v220, main_v221, main_v222, main_v223,
   main_v224, main_v225, main_v226, main_v227, main_v228, main_v229, main_cst_21, main_v230, main_v231, main_v232,
   main_v233, main_v234, main_v235, main_v236, main_v237, main_v238, main_v239, main_v240, main_v241, main_call4_cst,
   main_call4_v0, main_v242]

/-- Every operation of stretch 4 writes only its own result buffer, one of the listed ones. -/
theorem writes4 : (ops4 : List (HloOp τ sig (Elt F))).Forall
    fun op => op.writes ⊆ (written4.map (Proc.devRef (τ := τ) .tc)).toFinset := by
  simp only [ops4, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 4 does not write keeps its contents through it. -/
theorem kept4 (V : Valuation τ sig (Elt F)) {r : Ref sig .tc} (hr : r ∉ written4) :
    after ops4 V (Proc.devRef .tc r) = V (Proc.devRef .tc r) :=
  after_of_writes_sub _ V writes4 hr

end Cert.Sage.RefChain

end
-- ==== Proof.RefChain5.lean ====
/- The reference program's last layer (operations 277 to 297 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- The last layer (operations 277 to 297), read back through its operations from any contents that hold hidden
    layer 4's output, the edge endpoints, the inverse degree and the arguments at their named values: its output
    is its named value. -/
theorem stage5 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x8 : (⟨S128x2, .f32⟩ : BufTy).Contents (Elt F)) (x9 : (⟨S128x2, .f32⟩ : BufTy).Contents (Elt F)) (x10 : (⟨S2, .f32⟩ : BufTy).Contents (Elt F)) (x11 : (⟨S2x1600000, .i32⟩ : BufTy).Contents (Elt F))
    (hprev : V (Proc.devRef .tc main_v242) = val_main_v242 (F := F) x0 x1 x2 x3 x4 x5 x6 x7 x11)
    (hsrc : V (Proc.devRef .tc main_v1) = val_main_v1 (F := F) x11)
    (hdst : V (Proc.devRef .tc main_v3) = val_main_v3 (F := F) x11)
    (hdeg : V (Proc.devRef .tc main_v12) = val_main_v12 (F := F) x11)
    (h8 : V (Proc.devRef .tc main_arg8) = x8)
    (h9 : V (Proc.devRef .tc main_arg9) = x9)
    (h10 : V (Proc.devRef .tc main_arg10) = x10) :
    after ops5 V (Proc.devRef .tc main_v260) = val_main_v260 (F := F) x0 x1 x2 x3 x4 x5 x6 x7 x8 x9 x10 x11 := by
  after_results_simp
  rw [hprev, hsrc, hdst, hdeg, h8, h9, h10]
  rfl

/-- The buffers the operations of stretch 5 write. -/
noncomputable def written5 : List (Ref sig .tc) :=
  [main_c_22, main_v243, main_v244, main_c_23, main_v245, main_v246, main_v247, main_v248, main_v249, main_cst_24,
   main_v250, main_v251, main_v252, main_v253, main_v254, main_v255, main_v256, main_v257, main_v258, main_v259,
   main_v260]

/-- Every operation of stretch 5 writes only its own result buffer, one of the listed ones. -/
theorem writes5 : (ops5 : List (HloOp τ sig (Elt F))).Forall
    fun op => op.writes ⊆ (written5.map (Proc.devRef (τ := τ) .tc)).toFinset := by
  simp only [ops5, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 5 does not write keeps its contents through it. -/
theorem kept5 (V : Valuation τ sig (Elt F)) {r : Ref sig .tc} (hr : r ∉ written5) :
    after ops5 V (Proc.devRef .tc r) = V (Proc.devRef .tc r) :=
  after_of_writes_sub _ V writes5 hr

end Cert.Sage.RefChain

end
-- ==== Proof.RefChain6.lean ====
/- The reference program's mean pool (operations 298 to 313 of @main), read back through its operation list. -/
import proofs.«157926_j75625784148632_1_alg».proof.Proof.RunP
import proofs.«157926_j75625784148632_1_alg».proof.Proof.ReadP

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 1000000 in
/-- The mean pool (operations 298 to 313), read back through its operations from any contents that hold the last
    layer's output at its named value and the graph assignment: the result is its named value. -/
theorem stage6 (V : Valuation τ sig (Elt F)) (x0 : (⟨S50000x128, .f32⟩ : BufTy).Contents (Elt F)) (x1 : (⟨S5x128x128, .f32⟩ : BufTy).Contents (Elt F)) (x2 : (⟨S5x128x128, .f32⟩ : BufTy).Contents (Elt F)) (x3 : (⟨S5x128, .f32⟩ : BufTy).Contents (Elt F)) (x4 : (⟨S5x128, .f32⟩ : BufTy).Contents (Elt F)) (x5 : (⟨S5x128, .f32⟩ : BufTy).Contents (Elt F)) (x6 : (⟨S5x128, .f32⟩ : BufTy).Contents (Elt F)) (x7 : (⟨S5x128, .f32⟩ : BufTy).Contents (Elt F)) (x8 : (⟨S128x2, .f32⟩ : BufTy).Contents (Elt F)) (x9 : (⟨S128x2, .f32⟩ : BufTy).Contents (Elt F)) (x10 : (⟨S2, .f32⟩ : BufTy).Contents (Elt F)) (x11 : (⟨S2x1600000, .i32⟩ : BufTy).Contents (Elt F)) (x12 : (⟨S50000, .i32⟩ : BufTy).Contents (Elt F))
    (hprev : V (Proc.devRef .tc main_v260) = val_main_v260 (F := F) x0 x1 x2 x3 x4 x5 x6 x7 x8 x9 x10 x11)
    (h12 : V (Proc.devRef .tc main_arg12) = x12) :
    after ops6 V (Proc.devRef .tc main_v272) = val_main_v272 (F := F) x0 x1 x2 x3 x4 x5 x6 x7 x8 x9 x10 x11 x12 := by
  after_results_simp
  rw [hprev, h12]
  rfl

/-- The buffers the operations of stretch 6 write. -/
noncomputable def written6 : List (Ref sig .tc) :=
  [main_cst_25, main_v261, main_v262, main_v263, main_cst_26, main_v264, main_cst_27, main_v265, main_v266, main_v267,
   main_cst_28, main_v268, main_v269, main_v270, main_v271, main_v272]

/-- Every operation of stretch 6 writes only its own result buffer, one of the listed ones. -/
theorem writes6 : (ops6 : List (HloOp τ sig (Elt F))).Forall
    fun op => op.writes ⊆ (written6.map (Proc.devRef (τ := τ) .tc)).toFinset := by
  simp only [ops6, List.Forall, TRef.nullary, TRef.unary, TRef.binary, TRef.of, nullary_writes, unary_writes, binary_writes,
    ternary_writes, reshape_writes, Finset.singleton_subset_iff]
  repeat' apply And.intro
  all_goals exact List.mem_toFinset.mpr (List.mem_map_of_mem (by decide))

/-- A buffer that stretch 6 does not write keeps its contents through it. -/
theorem kept6 (V : Valuation τ sig (Elt F)) {r : Ref sig .tc} (hr : r ∉ written6) :
    after ops6 V (Proc.devRef .tc r) = V (Proc.devRef .tc r) :=
  after_of_writes_sub _ V writes6 hr

end Cert.Sage.RefChain

end
-- ==== Proof.RefChain.lean ====
/- The reference program's result, read back through @main's whole operation list: the seven stretches one after
   the other, each layer's output kept as ONE named value that the next stretch reads. -/
import proofs.«157926_j75625784148632_1_alg».proof.Proof.RefChain0
import proofs.«157926_j75625784148632_1_alg».proof.Proof.RefChain1
import proofs.«157926_j75625784148632_1_alg».proof.Proof.RefChain2
import proofs.«157926_j75625784148632_1_alg».proof.Proof.RefChain3
import proofs.«157926_j75625784148632_1_alg».proof.Proof.RefChain4
import proofs.«157926_j75625784148632_1_alg».proof.Proof.RefChain5
import proofs.«157926_j75625784148632_1_alg».proof.Proof.RefChain6
import Idealize.ShloMosaic.Lib.Pipeline.Frame

noncomputable section

namespace Cert.Sage.RefChain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The fold of @main's operations is the fold of its seven stretches, one after the other. -/
theorem after_ops (V : Valuation τ sig (Elt F)) :
    after ops V = after ops6 (after ops5 (after ops4 (after ops3 (after ops2 (after ops1 (after ops0 V)))))) := by
  rw [ops_eq, after_append, after_append, after_append, after_append, after_append, after_append]

/-! ## The contents after each stretch, from the launch contents -/

/-- The buffer contents after hidden layer 0. -/
def R0 (m : (ℓ : Loc nD τ sig) → Buf (Elt F) ℓ) (c : Dev nD) : Valuation τ sig (Elt F) := after ops0 (launchContents m c)
/-- The buffer contents after hidden layer 1. -/
def R1 (m : (ℓ : Loc nD τ sig) → Buf (Elt F) ℓ) (c : Dev nD) : Valuation τ sig (Elt F) := after ops1 (R0 m c)
/-- The buffer contents after hidden layer 2. -/
def R2 (m : (ℓ : Loc nD τ sig) → Buf (Elt F) ℓ) (c : Dev nD) : Valuation τ sig (Elt F) := after ops2 (R1 m c)
/-- The buffer contents after hidden layer 3. -/
def R3 (m : (ℓ : Loc nD τ sig) → Buf (Elt F) ℓ) (c : Dev nD) : Valuation τ sig (Elt F) := after ops3 (R2 m c)
/-- The buffer contents after hidden layer 4. -/
def R4 (m : (ℓ : Loc nD τ sig) → Buf (Elt F) ℓ) (c : Dev nD) : Valuation τ sig (Elt F) := after ops4 (R3 m c)
/-- The buffer contents after the last layer. -/
def R5 (m : (ℓ : Loc nD τ sig) → Buf (Elt F) ℓ) (c : Dev nD) : Valuation τ sig (Elt F) := after ops5 (R4 m c)
/-- The buffer contents after the mean pool. -/
def R6 (m : (ℓ : Loc nD τ sig) → Buf (Elt F) ℓ) (c : Dev nD) : Valuation τ sig (Elt F) := after ops6 (R5 m c)

/-! ## Stretch 0 -/

theorem R0_out (m : (ℓ : Loc nD τ sig) → Buf (Elt F) ℓ) (c : Dev nD) :
    R0 m c (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage0 (launchContents m c) _ _ _ _ _ _ _ _ _ rfl rfl rfl rfl rfl rfl rfl rfl rfl

theorem R0_src (m : (ℓ : Loc nD τ sig) → Buf (Elt F) ℓ) (c : Dev nD) :
    R0 m c (Proc.devRef .tc main_v1) = val_main_v1 (F := F) (m ((c.tc : Thread nD τ).loc main_arg11)) :=
  stage0_src (launchContents m c) _ rfl

theorem R0_dst (m : (ℓ : Loc nD τ sig) → Buf (Elt F) ℓ) (c : Dev nD) :
    R0 m c (Proc.devRef .tc main_v3) = val_main_v3 (F := F) (m ((c.tc : Thread nD τ).loc main_arg11)) :=
  stage0_dst (launchContents m c) _ rfl

theorem R0_deg (m : (ℓ : Loc nD τ sig) → Buf (Elt F) ℓ) (c : Dev nD) :
    R0 m c (Proc.devRef .tc main_v12) = val_main_v12 (F := F) (m ((c.tc : Thread nD τ).loc main_arg11)) :=
  stage0_deg (launchContents m c) _ rfl

theorem R0_arg1 (m : (ℓ : Loc nD τ sig) → Buf (Elt F) ℓ) (c : Dev nD) :
    R0 m c (Proc.devRef .tc main_arg1) = (m ((c.tc : Thread nD τ).loc main_arg1)) :=
  kept0 (launchContents m c) (by decide)

theorem R0_arg2 (m : (ℓ : Loc nD τ sig) → Buf (Elt F) ℓ) (c : Dev nD) :
    R0 m c (Proc.devRef .tc main_arg2) = (m ((c.tc : Thread nD τ).loc main_arg2)) :=
  kept0 (launchContents m c) (by decide)

theorem R0_arg3 (m : (ℓ : Loc nD τ sig) → Buf (Elt F) ℓ) (c : Dev nD) :
    R0 m c (Proc.devRef .tc main_arg3) = (m ((c.tc : Thread nD τ).loc main_arg3)) :=
  kept0 (launchContents m c) (by decide)

theorem R0_arg4 (m : (ℓ : Loc nD τ sig) → Buf (Elt F) ℓ) (c : Dev nD) :
    R0 m c (Proc.devRef .tc main_arg4) = (m ((c.tc : Thread nD τ).loc main_arg4)) :=
  kept0 (launchContents m c) (by decide)

theorem R0_arg5 (m : (ℓ : Loc nD τ sig) → Buf (Elt F) ℓ) (c : Dev nD) :
    R0 m c (Proc.devRef .tc main_arg5) = (m ((c.tc : Thread nD τ).loc main_arg5)) :=
  kept0 (launchContents m c) (by decide)

theorem R0_arg6 (m : (ℓ : Loc nD τ sig) → Buf (Elt F) ℓ) (c : Dev nD) :
    R0 m c (Proc.devRef .tc main_arg6) = (m ((c.tc : Thread nD τ).loc main_arg6)) :=
  kept0 (launchContents m c) (by decide)

theorem R0_arg7 (m : (ℓ : Loc nD τ sig) → Buf (Elt F) ℓ) (c : Dev nD) :
    R0 m c (Proc.devRef .tc main_arg7) = (m ((c.tc : Thread nD τ).loc main_arg7)) :=
  kept0 (launchContents m c) (by decide)

theorem R0_arg8 (m : (ℓ : Loc nD τ sig) → Buf (Elt F) ℓ) (c : Dev nD) :
    R0 m c (Proc.devRef .tc main_arg8) = (m ((c.tc : Thread nD τ).loc main_arg8)) :=
  kept0 (launchContents m c) (by decide)

theorem R0_arg9 (m : (ℓ : Loc nD τ sig) → Buf (Elt F) ℓ) (c : Dev nD) :
    R0 m c (Proc.devRef .tc main_arg9) = (m ((c.tc : Thread nD τ).loc main_arg9)) :=
  kept0 (launchContents m c) (by decide)

theorem R0_arg10 (m : (ℓ : Loc nD τ sig) → Buf (Elt F) ℓ) (c : Dev nD) :
    R0 m c (Proc.devRef .tc main_arg10) = (m ((c.tc : Thread nD τ).loc main_arg10)) :=
  kept0 (launchContents m c) (by decide)

theorem R0_arg12 (m : (ℓ : Loc nD τ sig) → Buf (Elt F) ℓ) (c : Dev nD) :
    R0 m c (Proc.devRef .tc main_arg12) = (m ((c.tc : Thread nD τ).loc main_arg12)) :=
  kept0 (launchContents m c) (by decide)

/-! ## Stretch 1 -/

theorem R1_out (m : (ℓ : Loc nD τ sig) → Buf (Elt F) ℓ) (c : Dev nD) :
    R1 m c (Proc.devRef .tc main_v104) = val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage1 (R0 m c) _ _ _ _ _ _ _ _ _ (R0_out m c) (R0_src m c) (R0_dst m c) (R0_deg m c)
    (R0_arg1 m c) (R0_arg2 m c) (R0_arg3 m c) (R0_arg4 m c) (R0_arg5 m c) (R0_arg6 m c) (R0_arg7 m c)

theorem R1_src (m : (ℓ : Loc nD τ sig) → Buf (Elt F) ℓ) (c : Dev nD) :
    R1 m c (Proc.devRef .tc main_v1) = val_main_v1 (F := F) (m ((c.tc : Thread nD τ).loc main_arg11)) :=
  (kept1 (R0 m c) (by decide)).trans (R0_src m c)

theorem R1_dst (m : (ℓ : Loc nD τ sig) → Buf (Elt F) ℓ) (c : Dev nD) :
    R1 m c (Proc.devRef .tc main_v3) = val_main_v3 (F := F) (m ((c.tc : Thread nD τ).loc main_arg11)) :=
  (kept1 (R0 m c) (by decide)).trans (R0_dst m c)

theorem R1_deg (m : (ℓ : Loc nD τ sig) → Buf (Elt F) ℓ) (c : Dev nD) :
    R1 m c (Proc.devRef .tc main_v12) = val_main_v12 (F := F) (m ((c.tc : Thread nD τ).loc main_arg11)) :=
  (kept1 (R0 m c) (by decide)).trans (R0_deg m c)

theorem R1_arg1 (m : (ℓ : Loc nD τ sig) → Buf (Elt F) ℓ) (c : Dev nD) :
    R1 m c (Proc.devRef .tc main_arg1) = (m ((c.tc : Thread nD τ).loc main_arg1)) :=
  (kept1 (R0 m c) (by decide)).trans (R0_arg1 m c)

theorem R1_arg2 (m : (ℓ : Loc nD τ sig) → Buf (Elt F) ℓ) (c : Dev nD) :
    R1 m c (Proc.devRef .tc main_arg2) = (m ((c.tc : Thread nD τ).loc main_arg2)) :=
  (kept1 (R0 m c) (by decide)).trans (R0_arg2 m c)

theorem R1_arg3 (m : (ℓ : Loc nD τ sig) → Buf (Elt F) ℓ) (c : Dev nD) :
    R1 m c (Proc.devRef .tc main_arg3) = (m ((c.tc : Thread nD τ).loc main_arg3)) :=
  (kept1 (R0 m c) (by decide)).trans (R0_arg3 m c)

theorem R1_arg4 (m : (ℓ : Loc nD τ sig) → Buf (Elt F) ℓ) (c : Dev nD) :
    R1 m c (Proc.devRef .tc main_arg4) = (m ((c.tc : Thread nD τ).loc main_arg4)) :=
  (kept1 (R0 m c) (by decide)).trans (R0_arg4 m c)

theorem R1_arg5 (m : (ℓ : Loc nD τ sig) → Buf (Elt F) ℓ) (c : Dev nD) :
    R1 m c (Proc.devRef .tc main_arg5) = (m ((c.tc : Thread nD τ).loc main_arg5)) :=
  (kept1 (R0 m c) (by decide)).trans (R0_arg5 m c)

theorem R1_arg6 (m : (ℓ : Loc nD τ sig) → Buf (Elt F) ℓ) (c : Dev nD) :
    R1 m c (Proc.devRef .tc main_arg6) = (m ((c.tc : Thread nD τ).loc main_arg6)) :=
  (kept1 (R0 m c) (by decide)).trans (R0_arg6 m c)

theorem R1_arg7 (m : (ℓ : Loc nD τ sig) → Buf (Elt F) ℓ) (c : Dev nD) :
    R1 m c (Proc.devRef .tc main_arg7) = (m ((c.tc : Thread nD τ).loc main_arg7)) :=
  (kept1 (R0 m c) (by decide)).trans (R0_arg7 m c)

theorem R1_arg8 (m : (ℓ : Loc nD τ sig) → Buf (Elt F) ℓ) (c : Dev nD) :
    R1 m c (Proc.devRef .tc main_arg8) = (m ((c.tc : Thread nD τ).loc main_arg8)) :=
  (kept1 (R0 m c) (by decide)).trans (R0_arg8 m c)

theorem R1_arg9 (m : (ℓ : Loc nD τ sig) → Buf (Elt F) ℓ) (c : Dev nD) :
    R1 m c (Proc.devRef .tc main_arg9) = (m ((c.tc : Thread nD τ).loc main_arg9)) :=
  (kept1 (R0 m c) (by decide)).trans (R0_arg9 m c)

theorem R1_arg10 (m : (ℓ : Loc nD τ sig) → Buf (Elt F) ℓ) (c : Dev nD) :
    R1 m c (Proc.devRef .tc main_arg10) = (m ((c.tc : Thread nD τ).loc main_arg10)) :=
  (kept1 (R0 m c) (by decide)).trans (R0_arg10 m c)

theorem R1_arg12 (m : (ℓ : Loc nD τ sig) → Buf (Elt F) ℓ) (c : Dev nD) :
    R1 m c (Proc.devRef .tc main_arg12) = (m ((c.tc : Thread nD τ).loc main_arg12)) :=
  (kept1 (R0 m c) (by decide)).trans (R0_arg12 m c)

/-! ## Stretch 2 -/

theorem R2_out (m : (ℓ : Loc nD τ sig) → Buf (Elt F) ℓ) (c : Dev nD) :
    R2 m c (Proc.devRef .tc main_v150) = val_main_v150 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage2 (R1 m c) _ _ _ _ _ _ _ _ _ (R1_out m c) (R1_src m c) (R1_dst m c) (R1_deg m c)
    (R1_arg1 m c) (R1_arg2 m c) (R1_arg3 m c) (R1_arg4 m c) (R1_arg5 m c) (R1_arg6 m c) (R1_arg7 m c)

theorem R2_src (m : (ℓ : Loc nD τ sig) → Buf (Elt F) ℓ) (c : Dev nD) :
    R2 m c (Proc.devRef .tc main_v1) = val_main_v1 (F := F) (m ((c.tc : Thread nD τ).loc main_arg11)) :=
  (kept2 (R1 m c) (by decide)).trans (R1_src m c)

theorem R2_dst (m : (ℓ : Loc nD τ sig) → Buf (Elt F) ℓ) (c : Dev nD) :
    R2 m c (Proc.devRef .tc main_v3) = val_main_v3 (F := F) (m ((c.tc : Thread nD τ).loc main_arg11)) :=
  (kept2 (R1 m c) (by decide)).trans (R1_dst m c)

theorem R2_deg (m : (ℓ : Loc nD τ sig) → Buf (Elt F) ℓ) (c : Dev nD) :
    R2 m c (Proc.devRef .tc main_v12) = val_main_v12 (F := F) (m ((c.tc : Thread nD τ).loc main_arg11)) :=
  (kept2 (R1 m c) (by decide)).trans (R1_deg m c)

theorem R2_arg1 (m : (ℓ : Loc nD τ sig) → Buf (Elt F) ℓ) (c : Dev nD) :
    R2 m c (Proc.devRef .tc main_arg1) = (m ((c.tc : Thread nD τ).loc main_arg1)) :=
  (kept2 (R1 m c) (by decide)).trans (R1_arg1 m c)

theorem R2_arg2 (m : (ℓ : Loc nD τ sig) → Buf (Elt F) ℓ) (c : Dev nD) :
    R2 m c (Proc.devRef .tc main_arg2) = (m ((c.tc : Thread nD τ).loc main_arg2)) :=
  (kept2 (R1 m c) (by decide)).trans (R1_arg2 m c)

theorem R2_arg3 (m : (ℓ : Loc nD τ sig) → Buf (Elt F) ℓ) (c : Dev nD) :
    R2 m c (Proc.devRef .tc main_arg3) = (m ((c.tc : Thread nD τ).loc main_arg3)) :=
  (kept2 (R1 m c) (by decide)).trans (R1_arg3 m c)

theorem R2_arg4 (m : (ℓ : Loc nD τ sig) → Buf (Elt F) ℓ) (c : Dev nD) :
    R2 m c (Proc.devRef .tc main_arg4) = (m ((c.tc : Thread nD τ).loc main_arg4)) :=
  (kept2 (R1 m c) (by decide)).trans (R1_arg4 m c)

theorem R2_arg5 (m : (ℓ : Loc nD τ sig) → Buf (Elt F) ℓ) (c : Dev nD) :
    R2 m c (Proc.devRef .tc main_arg5) = (m ((c.tc : Thread nD τ).loc main_arg5)) :=
  (kept2 (R1 m c) (by decide)).trans (R1_arg5 m c)

theorem R2_arg6 (m : (ℓ : Loc nD τ sig) → Buf (Elt F) ℓ) (c : Dev nD) :
    R2 m c (Proc.devRef .tc main_arg6) = (m ((c.tc : Thread nD τ).loc main_arg6)) :=
  (kept2 (R1 m c) (by decide)).trans (R1_arg6 m c)

theorem R2_arg7 (m : (ℓ : Loc nD τ sig) → Buf (Elt F) ℓ) (c : Dev nD) :
    R2 m c (Proc.devRef .tc main_arg7) = (m ((c.tc : Thread nD τ).loc main_arg7)) :=
  (kept2 (R1 m c) (by decide)).trans (R1_arg7 m c)

theorem R2_arg8 (m : (ℓ : Loc nD τ sig) → Buf (Elt F) ℓ) (c : Dev nD) :
    R2 m c (Proc.devRef .tc main_arg8) = (m ((c.tc : Thread nD τ).loc main_arg8)) :=
  (kept2 (R1 m c) (by decide)).trans (R1_arg8 m c)

theorem R2_arg9 (m : (ℓ : Loc nD τ sig) → Buf (Elt F) ℓ) (c : Dev nD) :
    R2 m c (Proc.devRef .tc main_arg9) = (m ((c.tc : Thread nD τ).loc main_arg9)) :=
  (kept2 (R1 m c) (by decide)).trans (R1_arg9 m c)

theorem R2_arg10 (m : (ℓ : Loc nD τ sig) → Buf (Elt F) ℓ) (c : Dev nD) :
    R2 m c (Proc.devRef .tc main_arg10) = (m ((c.tc : Thread nD τ).loc main_arg10)) :=
  (kept2 (R1 m c) (by decide)).trans (R1_arg10 m c)

theorem R2_arg12 (m : (ℓ : Loc nD τ sig) → Buf (Elt F) ℓ) (c : Dev nD) :
    R2 m c (Proc.devRef .tc main_arg12) = (m ((c.tc : Thread nD τ).loc main_arg12)) :=
  (kept2 (R1 m c) (by decide)).trans (R1_arg12 m c)

/-! ## Stretch 3 -/

theorem R3_out (m : (ℓ : Loc nD τ sig) → Buf (Elt F) ℓ) (c : Dev nD) :
    R3 m c (Proc.devRef .tc main_v196) = val_main_v196 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage3 (R2 m c) _ _ _ _ _ _ _ _ _ (R2_out m c) (R2_src m c) (R2_dst m c) (R2_deg m c)
    (R2_arg1 m c) (R2_arg2 m c) (R2_arg3 m c) (R2_arg4 m c) (R2_arg5 m c) (R2_arg6 m c) (R2_arg7 m c)

theorem R3_src (m : (ℓ : Loc nD τ sig) → Buf (Elt F) ℓ) (c : Dev nD) :
    R3 m c (Proc.devRef .tc main_v1) = val_main_v1 (F := F) (m ((c.tc : Thread nD τ).loc main_arg11)) :=
  (kept3 (R2 m c) (by decide)).trans (R2_src m c)

theorem R3_dst (m : (ℓ : Loc nD τ sig) → Buf (Elt F) ℓ) (c : Dev nD) :
    R3 m c (Proc.devRef .tc main_v3) = val_main_v3 (F := F) (m ((c.tc : Thread nD τ).loc main_arg11)) :=
  (kept3 (R2 m c) (by decide)).trans (R2_dst m c)

theorem R3_deg (m : (ℓ : Loc nD τ sig) → Buf (Elt F) ℓ) (c : Dev nD) :
    R3 m c (Proc.devRef .tc main_v12) = val_main_v12 (F := F) (m ((c.tc : Thread nD τ).loc main_arg11)) :=
  (kept3 (R2 m c) (by decide)).trans (R2_deg m c)

theorem R3_arg1 (m : (ℓ : Loc nD τ sig) → Buf (Elt F) ℓ) (c : Dev nD) :
    R3 m c (Proc.devRef .tc main_arg1) = (m ((c.tc : Thread nD τ).loc main_arg1)) :=
  (kept3 (R2 m c) (by decide)).trans (R2_arg1 m c)

theorem R3_arg2 (m : (ℓ : Loc nD τ sig) → Buf (Elt F) ℓ) (c : Dev nD) :
    R3 m c (Proc.devRef .tc main_arg2) = (m ((c.tc : Thread nD τ).loc main_arg2)) :=
  (kept3 (R2 m c) (by decide)).trans (R2_arg2 m c)

theorem R3_arg3 (m : (ℓ : Loc nD τ sig) → Buf (Elt F) ℓ) (c : Dev nD) :
    R3 m c (Proc.devRef .tc main_arg3) = (m ((c.tc : Thread nD τ).loc main_arg3)) :=
  (kept3 (R2 m c) (by decide)).trans (R2_arg3 m c)

theorem R3_arg4 (m : (ℓ : Loc nD τ sig) → Buf (Elt F) ℓ) (c : Dev nD) :
    R3 m c (Proc.devRef .tc main_arg4) = (m ((c.tc : Thread nD τ).loc main_arg4)) :=
  (kept3 (R2 m c) (by decide)).trans (R2_arg4 m c)

theorem R3_arg5 (m : (ℓ : Loc nD τ sig) → Buf (Elt F) ℓ) (c : Dev nD) :
    R3 m c (Proc.devRef .tc main_arg5) = (m ((c.tc : Thread nD τ).loc main_arg5)) :=
  (kept3 (R2 m c) (by decide)).trans (R2_arg5 m c)

theorem R3_arg6 (m : (ℓ : Loc nD τ sig) → Buf (Elt F) ℓ) (c : Dev nD) :
    R3 m c (Proc.devRef .tc main_arg6) = (m ((c.tc : Thread nD τ).loc main_arg6)) :=
  (kept3 (R2 m c) (by decide)).trans (R2_arg6 m c)

theorem R3_arg7 (m : (ℓ : Loc nD τ sig) → Buf (Elt F) ℓ) (c : Dev nD) :
    R3 m c (Proc.devRef .tc main_arg7) = (m ((c.tc : Thread nD τ).loc main_arg7)) :=
  (kept3 (R2 m c) (by decide)).trans (R2_arg7 m c)

theorem R3_arg8 (m : (ℓ : Loc nD τ sig) → Buf (Elt F) ℓ) (c : Dev nD) :
    R3 m c (Proc.devRef .tc main_arg8) = (m ((c.tc : Thread nD τ).loc main_arg8)) :=
  (kept3 (R2 m c) (by decide)).trans (R2_arg8 m c)

theorem R3_arg9 (m : (ℓ : Loc nD τ sig) → Buf (Elt F) ℓ) (c : Dev nD) :
    R3 m c (Proc.devRef .tc main_arg9) = (m ((c.tc : Thread nD τ).loc main_arg9)) :=
  (kept3 (R2 m c) (by decide)).trans (R2_arg9 m c)

theorem R3_arg10 (m : (ℓ : Loc nD τ sig) → Buf (Elt F) ℓ) (c : Dev nD) :
    R3 m c (Proc.devRef .tc main_arg10) = (m ((c.tc : Thread nD τ).loc main_arg10)) :=
  (kept3 (R2 m c) (by decide)).trans (R2_arg10 m c)

theorem R3_arg12 (m : (ℓ : Loc nD τ sig) → Buf (Elt F) ℓ) (c : Dev nD) :
    R3 m c (Proc.devRef .tc main_arg12) = (m ((c.tc : Thread nD τ).loc main_arg12)) :=
  (kept3 (R2 m c) (by decide)).trans (R2_arg12 m c)

/-! ## Stretch 4 -/

theorem R4_out (m : (ℓ : Loc nD τ sig) → Buf (Elt F) ℓ) (c : Dev nD) :
    R4 m c (Proc.devRef .tc main_v242) = val_main_v242 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) :=
  stage4 (R3 m c) _ _ _ _ _ _ _ _ _ (R3_out m c) (R3_src m c) (R3_dst m c) (R3_deg m c)
    (R3_arg1 m c) (R3_arg2 m c) (R3_arg3 m c) (R3_arg4 m c) (R3_arg5 m c) (R3_arg6 m c) (R3_arg7 m c)

theorem R4_src (m : (ℓ : Loc nD τ sig) → Buf (Elt F) ℓ) (c : Dev nD) :
    R4 m c (Proc.devRef .tc main_v1) = val_main_v1 (F := F) (m ((c.tc : Thread nD τ).loc main_arg11)) :=
  (kept4 (R3 m c) (by decide)).trans (R3_src m c)

theorem R4_dst (m : (ℓ : Loc nD τ sig) → Buf (Elt F) ℓ) (c : Dev nD) :
    R4 m c (Proc.devRef .tc main_v3) = val_main_v3 (F := F) (m ((c.tc : Thread nD τ).loc main_arg11)) :=
  (kept4 (R3 m c) (by decide)).trans (R3_dst m c)

theorem R4_deg (m : (ℓ : Loc nD τ sig) → Buf (Elt F) ℓ) (c : Dev nD) :
    R4 m c (Proc.devRef .tc main_v12) = val_main_v12 (F := F) (m ((c.tc : Thread nD τ).loc main_arg11)) :=
  (kept4 (R3 m c) (by decide)).trans (R3_deg m c)

theorem R4_arg8 (m : (ℓ : Loc nD τ sig) → Buf (Elt F) ℓ) (c : Dev nD) :
    R4 m c (Proc.devRef .tc main_arg8) = (m ((c.tc : Thread nD τ).loc main_arg8)) :=
  (kept4 (R3 m c) (by decide)).trans (R3_arg8 m c)

theorem R4_arg9 (m : (ℓ : Loc nD τ sig) → Buf (Elt F) ℓ) (c : Dev nD) :
    R4 m c (Proc.devRef .tc main_arg9) = (m ((c.tc : Thread nD τ).loc main_arg9)) :=
  (kept4 (R3 m c) (by decide)).trans (R3_arg9 m c)

theorem R4_arg10 (m : (ℓ : Loc nD τ sig) → Buf (Elt F) ℓ) (c : Dev nD) :
    R4 m c (Proc.devRef .tc main_arg10) = (m ((c.tc : Thread nD τ).loc main_arg10)) :=
  (kept4 (R3 m c) (by decide)).trans (R3_arg10 m c)

theorem R4_arg12 (m : (ℓ : Loc nD τ sig) → Buf (Elt F) ℓ) (c : Dev nD) :
    R4 m c (Proc.devRef .tc main_arg12) = (m ((c.tc : Thread nD τ).loc main_arg12)) :=
  (kept4 (R3 m c) (by decide)).trans (R3_arg12 m c)

/-! ## The last layer and the mean pool -/

theorem R5_out (m : (ℓ : Loc nD τ sig) → Buf (Elt F) ℓ) (c : Dev nD) :
    R5 m c (Proc.devRef .tc main_v260) = val_main_v260 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  stage5 (R4 m c) _ _ _ _ _ _ _ _ _ _ _ _ (R4_out m c) (R4_src m c) (R4_dst m c) (R4_deg m c)
    (R4_arg8 m c) (R4_arg9 m c) (R4_arg10 m c)

theorem R5_arg12 (m : (ℓ : Loc nD τ sig) → Buf (Elt F) ℓ) (c : Dev nD) :
    R5 m c (Proc.devRef .tc main_arg12) = (m ((c.tc : Thread nD τ).loc main_arg12)) :=
  (kept5 (R4 m c) (by decide)).trans (R4_arg12 m c)

theorem R6_out (m : (ℓ : Loc nD τ sig) → Buf (Elt F) ℓ) (c : Dev nD) :
    R6 m c (Proc.devRef .tc main_v272) = val_main_v272 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  stage6 (R5 m c) _ _ _ _ _ _ _ _ _ _ _ _ _ (R5_out m c) (R5_arg12 m c)

/-- The reference program's result buffer after all of @main's operations, from the launch contents: its named
    value at the thirteen arguments. -/
theorem result (m : (ℓ : Loc nD τ sig) → Buf (Elt F) ℓ) (c : Dev nD) :
    StableHlo.after (ValueP.ops (F := F)) (launchContents m c) (Proc.devRef .tc main_v272)
      = ReadP.val_main_v272 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops]
  exact R6_out m c

/-! ## The arguments are left in place -/

/-- A buffer none of the seven stretches writes keeps its contents through all of @main's operations. -/
theorem kept_all (V : Valuation τ sig (Elt F)) {r : Ref sig .tc}
    (h0 : r ∉ written0) (h1 : r ∉ written1) (h2 : r ∉ written2) (h3 : r ∉ written3) (h4 : r ∉ written4)
    (h5 : r ∉ written5) (h6 : r ∉ written6) :
    after (ops (F := F)) V (Proc.devRef .tc r) = V (Proc.devRef .tc r) := by
  rw [after_ops, kept6 _ h6, kept5 _ h5, kept4 _ h4, kept3 _ h3, kept2 _ h2, kept1 _ h1, kept0 _ h0]

theorem arg0_kept (m : (ℓ : Loc nD τ sig) → Buf (Elt F) ℓ) (c : Dev nD) :
    StableHlo.after (ValueP.ops (F := F)) (launchContents m c) (Proc.devRef .tc main_arg0) = (m ((c.tc : Thread nD τ).loc main_arg0)) :=
  kept_all (launchContents m c) (by decide) (by decide) (by decide) (by decide) (by decide) (by decide) (by decide)

theorem arg1_kept (m : (ℓ : Loc nD τ sig) → Buf (Elt F) ℓ) (c : Dev nD) :
    StableHlo.after (ValueP.ops (F := F)) (launchContents m c) (Proc.devRef .tc main_arg1) = (m ((c.tc : Thread nD τ).loc main_arg1)) :=
  kept_all (launchContents m c) (by decide) (by decide) (by decide) (by decide) (by decide) (by decide) (by decide)

theorem arg2_kept (m : (ℓ : Loc nD τ sig) → Buf (Elt F) ℓ) (c : Dev nD) :
    StableHlo.after (ValueP.ops (F := F)) (launchContents m c) (Proc.devRef .tc main_arg2) = (m ((c.tc : Thread nD τ).loc main_arg2)) :=
  kept_all (launchContents m c) (by decide) (by decide) (by decide) (by decide) (by decide) (by decide) (by decide)

theorem arg3_kept (m : (ℓ : Loc nD τ sig) → Buf (Elt F) ℓ) (c : Dev nD) :
    StableHlo.after (ValueP.ops (F := F)) (launchContents m c) (Proc.devRef .tc main_arg3) = (m ((c.tc : Thread nD τ).loc main_arg3)) :=
  kept_all (launchContents m c) (by decide) (by decide) (by decide) (by decide) (by decide) (by decide) (by decide)

theorem arg4_kept (m : (ℓ : Loc nD τ sig) → Buf (Elt F) ℓ) (c : Dev nD) :
    StableHlo.after (ValueP.ops (F := F)) (launchContents m c) (Proc.devRef .tc main_arg4) = (m ((c.tc : Thread nD τ).loc main_arg4)) :=
  kept_all (launchContents m c) (by decide) (by decide) (by decide) (by decide) (by decide) (by decide) (by decide)

theorem arg5_kept (m : (ℓ : Loc nD τ sig) → Buf (Elt F) ℓ) (c : Dev nD) :
    StableHlo.after (ValueP.ops (F := F)) (launchContents m c) (Proc.devRef .tc main_arg5) = (m ((c.tc : Thread nD τ).loc main_arg5)) :=
  kept_all (launchContents m c) (by decide) (by decide) (by decide) (by decide) (by decide) (by decide) (by decide)

theorem arg6_kept (m : (ℓ : Loc nD τ sig) → Buf (Elt F) ℓ) (c : Dev nD) :
    StableHlo.after (ValueP.ops (F := F)) (launchContents m c) (Proc.devRef .tc main_arg6) = (m ((c.tc : Thread nD τ).loc main_arg6)) :=
  kept_all (launchContents m c) (by decide) (by decide) (by decide) (by decide) (by decide) (by decide) (by decide)

theorem arg7_kept (m : (ℓ : Loc nD τ sig) → Buf (Elt F) ℓ) (c : Dev nD) :
    StableHlo.after (ValueP.ops (F := F)) (launchContents m c) (Proc.devRef .tc main_arg7) = (m ((c.tc : Thread nD τ).loc main_arg7)) :=
  kept_all (launchContents m c) (by decide) (by decide) (by decide) (by decide) (by decide) (by decide) (by decide)

theorem arg8_kept (m : (ℓ : Loc nD τ sig) → Buf (Elt F) ℓ) (c : Dev nD) :
    StableHlo.after (ValueP.ops (F := F)) (launchContents m c) (Proc.devRef .tc main_arg8) = (m ((c.tc : Thread nD τ).loc main_arg8)) :=
  kept_all (launchContents m c) (by decide) (by decide) (by decide) (by decide) (by decide) (by decide) (by decide)

theorem arg9_kept (m : (ℓ : Loc nD τ sig) → Buf (Elt F) ℓ) (c : Dev nD) :
    StableHlo.after (ValueP.ops (F := F)) (launchContents m c) (Proc.devRef .tc main_arg9) = (m ((c.tc : Thread nD τ).loc main_arg9)) :=
  kept_all (launchContents m c) (by decide) (by decide) (by decide) (by decide) (by decide) (by decide) (by decide)

theorem arg10_kept (m : (ℓ : Loc nD τ sig) → Buf (Elt F) ℓ) (c : Dev nD) :
    StableHlo.after (ValueP.ops (F := F)) (launchContents m c) (Proc.devRef .tc main_arg10) = (m ((c.tc : Thread nD τ).loc main_arg10)) :=
  kept_all (launchContents m c) (by decide) (by decide) (by decide) (by decide) (by decide) (by decide) (by decide)

theorem arg11_kept (m : (ℓ : Loc nD τ sig) → Buf (Elt F) ℓ) (c : Dev nD) :
    StableHlo.after (ValueP.ops (F := F)) (launchContents m c) (Proc.devRef .tc main_arg11) = (m ((c.tc : Thread nD τ).loc main_arg11)) :=
  kept_all (launchContents m c) (by decide) (by decide) (by decide) (by decide) (by decide) (by decide) (by decide)

theorem arg12_kept (m : (ℓ : Loc nD τ sig) → Buf (Elt F) ℓ) (c : Dev nD) :
    StableHlo.after (ValueP.ops (F := F)) (launchContents m c) (Proc.devRef .tc main_arg12) = (m ((c.tc : Thread nD τ).loc main_arg12)) :=
  kept_all (launchContents m c) (by decide) (by decide) (by decide) (by decide) (by decide) (by decide) (by decide)

end Cert.Sage.RefChain

end
-- ==== Proof.lean ====
/-
  The certificate of a six-layer GraphSAGE network with batch normalization, relu and a mean pool over graphs: the kernel
  runs each layer's dense part (two matrix products, bias, the batch-norm affine map, relu) in a pipelined region over 25
  blocks of 2000 nodes, with the edge-wise gather and scatter-add on the host between the regions; the reference is the
  same network in plain array operations.

  At the ideal instance every float is an extended real and a change of float format is the identity, so both programs
  compute, layer by layer, one function of the arguments. The proof follows the layers:
  * the reference's stages are named one operation at a time (`val_main_vN`, Proof/ReadP.lean), each layer's output ONE name;
  * each region's output array is `Cert.Sage.denseAt` (`outAt` for the last layer) of the region's input arrays, index by
    index (Proof/Region0 … Region5 over Proof/Dense.lean), and so is the reference's layer (Proof/RefLayers.lean);
  * the host operations between the regions are the reference's own, so each region's inputs are the reference's stages
    (Proof/KLayer0 … KLayer5 over Proof/KKeep.lean), and the pooled result is the reference's (Proof/KChain.lean);
  * the reference's result buffer is its last stage (Proof/RefChain.lean over its run Proof/RunP.lean).
  The only law of the extended reals used is that a matrix product accumulated into zero is the plain sum; no
  finiteness of the inputs is needed. The three frames are the generated ones (the reference's is its run with the result
  dropped); the idealization rewrote no operation, so `preserves` is trivial.
-/
import proofs.«157926_j75625784148632_1_alg».proof.Defs
import proofs.«157926_j75625784148632_1_alg».proof.Proof.Gen.Kernel
import proofs.«157926_j75625784148632_1_alg».proof.Proof.Gen.Kernel.Frame
import proofs.«157926_j75625784148632_1_alg».proof.Proof.Gen.KernelIdeal
import proofs.«157926_j75625784148632_1_alg».proof.Proof.Gen.KernelIdeal.Frame
import proofs.«157926_j75625784148632_1_alg».proof.Proof.Gen.ReferenceIdeal
import proofs.«157926_j75625784148632_1_alg».proof.Proof.Gen.Pre_finite_inputs
import proofs.«157926_j75625784148632_1_alg».proof.Proof.KRun
import proofs.«157926_j75625784148632_1_alg».proof.Proof.KChain
import proofs.«157926_j75625784148632_1_alg».proof.Proof.RunP
import proofs.«157926_j75625784148632_1_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped: every argument's buffer ends as launched. -/
theorem frame_referenceIdeal : Cert.frame_ReferenceIdeal := fun m' ρ' _ =>
  (θ_run (Cert.ReferenceIdeal.defs (F := Ideal)) _ _).mono
    (fun _ h c => ⟨(h c Cert.ReferenceIdeal.main_arg0).trans (Cert.Sage.RefChain.arg0_kept m' c),
      (h c Cert.ReferenceIdeal.main_arg1).trans (Cert.Sage.RefChain.arg1_kept m' c),
      (h c Cert.ReferenceIdeal.main_arg2).trans (Cert.Sage.RefChain.arg2_kept m' c),
      (h c Cert.ReferenceIdeal.main_arg3).trans (Cert.Sage.RefChain.arg3_kept m' c),
      (h c Cert.ReferenceIdeal.main_arg4).trans (Cert.Sage.RefChain.arg4_kept m' c),
      (h c Cert.ReferenceIdeal.main_arg5).trans (Cert.Sage.RefChain.arg5_kept m' c),
      (h c Cert.ReferenceIdeal.main_arg6).trans (Cert.Sage.RefChain.arg6_kept m' c),
      (h c Cert.ReferenceIdeal.main_arg7).trans (Cert.Sage.RefChain.arg7_kept m' c),
      (h c Cert.ReferenceIdeal.main_arg8).trans (Cert.Sage.RefChain.arg8_kept m' c),
      (h c Cert.ReferenceIdeal.main_arg9).trans (Cert.Sage.RefChain.arg9_kept m' c),
      (h c Cert.ReferenceIdeal.main_arg10).trans (Cert.Sage.RefChain.arg10_kept m' c),
      (h c Cert.ReferenceIdeal.main_arg11).trans (Cert.Sage.RefChain.arg11_kept m' c),
      (h c Cert.ReferenceIdeal.main_arg12).trans (Cert.Sage.RefChain.arg12_kept m' c)⟩)
    (Cert.ReferenceIdeal.ValueP.run_after (F := Ideal) m' ρ')

/-- The ideal pass rewrote no operation. -/
theorem preserves : Cert.preserves_Kernel_KernelIdeal := trivial

/-- Both runs end at the reference's last stage of the (agreeing) arguments. -/
theorem algebraic : Cert.algebraic_KernelIdeal_ReferenceIdeal := by
  intro m ρ m' ρ' _ hagree
  refine ⟨_, (θ_run (Cert.KernelIdeal.defs (F := Ideal)) _ _).mono
    (fun _ h c => ⟨(h c).1.trans (Cert.Sage.KChain.kernel_result m ρ c), (h c).2⟩)
    (Cert.KernelIdeal.RunResult.run_result (F := Ideal) m ρ), ?_⟩
  refine (θ_run (Cert.ReferenceIdeal.defs (F := Ideal)) _ _).mono (fun _ h c => ?_) (Cert.ReferenceIdeal.ValueP.run_after (F := Ideal) m' ρ')
  obtain ⟨e0, e1, e2, e3, e4, e5, e6, e7, e8, e9, e10, e11, e12⟩ := hagree c
  refine ⟨(h c Cert.ReferenceIdeal.main_v272).trans ((Cert.Sage.RefChain.result m' c).trans ?_),
      (h c Cert.ReferenceIdeal.main_arg0).trans (Cert.Sage.RefChain.arg0_kept m' c),
      (h c Cert.ReferenceIdeal.main_arg1).trans (Cert.Sage.RefChain.arg1_kept m' c),
      (h c Cert.ReferenceIdeal.main_arg2).trans (Cert.Sage.RefChain.arg2_kept m' c),
      (h c Cert.ReferenceIdeal.main_arg3).trans (Cert.Sage.RefChain.arg3_kept m' c),
      (h c Cert.ReferenceIdeal.main_arg4).trans (Cert.Sage.RefChain.arg4_kept m' c),
      (h c Cert.ReferenceIdeal.main_arg5).trans (Cert.Sage.RefChain.arg5_kept m' c),
      (h c Cert.ReferenceIdeal.main_arg6).trans (Cert.Sage.RefChain.arg6_kept m' c),
      (h c Cert.ReferenceIdeal.main_arg7).trans (Cert.Sage.RefChain.arg7_kept m' c),
      (h c Cert.ReferenceIdeal.main_arg8).trans (Cert.Sage.RefChain.arg8_kept m' c),
      (h c Cert.ReferenceIdeal.main_arg9).trans (Cert.Sage.RefChain.arg9_kept m' c),
      (h c Cert.ReferenceIdeal.main_arg10).trans (Cert.Sage.RefChain.arg10_kept m' c),
      (h c Cert.ReferenceIdeal.main_arg11).trans (Cert.Sage.RefChain.arg11_kept m' c),
      (h c Cert.ReferenceIdeal.main_arg12).trans (Cert.Sage.RefChain.arg12_kept m' c)⟩
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
